-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x128 : Shape := ⟨2, ![1024, 128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  main_v18

def fn {F : FTy → Type} [FloatOps F] (main_arg0 : FVec F S4x4096x1024 .f32) (main_arg1 : FVec F S1024x128 .f32) (main_arg2 : FVec F S1024x128 .f32) (main_arg3 : FVec F S1024x128 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_v13 main_v16
-- ==== Kernel.lean ====
abbrev S4x4096x1024 : Shape := ⟨3, ![4, 4096, 1024]⟩
abbrev S1024x128 : Shape := ⟨2, ![1024, 128]⟩
abbrev S_ : Shape := ⟨0, ![]⟩
abbrev S4x4096x128 : Shape := ⟨3, ![4, 4096, 128]⟩
abbrev S1x1024x1024 : Shape := ⟨3, ![1, 1024, 1024]⟩
abbrev S1x1024x128 : Shape := ⟨3, ![1, 1024, 128]⟩
abbrev S1024x1024 : Shape := ⟨2, ![1024, 1024]⟩
abbrev S1x4096x128 : Shape := ⟨3, ![1, 4096, 128]⟩
abbrev S1024x1 : Shape := ⟨2, ![1024, 1]⟩
abbrev S1024 : Shape := ⟨1, ![1024]⟩

abbrev nBuf : Space → Nat
  | .hbm => 11
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S4x4096x128, .bf16⟩
  | .hbm, ⟨8, _⟩ => ⟨S4x4096x128, .bf16⟩
  | .hbm, ⟨9, _⟩ => ⟨S4x4096x128, .bf16⟩
  | .hbm, ⟨10, _⟩ => ⟨S4x4096x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x1024x128, .f32⟩
  | .local _ .vmem, ⟨18, _⟩ => ⟨S1x1024x128, .f32⟩
  | .local _ .vmem, ⟨19, _⟩ => ⟨S1024x1, .f32⟩
  | .local _ .vmem, ⟨20, _⟩ => ⟨S1024x1, .f32⟩
  | .local _ .vmem, ⟨21, _⟩ => ⟨S1024x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S1024x128 : S_.BroadcastsInDim S1024x128 (![] : Fin 0 → Fin S1024x128.rank)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x4096x128_S1x1024x128_0_0_0 : ∀ a, (![0, 0, 0] : Fin 3 → Nat) a + S1x1024x128.size a ≤ S1x4096x128.size a
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  inb_S1x4096x128_S1x1024x128_0_1024_0 : ∀ a, (![0, 1024, 0] : Fin 3 → Nat) a + S1x1024x128.size a ≤ S1x4096x128.size a
  inb_S1x4096x128_S1x1024x128_0_2048_0 : ∀ a, (![0, 2048, 0] : Fin 3 → Nat) a + S1x1024x128.size a ≤ S1x4096x128.size a
  inb_S1x4096x128_S1x1024x128_0_3072_0 : ∀ a, (![0, 3072, 0] : Fin 3 → Nat) a + S1x1024x128.size a ≤ S1x4096x128.size a
  dot_S1024x1024_S1024x128_S1024x128_1_0_0_1_n_n_wf : DotDims.WF S1024x1024 S1024x128 S1024x128 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S4x4096x128.size a
  hwx0_4 : ∀ i : grid0.Coords, EltTy.bits .bf16 = 32 ∨ (Rect.block (s := S4x4096x128) S1x1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S4x4096x128.size a
  hwx0_5 : ∀ i : grid0.Coords, EltTy.bits .bf16 = 32 ∨ (Rect.block (s := S4x4096x128) S1x1024x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S4x4096x128.size a
  hwx0_6 : ∀ i : grid0.Coords, EltTy.bits .bf16 = 32 ∨ (Rect.block (s := S4x4096x128) S1x1024x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S4x4096x128.size a
  hwx1_0 : ∀ i : grid1.Coords, EltTy.bits .bf16 = 32 ∨ (Rect.block (s := S4x4096x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S4x4096x128.size a
  hwx1_1 : ∀ i : grid1.Coords, EltTy.bits .bf16 = 32 ∨ (Rect.block (s := S4x4096x128) S1x4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x128.size a ≤ S4x4096x128.size a
  hwx1_2 : ∀ i : grid1.Coords, EltTy.bits .bf16 = 32 ∨ (Rect.block (s := S4x4096x128) S1x4096x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S4x4096x128.size a
  hwx1_3 : ∀ i : grid1.Coords, EltTy.bits .f32 = 32 ∨ (Rect.block (s := S4x4096x128) S1x1024x128.size (cc1_transform_3 i) (hinb1_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1024x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x128 : Shape := ⟨2, ![1024, 128]⟩
abbrev S4x4096x128 : Shape := ⟨3, ![4, 4096, 128]⟩
abbrev S_ : Shape := ⟨0, ![]⟩
abbrev S4x4096x4096 : Shape := ⟨3, ![4, 4096, 4096]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S4x4096x128, .f32⟩
  | .hbm, ⟨5, _⟩ => ⟨S4x4096x128, .f32⟩
  | .hbm, ⟨6, _⟩ => ⟨S4x4096x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .i1⟩
  | .hbm, ⟨15, _⟩ => ⟨S4096x4096, .i1⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .i1⟩
  | .hbm, ⟨23, _⟩ => ⟨S4096x4096, .i1⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4x4096x4096, .i1⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096x1, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S4x4096x4096, .f32⟩
  | .hbm, ⟨43, _⟩ => ⟨S4x4096x4096, .f32⟩
  | .hbm, ⟨44, _⟩ => ⟨S4x4096x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v9 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x128_S4x4096x128_2_0_01_1_n_n_wf : DotDims.WF S4x4096x1024 S1024x128 S4x4096x128 [2] [0] [0, 1] [1] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x1024_S1024x128_S4x4096x128_2_0_01_1_n_n : DotDims S4x4096x1024 S1024x128 S4x4096x128 where
  lhsContracting := [2]
  rhsContracting := [0]
  lhsNonContracting := [0, 1]
  rhsNonContracting := [1]
  lhsBatch := []
  rhsBatch := []
  wf := dot_S4x4096x1024_S1024x128_S4x4096x128_2_0_01_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.ProjRegionBits.lean ====
import proofs.«130832_j91044716740856_2_alg».proof.Proof.Gen.Kernel.Launch
import proofs.«130832_j91044716740856_2_alg».proof.Proof.Gen.Kernel.Skeleton
import proofs.«130832_j91044716740856_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The projection region: three products of one context block with three weight matrices

The first kernel region multiplies one block of the context, rounded to bf16, by each of three weight
matrices, rounded to bf16, and stores the three products, rounded to bf16, each as one whole block of its own
output window. Everything below is stated at a parameter `V`, the contents of the TensorCore's buffers when
the region is entered, and for any float instance `F`:

* `iblk0` — the block of a window's array at a grid point;
* `projOut4`, `projOut5`, `projOut6` — what the three output windows' buffers hold after the body, as
  functions of the four input blocks;
* `soundProj` — the body's triple: inputs kept, outputs at those functions;
* `dat0` — the region's proof data, and `body_obligation0` — the body meets it at every grid point. -/

-- membership of an index in a rectangle of these extents is found by a structural walk, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

/- The contents of the TensorCore's buffers, core by core, when the region is entered. -/
variable (V : (c : Dev nD) → (b : Ref sig .tc) → Buf (Elt F) ((c : Thread nD τ).loc b))

/-! ## The windows' blocks -/

/-- The block of window `w` at grid point `t`: the part of the window's array, as the region finds it, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The context window's buffer holds the context block of the point at every point: it is fetched at each one. Stated
    for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first weight window's buffer holds the whole weight at every point, although it is fetched at the first point
    only: its block index never moves, so the buffer keeps what the first fetch put there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of the second weight window, -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- and of the third. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is of a whole block -/

/-- The whole context block, `1×1024×1024`. -/
abbrev rCtx : Rect S1x1024x1024 := Rect.unit (s := S1x1024x1024) ![0, 0, 0] S1x1024x1024.size inb_S1x1024x1024_S1x1024x1024_0_0_0
/-- A whole weight matrix, `1024×128`. -/
abbrev rWgt : Rect S1024x128 := Rect.unit (s := S1024x128) ![0, 0] S1024x128.size inb_S1024x128_S1024x128_0_0
/-- A whole output block, `1×1024×128`. -/
abbrev rOut : Rect S1x1024x128 := Rect.unit (s := S1x1024x128) ![0, 0, 0] S1x1024x128.size inb_S1x1024x128_S1x1024x128_0_0_0

/-! ## What the body leaves in each output window's buffer -/

/-- The first output block: the context block `x` and the first weight `a`, each rounded to bf16, multiplied with f32
    accumulation from zero, the product rounded to bf16 — laid over the whole buffer by the body's one store into it. -/
def projOut4 (x : Vec F S1x1024x1024 .f32) (a : Vec F S1024x128 .f32) : Vec F S1x1024x128 .bf16 :=
  View.canon [⟨rOut, k0_pay2 (View.ld x rCtx) (View.ld a rWgt)⟩]

/-- The second output block: the same product with the second weight `b`. -/
def projOut5 (x : Vec F S1x1024x1024 .f32) (b : Vec F S1024x128 .f32) : Vec F S1x1024x128 .bf16 :=
  View.canon [⟨rOut, k0_pay3 (View.ld x rCtx) (View.ld b rWgt)⟩]

/-- The third output block: the same product with the third weight `g`. -/
def projOut6 (x : Vec F S1x1024x1024 .f32) (g : Vec F S1024x128 .f32) : Vec F S1x1024x128 .bf16 :=
  View.canon [⟨rOut, k0_pay4 (View.ld x rCtx) (View.ld g rWgt)⟩]

/-- One store through the whole-block rectangle covers the output buffer, whatever it stores: the rectangle is the
    one tile of a tiling by blocks of the buffer's own extents. -/
theorem coverOut (p : Vec F S1x1024x128 .bf16) (y : S1x1024x128.Idx) :
    ∃ pc ∈ ([⟨rOut, p⟩] : List (View.Piece (Elt F) S1x1024x128 .bf16)), y ∈ pc.1.set :=
  View.cover_of_tiled [⟨rOut, p⟩] S1x1024x128.size (by rfl) y

/-! ## The body's triple -/

set_option maxHeartbeats 1000000 in
/-- The body, called on whole staging memrefs — the context's holding `x`, the weights' holding `a`, `b`, `g`, the
    outputs' holding anything — runs to a continuation that is given the four inputs as they were and the three
    outputs at `projOut4 x a`, `projOut5 x b`, `projOut6 x g`. The printed function is its skeleton of four loads, and
    per output one load whose value nothing reads followed by one store of the whole block; what the store leaves, read
    back whole, is the one-piece overlay because the piece covers the buffer. -/
theorem soundProj (c : Dev nD) (E : Set ℕ) (i : grid0.Coords)
    (arg2 : Memref sig .tc .vmem S1x1024x1024 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1x1024x128 .bf16) (harg6 : arg6.IsWhole)
    (arg7 : Memref sig .tc .vmem S1x1024x128 .bf16) (harg7 : arg7.IsWhole)
    (arg8 : Memref sig .tc .vmem S1x1024x128 .bf16) (harg8 : arg8.IsWhole)
    (x : Vec F S1x1024x1024 .f32) (a b g : Vec F S1024x128 .f32) (K : PUnit → sProp 𝕄) :
    iprop(owns (c : Thread nD τ) arg2 fullShare x ∗ owns (c : Thread nD τ) arg3 fullShare a
        ∗ owns (c : Thread nD τ) arg4 fullShare b ∗ owns (c : Thread nD τ) arg5 fullShare g
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x ∗ owns (c : Thread nD τ) arg3 fullShare a
            ∗ owns (c : Thread nD τ) arg4 fullShare b ∗ owns (c : Thread nD τ) arg5 fullShare g
            ∗ owns (c : Thread nD τ) arg6 fullShare (projOut4 x a) ∗ owns (c : Thread nD τ) arg7 fullShare (projOut5 x b)
            ∗ owns (c : Thread nD τ) arg8 fullShare (projOut6 x g)) -∗ K ⟨⟩))
      ⊢ wp frame (wpE (defs₀ (F := F)) Variants.none c none) E
          (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverOut _)
  isplitl [H5]
  · iexists _; isplitr
    swap; · iexact H5
    ipureintro
    exact View.read_writes_eq_canon _ _ _ (coverOut _)
  iexists _; isplitr
  swap; · iexact H6
  ipureintro
  exact View.read_writes_eq_canon _ _ _ (coverOut _)

/-! ## The region's proof data -/

/-- The proof data of the projection pipeline on core `c`. The arrays are the entry contents `V`. After the body at
    point `t` each input window's buffer still holds its block, and the three output windows' buffers hold
    `projOut4`, `projOut5`, `projOut6` of the context block and of the first, second and third weight. The invariant
    is the core's scoped buffers that are no staging buffer of this region, each at some contents, and the generator
    register at some state: the body passes it on unread. Shares are full; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => projOut4 (iblk0 V c 0 t) (iblk0 V c 1 t)
    | ⟨5, _⟩ => projOut5 (iblk0 V c 0 t) (iblk0 V c 2 t)
    | ⟨6, _⟩ => projOut6 (iblk0 V c 0 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window: the inputs' blocks, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
/-- and the three products. -/
theorem after0_4 (c : Dev nD) (t : Fin cfg0.N) : (dat0 V c).after 4 t = projOut4 (iblk0 V c 0 t) (iblk0 V c 1 t) := by dsimp only [dat0]
theorem after0_5 (c : Dev nD) (t : Fin cfg0.N) : (dat0 V c).after 5 t = projOut5 (iblk0 V c 0 t) (iblk0 V c 2 t) := by dsimp only [dat0]
theorem after0_6 (c : Dev nD) (t : Fin cfg0.N) : (dat0 V c).after 6 t = projOut6 (iblk0 V c 0 t) (iblk0 V c 3 t) := by dsimp only [dat0]

/-- Each input window's buffer holds its block when the body is called, at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's debt, and each of the seven windows' current
    staging memref at what the window then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the invariant and the debt of the next point, each memref at what the proof data says the body
    leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point. The four input memrefs hold their blocks (`before0_W`), the three output memrefs hold
    something, so `soundProj` applies at the point's blocks; the invariant and the debt, which do not depend on the
    point, pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (soundProj c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The projection body meets its proof data at every point of the grid. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.FlashRegionBits.lean ====
import proofs.«130832_j91044716740856_2_alg».proof.Proof.Gen.Kernel.Launch
import proofs.«130832_j91044716740856_2_alg».proof.Proof.Gen.Kernel.Skeleton
import proofs.«130832_j91044716740856_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The attention region: one query tile against the key tiles at or below it

The second kernel region computes, per batch row and query tile `q` (a grid of `4 × 4` points), causal softmax
attention by the running-maximum scheme: three running buffers (row maximum, row denominator, numerator) are reset,
then for each key tile `k ≤ q` the masked scores of the query block against the tile rescale and extend them, and at
the end the numerator is divided by the denominator into the output block. Key tiles `k > q` are skipped by a
branch on the grid coordinate. Everything below is for any float instance `F`:

* `visits` — which key tiles a point visits, decided over the grid;
* `flashRun0 … flashRun3` — the body's run at query tile 0 … 3 (one … four tiles visited), with the pieces the
  output block ends with;
* `flashAt` — what the output window's buffer holds after the body at a point; `dat1` — the region's proof data;
  `body_obligation1` — the body meets it at every point. The running buffers are the region's own scratch: every
  point overwrites them whole before reading them, so the region's invariant holds them at some contents. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which key tiles a query tile visits

The attention body walks the key tiles `k = 0, 1, 2, 3` of its batch row and visits tile `k` exactly when
`k ≤ q`, `q` the query tile's position (the grid's second coordinate): the causal triangle, tile by tile. -/

/-- Key tile `k` is visited at grid coordinates `i`: the signed comparison `i 1 ≥ k` on 32-bit words. -/
abbrev visits (k : BitVec 32) (i : grid1.Coords) : Prop :=
  (Scalar.cmpi .ne (Scalar.extui (Scalar.cmpi .sge (BitVec.ofNat 32 (i 1).val) k)) 0#32) = 1#1

/-- Tile 0 is visited at every point. -/
theorem visits0 : ∀ t : Fin cfg1.N, visits 0#32 (grid1.coords t) :=
  (by decide +kernel : ∀ t : Fin grid1.N, visits 0#32 (grid1.coords t))
/-- Tile 1 is visited from query tile 1 on. -/
theorem visits1 : ∀ t : Fin cfg1.N, visits 1#32 (grid1.coords t) ↔ 1 ≤ t.val % 4 :=
  (by decide +kernel : ∀ t : Fin grid1.N, visits 1#32 (grid1.coords t) ↔ 1 ≤ t.val % 4)
/-- Tile 2 is visited from query tile 2 on. -/
theorem visits2 : ∀ t : Fin cfg1.N, visits 2#32 (grid1.coords t) ↔ 2 ≤ t.val % 4 :=
  (by decide +kernel : ∀ t : Fin grid1.N, visits 2#32 (grid1.coords t) ↔ 2 ≤ t.val % 4)
/-- Tile 3 is visited at query tile 3 only. -/
theorem visits3 : ∀ t : Fin cfg1.N, visits 3#32 (grid1.coords t) ↔ 3 ≤ t.val % 4 :=
  (by decide +kernel : ∀ t : Fin grid1.N, visits 3#32 (grid1.coords t) ↔ 3 ≤ t.val % 4)

/-! ## The body's run, case by case -/

set_option maxHeartbeats 4000000 in
/-- THE BODY AT QUERY TILE 0: only key tile 0 is visited. On whole memrefs — the query block, the keys and the values of the batch row at their contents, the
    output block and the three running buffers (row maximum, row denominator, numerator) at anything — the body runs
    to the continuation with the inputs as they were, the output block with the pieces it stored (found by the run)
    and the running buffers at some contents. -/
noncomputable def flashRun0 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : ¬visits 1#32 i) (hc2 : ¬visits 2#32 i) (hc3 : ¬visits 3#32 i)
    (x0 : Vec F S1x1024x128 .bf16) (x1 : Vec F S1x4096x128 .bf16) (x2 : Vec F S1x4096x128 .bf16) :
    { L3 : List (View.Piece (Elt F) S1x1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d)
            ∗ (∃ d, owns (c : Thread nD τ) a6 fullShare d) ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ d, owns (c : Thread nD τ) a6 fullShare d) ∗ (∃ d, owns (c : Thread nD τ) a7 fullShare d) ∗ (∃ d, owns (c : Thread nD τ) a8 fullShare d)) -∗ K ⟨⟩))
          ⊢ wp frame (wpE (defs₀ (F := F)) Variants.none c none) E (cc1__flash_kernel i a2 h2 a3 h3 a4 h4 a5 h5 a6 h6 a7 h7 a8 h8) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := h2.eq_unread hf0; obtain rfl := h3.eq_unread hf1; obtain rfl := h4.eq_unread hf2
    sl_exec (disch := first | exact hc0 | exact hc1 | exact hc2 | exact hc3)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H6]
    · iexists _, _; isplitr
      swap; · iexact H6
      ipureintro; rfl
    isplitl [H7]
    · iexists _, _; isplitr
      swap; · iexact H7
      ipureintro; rfl
    iexists _, _; isplitr
    swap; · iexact H8
    ipureintro; rfl

set_option maxHeartbeats 4000000 in
/-- THE BODY AT QUERY TILE 1: key tiles 0 and 1 are visited. On whole memrefs — the query block, the keys and the values of the batch row at their contents, the
    output block and the three running buffers (row maximum, row denominator, numerator) at anything — the body runs
    to the continuation with the inputs as they were, the output block with the pieces it stored (found by the run)
    and the running buffers at some contents. -/
noncomputable def flashRun1 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : ¬visits 2#32 i) (hc3 : ¬visits 3#32 i)
    (x0 : Vec F S1x1024x128 .bf16) (x1 : Vec F S1x4096x128 .bf16) (x2 : Vec F S1x4096x128 .bf16) :
    { L3 : List (View.Piece (Elt F) S1x1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d)
            ∗ (∃ d, owns (c : Thread nD τ) a6 fullShare d) ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ d, owns (c : Thread nD τ) a6 fullShare d) ∗ (∃ d, owns (c : Thread nD τ) a7 fullShare d) ∗ (∃ d, owns (c : Thread nD τ) a8 fullShare d)) -∗ K ⟨⟩))
          ⊢ wp frame (wpE (defs₀ (F := F)) Variants.none c none) E (cc1__flash_kernel i a2 h2 a3 h3 a4 h4 a5 h5 a6 h6 a7 h7 a8 h8) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := h2.eq_unread hf0; obtain rfl := h3.eq_unread hf1; obtain rfl := h4.eq_unread hf2
    sl_exec (disch := first | exact hc0 | exact hc1 | exact hc2 | exact hc3)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H6]
    · iexists _, _; isplitr
      swap; · iexact H6
      ipureintro; rfl
    isplitl [H7]
    · iexists _, _; isplitr
      swap; · iexact H7
      ipureintro; rfl
    iexists _, _; isplitr
    swap; · iexact H8
    ipureintro; rfl

set_option maxHeartbeats 4000000 in
/-- THE BODY AT QUERY TILE 2: key tiles 0, 1 and 2 are visited. On whole memrefs — the query block, the keys and the values of the batch row at their contents, the
    output block and the three running buffers (row maximum, row denominator, numerator) at anything — the body runs
    to the continuation with the inputs as they were, the output block with the pieces it stored (found by the run)
    and the running buffers at some contents. -/
noncomputable def flashRun2 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : visits 2#32 i) (hc3 : ¬visits 3#32 i)
    (x0 : Vec F S1x1024x128 .bf16) (x1 : Vec F S1x4096x128 .bf16) (x2 : Vec F S1x4096x128 .bf16) :
    { L3 : List (View.Piece (Elt F) S1x1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d)
            ∗ (∃ d, owns (c : Thread nD τ) a6 fullShare d) ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ d, owns (c : Thread nD τ) a6 fullShare d) ∗ (∃ d, owns (c : Thread nD τ) a7 fullShare d) ∗ (∃ d, owns (c : Thread nD τ) a8 fullShare d)) -∗ K ⟨⟩))
          ⊢ wp frame (wpE (defs₀ (F := F)) Variants.none c none) E (cc1__flash_kernel i a2 h2 a3 h3 a4 h4 a5 h5 a6 h6 a7 h7 a8 h8) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := h2.eq_unread hf0; obtain rfl := h3.eq_unread hf1; obtain rfl := h4.eq_unread hf2
    sl_exec (disch := first | exact hc0 | exact hc1 | exact hc2 | exact hc3)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H6]
    · iexists _, _; isplitr
      swap; · iexact H6
      ipureintro; rfl
    isplitl [H7]
    · iexists _, _; isplitr
      swap; · iexact H7
      ipureintro; rfl
    iexists _, _; isplitr
    swap; · iexact H8
    ipureintro; rfl

set_option maxHeartbeats 4000000 in
/-- THE BODY AT QUERY TILE 3: all four key tiles are visited. On whole memrefs — the query block, the keys and the values of the batch row at their contents, the
    output block and the three running buffers (row maximum, row denominator, numerator) at anything — the body runs
    to the continuation with the inputs as they were, the output block with the pieces it stored (found by the run)
    and the running buffers at some contents. -/
noncomputable def flashRun3 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : visits 2#32 i) (hc3 : visits 3#32 i)
    (x0 : Vec F S1x1024x128 .bf16) (x1 : Vec F S1x4096x128 .bf16) (x2 : Vec F S1x4096x128 .bf16) :
    { L3 : List (View.Piece (Elt F) S1x1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d)
            ∗ (∃ d, owns (c : Thread nD τ) a6 fullShare d) ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ d, owns (c : Thread nD τ) a6 fullShare d) ∗ (∃ d, owns (c : Thread nD τ) a7 fullShare d) ∗ (∃ d, owns (c : Thread nD τ) a8 fullShare d)) -∗ K ⟨⟩))
          ⊢ wp frame (wpE (defs₀ (F := F)) Variants.none c none) E (cc1__flash_kernel i a2 h2 a3 h3 a4 h4 a5 h5 a6 h6 a7 h7 a8 h8) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := h2.eq_unread hf0; obtain rfl := h3.eq_unread hf1; obtain rfl := h4.eq_unread hf2
    sl_exec (disch := first | exact hc0 | exact hc1 | exact hc2 | exact hc3)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H6]
    · iexists _, _; isplitr
      swap; · iexact H6
      ipureintro; rfl
    isplitl [H7]
    · iexists _, _; isplitr
      swap; · iexact H7
      ipureintro; rfl
    iexists _, _; isplitr
    swap; · iexact H8
    ipureintro; rfl

/-! ## What the output block holds after the body, case by case -/

/-- One staging buffer of the output window, through which its contents are stated (the pieces cover the block, so the
    choice does not matter). -/
abbrev VO1 : View sig .tc .vmem S1x1024x128 .f32 := (Memref.whole cc1_stg3_0 : Memref sig .tc .vmem S1x1024x128 .f32).view

/-- At query tile 0 the body's one store into the output block covers it. -/
theorem flashCover0 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : ¬visits 1#32 i) (hc2 : ¬visits 2#32 i) (hc3 : ¬visits 3#32 i)
    (x0 : Vec F S1x1024x128 .bf16) (x1 : Vec F S1x4096x128 .bf16) (x2 : Vec F S1x4096x128 .bf16) (y : S1x1024x128.Idx) :
    ∃ pc ∈ (flashRun0 c i a2 h2 a3 h3 a4 h4 a5 h5 a6 h6 a7 h7 a8 h8 hc0 hc1 hc2 hc3 x0 x1 x2).1, y ∈ pc.1.set :=
  View.cover_of_tiledL (flashRun0 c i a2 h2 a3 h3 a4 h4 a5 h5 a6 h6 a7 h7 a8 h8 hc0 hc1 hc2 hc3 x0 x1 x2).1 S1x1024x128.size (by sl_kernel_rfl) y

/-- What the output block holds after the body at query tile 0: the run's pieces read back. -/
def flashOut0 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : ¬visits 1#32 i) (hc2 : ¬visits 2#32 i) (hc3 : ¬visits 3#32 i)
    (x0 : Vec F S1x1024x128 .bf16) (x1 : Vec F S1x4096x128 .bf16) (x2 : Vec F S1x4096x128 .bf16) : Vec F S1x1024x128 .f32 :=
  VO1.read (Elt F) (VO1.writes (Elt F) VO1.junk (flashRun0 c i a2 h2 a3 h3 a4 h4 a5 h5 a6 h6 a7 h7 a8 h8 hc0 hc1 hc2 hc3 x0 x1 x2).1)

/-- At query tile 1 the body's one store into the output block covers it. -/
theorem flashCover1 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : ¬visits 2#32 i) (hc3 : ¬visits 3#32 i)
    (x0 : Vec F S1x1024x128 .bf16) (x1 : Vec F S1x4096x128 .bf16) (x2 : Vec F S1x4096x128 .bf16) (y : S1x1024x128.Idx) :
    ∃ pc ∈ (flashRun1 c i a2 h2 a3 h3 a4 h4 a5 h5 a6 h6 a7 h7 a8 h8 hc0 hc1 hc2 hc3 x0 x1 x2).1, y ∈ pc.1.set :=
  View.cover_of_tiledL (flashRun1 c i a2 h2 a3 h3 a4 h4 a5 h5 a6 h6 a7 h7 a8 h8 hc0 hc1 hc2 hc3 x0 x1 x2).1 S1x1024x128.size (by sl_kernel_rfl) y

/-- What the output block holds after the body at query tile 1: the run's pieces read back. -/
def flashOut1 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : ¬visits 2#32 i) (hc3 : ¬visits 3#32 i)
    (x0 : Vec F S1x1024x128 .bf16) (x1 : Vec F S1x4096x128 .bf16) (x2 : Vec F S1x4096x128 .bf16) : Vec F S1x1024x128 .f32 :=
  VO1.read (Elt F) (VO1.writes (Elt F) VO1.junk (flashRun1 c i a2 h2 a3 h3 a4 h4 a5 h5 a6 h6 a7 h7 a8 h8 hc0 hc1 hc2 hc3 x0 x1 x2).1)

/-- At query tile 2 the body's one store into the output block covers it. -/
theorem flashCover2 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : visits 2#32 i) (hc3 : ¬visits 3#32 i)
    (x0 : Vec F S1x1024x128 .bf16) (x1 : Vec F S1x4096x128 .bf16) (x2 : Vec F S1x4096x128 .bf16) (y : S1x1024x128.Idx) :
    ∃ pc ∈ (flashRun2 c i a2 h2 a3 h3 a4 h4 a5 h5 a6 h6 a7 h7 a8 h8 hc0 hc1 hc2 hc3 x0 x1 x2).1, y ∈ pc.1.set :=
  View.cover_of_tiledL (flashRun2 c i a2 h2 a3 h3 a4 h4 a5 h5 a6 h6 a7 h7 a8 h8 hc0 hc1 hc2 hc3 x0 x1 x2).1 S1x1024x128.size (by sl_kernel_rfl) y

/-- What the output block holds after the body at query tile 2: the run's pieces read back. -/
def flashOut2 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : visits 2#32 i) (hc3 : ¬visits 3#32 i)
    (x0 : Vec F S1x1024x128 .bf16) (x1 : Vec F S1x4096x128 .bf16) (x2 : Vec F S1x4096x128 .bf16) : Vec F S1x1024x128 .f32 :=
  VO1.read (Elt F) (VO1.writes (Elt F) VO1.junk (flashRun2 c i a2 h2 a3 h3 a4 h4 a5 h5 a6 h6 a7 h7 a8 h8 hc0 hc1 hc2 hc3 x0 x1 x2).1)

/-- At query tile 3 the body's one store into the output block covers it. -/
theorem flashCover3 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : visits 2#32 i) (hc3 : visits 3#32 i)
    (x0 : Vec F S1x1024x128 .bf16) (x1 : Vec F S1x4096x128 .bf16) (x2 : Vec F S1x4096x128 .bf16) (y : S1x1024x128.Idx) :
    ∃ pc ∈ (flashRun3 c i a2 h2 a3 h3 a4 h4 a5 h5 a6 h6 a7 h7 a8 h8 hc0 hc1 hc2 hc3 x0 x1 x2).1, y ∈ pc.1.set :=
  View.cover_of_tiledL (flashRun3 c i a2 h2 a3 h3 a4 h4 a5 h5 a6 h6 a7 h7 a8 h8 hc0 hc1 hc2 hc3 x0 x1 x2).1 S1x1024x128.size (by sl_kernel_rfl) y

/-- What the output block holds after the body at query tile 3: the run's pieces read back. -/
def flashOut3 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : visits 2#32 i) (hc3 : visits 3#32 i)
    (x0 : Vec F S1x1024x128 .bf16) (x1 : Vec F S1x4096x128 .bf16) (x2 : Vec F S1x4096x128 .bf16) : Vec F S1x1024x128 .f32 :=
  VO1.read (Elt F) (VO1.writes (Elt F) VO1.junk (flashRun3 c i a2 h2 a3 h3 a4 h4 a5 h5 a6 h6 a7 h7 a8 h8 hc0 hc1 hc2 hc3 x0 x1 x2).1)

/-! ## The memrefs the pipeline calls the body with -/

/-- Each window's current staging memref at point `t`, and its wholeness. -/
abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- The three running buffers: whole scoped buffers of the kernel's own, passed beside the windows. -/
abbrev scM : Memref sig .tc .vmem S1024x1 .f32 := Memref.whole cc1_scratch0
abbrev scL : Memref sig .tc .vmem S1024x1 .f32 := Memref.whole cc1_scratch1
abbrev scA : Memref sig .tc .vmem S1024x128 .f32 := Memref.whole cc1_scratch2

/-- A scoped buffer held whole at some contents. -/
abbrev heldSome (c : Dev nD) (r : Ref sig .tc) : sProp 𝕄 :=
  iprop(∃ f : Buf (Elt F) ((c : Thread nD τ).loc r), ((c : Thread nD τ).loc r) ↦{fullShare} f)

/-- The region's invariant spelled out: the other region's eleven staging buffers at some contents, the three running
    buffers owned as memrefs at some contents, and the generator register at some state. -/
theorem PhiA1_eq (c : Dev nD) :
    (Pipeline.ΦA spec1 c : sProp 𝕄)
      = iprop(iprop(heldSome (F := F) c cc0_stg0_0 ∗ heldSome (F := F) c cc0_stg0_1 ∗ heldSome (F := F) c cc0_stg1_0 ∗ heldSome (F := F) c cc0_stg2_0
          ∗ heldSome (F := F) c cc0_stg3_0 ∗ heldSome (F := F) c cc0_stg4_0 ∗ heldSome (F := F) c cc0_stg4_1 ∗ heldSome (F := F) c cc0_stg5_0
          ∗ heldSome (F := F) c cc0_stg5_1 ∗ heldSome (F := F) c cc0_stg6_0 ∗ heldSome (F := F) c cc0_stg6_1
          ∗ (∃ d, owns (c : Thread nD τ) scM fullShare d) ∗ (∃ d, owns (c : Thread nD τ) scL fullShare d) ∗ (∃ d, owns (c : Thread nD τ) scA fullShare d))
        ∗ (∃ r, prngReg c r)) := by
  unfold Pipeline.ΦA; rw [scopedRest1_eq]; simp only [owns_whole]; try rfl

section Region1

/- The contents of the TensorCore's buffers, core by core, when the region is entered. -/
variable (V : (c : Dev nD) → (b : Ref sig .tc) → Buf (Elt F) ((c : Thread nD τ).loc b))

/-! ## The windows' blocks -/

/-- The block of window `w` at grid point `t`: the part of the window's array, as the region finds it, that the
    window's index map selects there (the query tile; the whole key and value rows of the batch). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block when the body is called, at every point, fetched there or not (the keys'
    and values' block index moves only with the batch row, so between fetches the buffer keeps the block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block when the body is called, at every point, fetched there or not (the keys'
    and values' block index moves only with the batch row, so between fetches the buffer keeps the block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block when the body is called, at every point, fetched there or not (the keys'
    and values' block index moves only with the batch row, so between fetches the buffer keeps the block). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output window holds after each point -/

/-- The output block after the body at point `t`: the case of the point's query tile (`t mod 4`), run at the point's
    memrefs and input blocks. -/
def flashAt (c : Dev nD) (t : Fin cfg1.N) : Vec F S1x1024x128 .f32 :=
  if h1 : 1 ≤ t.val % 4 then
    if h2 : 2 ≤ t.val % 4 then
      if h3 : 3 ≤ t.val % 4 then
        flashOut3 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) ((visits2 t).mpr h2) ((visits3 t).mpr h3) (iblk1 V c 0 t) (iblk1 V c 1 t) (iblk1 V c 2 t)
      else
        flashOut2 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) ((visits2 t).mpr h2) (fun h => h3 ((visits3 t).mp h)) (iblk1 V c 0 t) (iblk1 V c 1 t) (iblk1 V c 2 t)
    else
      flashOut1 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) (fun h => h2 ((visits2 t).mp h)) (fun h => h2 (by have := (visits3 t).mp h; omega)) (iblk1 V c 0 t) (iblk1 V c 1 t) (iblk1 V c 2 t)
  else
    flashOut0 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) (fun h => h1 ((visits1 t).mp h)) (fun h => h1 (by have := (visits2 t).mp h; omega)) (fun h => h1 (by have := (visits3 t).mp h; omega)) (iblk1 V c 0 t) (iblk1 V c 1 t) (iblk1 V c 2 t)

theorem flashAt_0 (c : Dev nD) (t : Fin cfg1.N) (h1 : ¬1 ≤ t.val % 4) :
    flashAt V c t = flashOut0 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) (fun h => h1 ((visits1 t).mp h)) (fun h => h1 (by have := (visits2 t).mp h; omega)) (fun h => h1 (by have := (visits3 t).mp h; omega)) (iblk1 V c 0 t) (iblk1 V c 1 t) (iblk1 V c 2 t) := by
  unfold flashAt; rw [dif_neg h1]
theorem flashAt_1 (c : Dev nD) (t : Fin cfg1.N) (h1 : 1 ≤ t.val % 4) (h2 : ¬2 ≤ t.val % 4) :
    flashAt V c t = flashOut1 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) (fun h => h2 ((visits2 t).mp h)) (fun h => h2 (by have := (visits3 t).mp h; omega)) (iblk1 V c 0 t) (iblk1 V c 1 t) (iblk1 V c 2 t) := by
  unfold flashAt; rw [dif_pos h1, dif_neg h2]
theorem flashAt_2 (c : Dev nD) (t : Fin cfg1.N) (h1 : 1 ≤ t.val % 4) (h2 : 2 ≤ t.val % 4) (h3 : ¬3 ≤ t.val % 4) :
    flashAt V c t = flashOut2 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) ((visits2 t).mpr h2) (fun h => h3 ((visits3 t).mp h)) (iblk1 V c 0 t) (iblk1 V c 1 t) (iblk1 V c 2 t) := by
  unfold flashAt; rw [dif_pos h1, dif_pos h2, dif_neg h3]
theorem flashAt_3 (c : Dev nD) (t : Fin cfg1.N) (h1 : 1 ≤ t.val % 4) (h2 : 2 ≤ t.val % 4) (h3 : 3 ≤ t.val % 4) :
    flashAt V c t = flashOut3 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) ((visits2 t).mpr h2) ((visits3 t).mpr h3) (iblk1 V c 0 t) (iblk1 V c 1 t) (iblk1 V c 2 t) := by
  unfold flashAt; rw [dif_pos h1, dif_pos h2, dif_pos h3]

/-! ## The region's proof data -/

/-- The proof data of the attention pipeline on core `c`. The arrays are the entry contents `V`. After the body at
    point `t` each input window's buffer still holds its block and the output window's holds `flashAt`. The
    invariant is the core's scoped buffers that are no staging buffer of this region — the running buffers among
    them — each at some contents, and the generator register at some state. Shares are full; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => flashAt V c t
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = flashAt V c t := by dsimp only [dat1]

/-- Each input window's buffer holds its block when the body is called. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4800000 in
/-- The body at any point: the input memrefs hold their blocks; the point's query tile says which case it is in, and
    that case's run applies; the invariant lends the running buffers and takes them back at some contents; the output
    block ends at the case's pieces read back, which cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, PhiA1_eq]
  by_cases h1 : 1 ≤ t.val % 4
  · by_cases h2 : 2 ≤ t.val % 4
    · by_cases h3 : 3 ≤ t.val % 4
      · rw [flashAt_3 V c t h1 h2 h3]; unfold flashOut3
        iintro ⟨⟨⟨Hb0, Hb1, Hb2, Hb3, Hb4, Hb5, Hb6, Hb7, Hb8, Hb9, Hb10, HS0, HS1, HS2⟩, Hg⟩, Ho, ⟨%d0, H0⟩, ⟨%d1, H1⟩, ⟨%d2, H2⟩, ⟨%d3, H3⟩⟩
        iapply ((flashRun3 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) ((visits2 t).mpr h2) ((visits3 t).mpr h3) (iblk1 V c 0 t) (iblk1 V c 1 t) (iblk1 V c 2 t)).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [Hb0 Hb1 Hb2 Hb3 Hb4 Hb5 Hb6 Hb7 Hb8 Hb9 Hb10 HS0 HS1 HS2 Hg]
        · isplitr [Hg]
          · isplitl [Hb0]; · iexact Hb0
            isplitl [Hb1]; · iexact Hb1
            isplitl [Hb2]; · iexact Hb2
            isplitl [Hb3]; · iexact Hb3
            isplitl [Hb4]; · iexact Hb4
            isplitl [Hb5]; · iexact Hb5
            isplitl [Hb6]; · iexact Hb6
            isplitl [Hb7]; · iexact Hb7
            isplitl [Hb8]; · iexact Hb8
            isplitl [Hb9]; · iexact Hb9
            isplitl [Hb10]; · iexact Hb10
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (flashCover3 _ _ _ _ _ _ _ _ _ _ _ _ _ _ _ _ _ _ _ _ _ _ _)
      · rw [flashAt_2 V c t h1 h2 h3]; unfold flashOut2
        iintro ⟨⟨⟨Hb0, Hb1, Hb2, Hb3, Hb4, Hb5, Hb6, Hb7, Hb8, Hb9, Hb10, HS0, HS1, HS2⟩, Hg⟩, Ho, ⟨%d0, H0⟩, ⟨%d1, H1⟩, ⟨%d2, H2⟩, ⟨%d3, H3⟩⟩
        iapply ((flashRun2 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) ((visits2 t).mpr h2) (fun h => h3 ((visits3 t).mp h)) (iblk1 V c 0 t) (iblk1 V c 1 t) (iblk1 V c 2 t)).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [Hb0 Hb1 Hb2 Hb3 Hb4 Hb5 Hb6 Hb7 Hb8 Hb9 Hb10 HS0 HS1 HS2 Hg]
        · isplitr [Hg]
          · isplitl [Hb0]; · iexact Hb0
            isplitl [Hb1]; · iexact Hb1
            isplitl [Hb2]; · iexact Hb2
            isplitl [Hb3]; · iexact Hb3
            isplitl [Hb4]; · iexact Hb4
            isplitl [Hb5]; · iexact Hb5
            isplitl [Hb6]; · iexact Hb6
            isplitl [Hb7]; · iexact Hb7
            isplitl [Hb8]; · iexact Hb8
            isplitl [Hb9]; · iexact Hb9
            isplitl [Hb10]; · iexact Hb10
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (flashCover2 _ _ _ _ _ _ _ _ _ _ _ _ _ _ _ _ _ _ _ _ _ _ _)
    · rw [flashAt_1 V c t h1 h2]; unfold flashOut1
      iintro ⟨⟨⟨Hb0, Hb1, Hb2, Hb3, Hb4, Hb5, Hb6, Hb7, Hb8, Hb9, Hb10, HS0, HS1, HS2⟩, Hg⟩, Ho, ⟨%d0, H0⟩, ⟨%d1, H1⟩, ⟨%d2, H2⟩, ⟨%d3, H3⟩⟩
      iapply ((flashRun1 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) (fun h => h2 ((visits2 t).mp h)) (fun h => h2 (by have := (visits3 t).mp h; omega)) (iblk1 V c 0 t) (iblk1 V c 1 t) (iblk1 V c 2 t)).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, HS2⟩
      isplitl [Hb0 Hb1 Hb2 Hb3 Hb4 Hb5 Hb6 Hb7 Hb8 Hb9 Hb10 HS0 HS1 HS2 Hg]
      · isplitr [Hg]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          isplitl [Hb10]; · iexact Hb10
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (flashCover1 _ _ _ _ _ _ _ _ _ _ _ _ _ _ _ _ _ _ _ _ _ _ _)
  · rw [flashAt_0 V c t h1]; unfold flashOut0
    iintro ⟨⟨⟨Hb0, Hb1, Hb2, Hb3, Hb4, Hb5, Hb6, Hb7, Hb8, Hb9, Hb10, HS0, HS1, HS2⟩, Hg⟩, Ho, ⟨%d0, H0⟩, ⟨%d1, H1⟩, ⟨%d2, H2⟩, ⟨%d3, H3⟩⟩
    iapply ((flashRun0 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) (fun h => h1 ((visits1 t).mp h)) (fun h => h1 (by have := (visits2 t).mp h; omega)) (fun h => h1 (by have := (visits3 t).mp h; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hb0 Hb1 Hb2 Hb3 Hb4 Hb5 Hb6 Hb7 Hb8 Hb9 Hb10 HS0 HS1 HS2 Hg]
    · isplitr [Hg]
      · isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        isplitl [Hb8]; · iexact Hb8
        isplitl [Hb9]; · iexact Hb9
        isplitl [Hb10]; · iexact Hb10
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (flashCover0 _ _ _ _ _ _ _ _ _ _ _ _ _ _ _ _ _ _ _ _ _ _ _)

/-- The attention body meets its proof data at every point of the grid. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.AttnRunBits.lean ====
import proofs.«130832_j91044716740856_2_alg».proof.Proof.ProjRegionBits
import proofs.«130832_j91044716740856_2_alg».proof.Proof.FlashRegionBits

/-! # The run of the whole program: three host operations, the projection region, the attention region

The program first scales the query weights on the host (a constant, its broadcast, a product), then enters the
projection region, then the attention region, and returns. This module follows the contents of every buffer of a
core that outlives a region through those three segments, for any float instance `F`:

* `W0` … `W3` — the contents at launch, after the host operations, after the projection region, after the
  attention region. A host stretch changes what its operations write; a region changes its windows' arrays to what
  its pipeline leaves there (an input array is left as entered, an output array holds its write-backs) and nothing
  else. `V1`, `V2` are `W1`, `W2` read at the core's references: what the two regions' proof data are taken at.
* the read-back lemmas — every argument array ends as launched (`W3_main_arg0` …); the result array ends at what
  the attention pipeline leaves (`W3_main_v3`); the attention region is entered with the three projections at what
  the projection pipeline leaves (`V2_main_v2_0` …) and the projection region with the arguments as launched and the
  scaled query weights (`V1_main_arg0` …, `V1_main_v1`).
* `run_all` — every weakly fair execution of the program terminates, and at the end every such buffer of every
  core holds `W3`; `frame` — in particular the four argument arrays end as launched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of a core's buffers at each boundary -/

/-- Core `c`'s buffers at launch. -/
abbrev W0 : Dev nD → Valuation τ sig (Elt F) := fun c b => (s₀ m ρ).mem ((c : Dev nD), b)
/-- After the three host operations: the projection region's entry. -/
abbrev W1 : Dev nD → Valuation τ sig (Elt F) := fun c => StableHlo.after hostOps0 (W0 m ρ c)
/-- The same, read at the core's references: what the projection region's proof data are taken at. -/
abbrev V1 : (c : Dev nD) → (b : Ref sig .tc) → Buf (Elt F) ((c : Thread nD τ).loc b) := fun c b => W1 m ρ c b
/-- After the projection region: its windows' arrays at what the pipeline leaves, every other buffer as entered. -/
def W2 (c : Dev nD) : Valuation τ sig (Elt F) :=
  Pipeline.withArrays spec0 c (W1 m ρ c) fun w => (dat0 (V1 m ρ) c).arrAt w cfg0.N
/-- After the projection region, window `w`'s array holds what the pipeline leaves there. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- After the projection region, a buffer that is no window's array holds what it held at entry. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's references: what the attention region's proof data are taken at. -/
abbrev V2 : (c : Dev nD) → (b : Ref sig .tc) → Buf (Elt F) ((c : Thread nD τ).loc b) := fun c b => W2 m ρ c b
/-- At the projection region's exit each of its arrays holds what the pipeline leaves … -/
theorem hF0 (c : Dev nD) (w : Fin cfg0.W) : (dat0 (V1 m ρ) c).arrAt w cfg0.N = V2 m ρ c (Pipeline.arrRef spec0 w) :=
  (W2_arr m ρ c w).symm
/-- … and every other buffer what it held at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention region: its windows' arrays at what the pipeline leaves, every other buffer as entered. -/
def W3 (c : Dev nD) : Valuation τ sig (Elt F) :=
  Pipeline.withArrays spec1 c (W2 m ρ c) fun w => (dat1 (V2 m ρ) c).arrAt w cfg1.N
/-- After the attention region, window `w`'s array holds what the pipeline leaves there. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- After the attention region, a buffer that is no window's array holds what it held at entry. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the core's references. -/
abbrev V3 : (c : Dev nD) → (b : Ref sig .tc) → Buf (Elt F) ((c : Thread nD τ).loc b) := fun c b => W3 m ρ c b
/-- At the attention region's exit each of its arrays holds what the pipeline leaves … -/
theorem hF1 (c : Dev nD) (w : Fin cfg1.W) : (dat1 (V2 m ρ) c).arrAt w cfg1.N = V3 m ρ c (Pipeline.arrRef spec1 w) :=
  (W3_arr m ρ c w).symm
/-- … and every other buffer what it held at entry. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## Reading the contents back -/

/-- The host operations write the constant, its broadcast and the scaled query weights, and nothing else. -/
theorem W1_of_not_written (c : Dev nD) (b : Ref sig .tc) (h0 : main_cst ≠ b) (h1 : main_v0 ≠ b) (h2 : main_v1 ≠ b) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      Finset.mem_singleton]
    exact ⟨(StableHlo.devRef_ne_of_ne h0).symm, (StableHlo.devRef_ne_of_ne h1).symm, (StableHlo.devRef_ne_of_ne h2).symm⟩))

/-- The projection region is entered with the context array as launched. -/
theorem V1_main_arg0 (c : Dev nD) : V1 m ρ c main_arg0 = m ((c : Thread nD τ).loc main_arg0) :=
  W1_of_not_written m ρ c main_arg0 (by decide) (by decide) (by decide)
/-- The projection region is entered with the key weights as launched. -/
theorem V1_main_arg1 (c : Dev nD) : V1 m ρ c main_arg1 = m ((c : Thread nD τ).loc main_arg1) :=
  W1_of_not_written m ρ c main_arg1 (by decide) (by decide) (by decide)
/-- The query weights themselves are as launched after the host operations (their scaled copy is another buffer). -/
theorem V1_main_arg2 (c : Dev nD) : V1 m ρ c main_arg2 = m ((c : Thread nD τ).loc main_arg2) :=
  W1_of_not_written m ρ c main_arg2 (by decide) (by decide) (by decide)
/-- The projection region is entered with the value weights as launched. -/
theorem V1_main_arg3 (c : Dev nD) : V1 m ρ c main_arg3 = m ((c : Thread nD τ).loc main_arg3) :=
  W1_of_not_written m ρ c main_arg3 (by decide) (by decide) (by decide)

/-- The projection region is entered with the query weights times the broadcast constant `2⁻⁵` in the scaled
    weights' buffer: the three host operations composed. -/
theorem V1_main_v1 (c : Dev nD) :
    (V1 m ρ c main_v1 : (⟨S1024x128, .f32⟩ : BufTy).Contents (Elt F))
      = mulf (m ((c : Thread nD τ).loc main_arg2))
          (broadcastInDim S1024x128 ![] bcast_S_S1024x128 (constant (F := F) S_ .f32 0x3D000000#32)) := by
  dsimp only [V1, W1, W0, hostOps0]
  after_results

/-- An input window's array of the projection region is left as entered. -/
theorem V2_in (c : Dev nD) (w : Fin cfg0.W) (hin : (cfg0.win w).isOut = false) :
    V2 m ρ c (Pipeline.arrRef spec0 w) = V1 m ρ c (Pipeline.arrRef spec0 w) :=
  (W2_arr m ρ c w).trans (((dat0 (V1 m ρ) c).arrAt_in w hin _).trans (A_eq0 (V1 m ρ) c w))

/-- The attention region is entered with the query projection at what the projection pipeline leaves. -/
theorem V2_main_v2_0 (c : Dev nD) : V2 m ρ c main_v2_0 = (dat0 (V1 m ρ) c).arrAt 4 cfg0.N := W2_arr m ρ c 4
/-- The attention region is entered with the key projection at what the projection pipeline leaves. -/
theorem V2_main_v2_1 (c : Dev nD) : V2 m ρ c main_v2_1 = (dat0 (V1 m ρ) c).arrAt 5 cfg0.N := W2_arr m ρ c 5
/-- The attention region is entered with the value projection at what the projection pipeline leaves. -/
theorem V2_main_v2_2 (c : Dev nD) : V2 m ρ c main_v2_2 = (dat0 (V1 m ρ) c).arrAt 6 cfg0.N := W2_arr m ρ c 6
/-- Every buffer but the three projections is, at the attention region's entry, what it was at the projection
    region's: the input arrays are left as entered, the others are not touched. -/
theorem V2_of_not_out (c : Dev nD) (b : Ref sig .tc) (h4 : main_v2_0 ≠ b) (h5 : main_v2_1 ≠ b) (h6 : main_v2_2 ≠ b) :
    V2 m ρ c b = V1 m ρ c b := by
  by_cases hb : ∃ w, Pipeline.arrRef spec0 w = b
  · obtain ⟨w, rfl⟩ := hb
    match w with
    | ⟨0, _⟩ => exact V2_in m ρ c 0 rfl
    | ⟨1, _⟩ => exact V2_in m ρ c 1 rfl
    | ⟨2, _⟩ => exact V2_in m ρ c 2 rfl
    | ⟨3, _⟩ => exact V2_in m ρ c 3 rfl
    | ⟨4, _⟩ => exact absurd rfl h4
    | ⟨5, _⟩ => exact absurd rfl h5
    | ⟨6, _⟩ => exact absurd rfl h6
  · exact W2_of_ne m ρ c b fun w e => hb ⟨w, e⟩

/-- The result array ends at what the attention pipeline leaves. -/
theorem W3_main_v3 (c : Dev nD) : W3 m ρ c (Proc.devRef .tc main_v3) = (dat1 (V2 m ρ) c).arrAt 3 cfg1.N := W3_arr m ρ c 3

/-- The context array ends as launched: no host operation writes it, the projection region reads it through an
    input window, the attention region does not touch it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := V2_in m ρ c 0 rfl
    _ = m ((c : Thread nD τ).loc main_arg0) := V1_main_arg0 m ρ c
/-- The key weights end as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := V2_in m ρ c 2 rfl
    _ = m ((c : Thread nD τ).loc main_arg1) := V1_main_arg1 m ρ c
/-- The query weights end as launched: the host reads them, and no region has them among its arrays. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := V1_main_arg2 m ρ c
/-- The value weights end as launched. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := V2_in m ρ c 3 rfl
    _ = m ((c : Thread nD τ).loc main_arg3) := V1_main_arg3 m ρ c

/-! ## The proof data family and the thread state -/

/-- No pipeline has a prefetched table. -/
abbrev adm : (p : Fin 2) → (pcfgs (F := F) p).Adm := fun p => (cfgs p).toPCfg_adm
/-- Each pipeline's proof data, at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A stretch of host operations as a segment over the buffers that outlive a region, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- A reference of the core that outlives a region is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every such buffer at the last contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region over the thread state: entered with every buffer at `W1`, left with every buffer at `W2`.
    Its arrays are split out of the buffers at entry and put back at the exit contents; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered with every buffer at `W2`, left with every buffer at `W3`,
    the last contents, beside the core owing nothing. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the host operations from the launch contents, the projection region, the
    attention region. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program on the cores terminates,
    nothing faulting, and in every final state every buffer of a core that outlives a region holds the last
    contents `W3`: the launch over the three segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- The frame claim: every weakly fair execution of the program terminates, nothing faulting, and the four argument
    arrays end as launched — `run_all` read at the four arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Hand

end
-- ==== Proof.ProjRegion.lean ====
import proofs.«130832_j91044716740856_2_alg».proof.Proof.Gen.KernelIdeal.Launch
import proofs.«130832_j91044716740856_2_alg».proof.Proof.Gen.KernelIdeal.Skeleton
import proofs.«130832_j91044716740856_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The projection region: three products of one context block with three weight matrices

The first kernel region multiplies one block of the context, rounded to bf16, by each of three weight
matrices, rounded to bf16, and stores the three products, rounded to bf16, each as one whole block of its own
output window. Everything below is stated at a parameter `V`, the contents of the TensorCore's buffers when
the region is entered, and for any float instance `F`:

* `iblk0` — the block of a window's array at a grid point;
* `projOut4`, `projOut5`, `projOut6` — what the three output windows' buffers hold after the body, as
  functions of the four input blocks;
* `soundProj` — the body's triple: inputs kept, outputs at those functions;
* `dat0` — the region's proof data, and `body_obligation0` — the body meets it at every grid point. -/

-- membership of an index in a rectangle of these extents is found by a structural walk, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0

/- The contents of the TensorCore's buffers, core by core, when the region is entered. -/
variable (V : (c : Dev nD) → (b : Ref sig .tc) → Buf (Elt F) ((c : Thread nD τ).loc b))

/-! ## The windows' blocks -/

/-- The block of window `w` at grid point `t`: the part of the window's array, as the region finds it, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The context window's buffer holds the context block of the point at every point: it is fetched at each one. Stated
    for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first weight window's buffer holds the whole weight at every point, although it is fetched at the first point
    only: its block index never moves, so the buffer keeps what the first fetch put there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of the second weight window, -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- and of the third. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is of a whole block -/

/-- The whole context block, `1×1024×1024`. -/
abbrev rCtx : Rect S1x1024x1024 := Rect.unit (s := S1x1024x1024) ![0, 0, 0] S1x1024x1024.size inb_S1x1024x1024_S1x1024x1024_0_0_0
/-- A whole weight matrix, `1024×128`. -/
abbrev rWgt : Rect S1024x128 := Rect.unit (s := S1024x128) ![0, 0] S1024x128.size inb_S1024x128_S1024x128_0_0
/-- A whole output block, `1×1024×128`. -/
abbrev rOut : Rect S1x1024x128 := Rect.unit (s := S1x1024x128) ![0, 0, 0] S1x1024x128.size inb_S1x1024x128_S1x1024x128_0_0_0

/-! ## What the body leaves in each output window's buffer -/

/-- The first output block: the context block `x` and the first weight `a`, each rounded to bf16, multiplied with f32
    accumulation from zero, the product rounded to bf16 — laid over the whole buffer by the body's one store into it. -/
def projOut4 (x : Vec F S1x1024x1024 .f32) (a : Vec F S1024x128 .f32) : Vec F S1x1024x128 .bf16 :=
  View.canon [⟨rOut, k0_pay2 (View.ld x rCtx) (View.ld a rWgt)⟩]

/-- The second output block: the same product with the second weight `b`. -/
def projOut5 (x : Vec F S1x1024x1024 .f32) (b : Vec F S1024x128 .f32) : Vec F S1x1024x128 .bf16 :=
  View.canon [⟨rOut, k0_pay3 (View.ld x rCtx) (View.ld b rWgt)⟩]

/-- The third output block: the same product with the third weight `g`. -/
def projOut6 (x : Vec F S1x1024x1024 .f32) (g : Vec F S1024x128 .f32) : Vec F S1x1024x128 .bf16 :=
  View.canon [⟨rOut, k0_pay4 (View.ld x rCtx) (View.ld g rWgt)⟩]

/-- One store through the whole-block rectangle covers the output buffer, whatever it stores: the rectangle is the
    one tile of a tiling by blocks of the buffer's own extents. -/
theorem coverOut (p : Vec F S1x1024x128 .bf16) (y : S1x1024x128.Idx) :
    ∃ pc ∈ ([⟨rOut, p⟩] : List (View.Piece (Elt F) S1x1024x128 .bf16)), y ∈ pc.1.set :=
  View.cover_of_tiled [⟨rOut, p⟩] S1x1024x128.size (by rfl) y

/-! ## The body's triple -/

set_option maxHeartbeats 1000000 in
/-- The body, called on whole staging memrefs — the context's holding `x`, the weights' holding `a`, `b`, `g`, the
    outputs' holding anything — runs to a continuation that is given the four inputs as they were and the three
    outputs at `projOut4 x a`, `projOut5 x b`, `projOut6 x g`. The printed function is its skeleton of four loads, and
    per output one load whose value nothing reads followed by one store of the whole block; what the store leaves, read
    back whole, is the one-piece overlay because the piece covers the buffer. -/
theorem soundProj (c : Dev nD) (E : Set ℕ) (i : grid0.Coords)
    (arg2 : Memref sig .tc .vmem S1x1024x1024 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1x1024x128 .bf16) (harg6 : arg6.IsWhole)
    (arg7 : Memref sig .tc .vmem S1x1024x128 .bf16) (harg7 : arg7.IsWhole)
    (arg8 : Memref sig .tc .vmem S1x1024x128 .bf16) (harg8 : arg8.IsWhole)
    (x : Vec F S1x1024x1024 .f32) (a b g : Vec F S1024x128 .f32) (K : PUnit → sProp 𝕄) :
    iprop(owns (c : Thread nD τ) arg2 fullShare x ∗ owns (c : Thread nD τ) arg3 fullShare a
        ∗ owns (c : Thread nD τ) arg4 fullShare b ∗ owns (c : Thread nD τ) arg5 fullShare g
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x ∗ owns (c : Thread nD τ) arg3 fullShare a
            ∗ owns (c : Thread nD τ) arg4 fullShare b ∗ owns (c : Thread nD τ) arg5 fullShare g
            ∗ owns (c : Thread nD τ) arg6 fullShare (projOut4 x a) ∗ owns (c : Thread nD τ) arg7 fullShare (projOut5 x b)
            ∗ owns (c : Thread nD τ) arg8 fullShare (projOut6 x g)) -∗ K ⟨⟩))
      ⊢ wp frame (wpE (defs₀ (F := F)) Variants.none c none) E
          (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverOut _)
  isplitl [H5]
  · iexists _; isplitr
    swap; · iexact H5
    ipureintro
    exact View.read_writes_eq_canon _ _ _ (coverOut _)
  iexists _; isplitr
  swap; · iexact H6
  ipureintro
  exact View.read_writes_eq_canon _ _ _ (coverOut _)

/-! ## The region's proof data -/

/-- The proof data of the projection pipeline on core `c`. The arrays are the entry contents `V`. After the body at
    point `t` each input window's buffer still holds its block, and the three output windows' buffers hold
    `projOut4`, `projOut5`, `projOut6` of the context block and of the first, second and third weight. The invariant
    is the core's scoped buffers that are no staging buffer of this region, each at some contents, and the generator
    register at some state: the body passes it on unread. Shares are full; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => projOut4 (iblk0 V c 0 t) (iblk0 V c 1 t)
    | ⟨5, _⟩ => projOut5 (iblk0 V c 0 t) (iblk0 V c 2 t)
    | ⟨6, _⟩ => projOut6 (iblk0 V c 0 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window: the inputs' blocks, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
/-- and the three products. -/
theorem after0_4 (c : Dev nD) (t : Fin cfg0.N) : (dat0 V c).after 4 t = projOut4 (iblk0 V c 0 t) (iblk0 V c 1 t) := by dsimp only [dat0]
theorem after0_5 (c : Dev nD) (t : Fin cfg0.N) : (dat0 V c).after 5 t = projOut5 (iblk0 V c 0 t) (iblk0 V c 2 t) := by dsimp only [dat0]
theorem after0_6 (c : Dev nD) (t : Fin cfg0.N) : (dat0 V c).after 6 t = projOut6 (iblk0 V c 0 t) (iblk0 V c 3 t) := by dsimp only [dat0]

/-- Each input window's buffer holds its block when the body is called, at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's debt, and each of the seven windows' current
    staging memref at what the window then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the invariant and the debt of the next point, each memref at what the proof data says the body
    leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point. The four input memrefs hold their blocks (`before0_W`), the three output memrefs hold
    something, so `soundProj` applies at the point's blocks; the invariant and the debt, which do not depend on the
    point, pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (soundProj c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The projection body meets its proof data at every point of the grid. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.FlashRegion.lean ====
import proofs.«130832_j91044716740856_2_alg».proof.Proof.Gen.KernelIdeal.Launch
import proofs.«130832_j91044716740856_2_alg».proof.Proof.Gen.KernelIdeal.Skeleton
import proofs.«130832_j91044716740856_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The attention region: one query tile against the key tiles at or below it

The second kernel region computes, per batch row and query tile `q` (a grid of `4 × 4` points), causal softmax
attention by the running-maximum scheme: three running buffers (row maximum, row denominator, numerator) are reset,
then for each key tile `k ≤ q` the masked scores of the query block against the tile rescale and extend them, and at
the end the numerator is divided by the denominator into the output block. Key tiles `k > q` are skipped by a
branch on the grid coordinate. Everything below is for any float instance `F`:

* `visits` — which key tiles a point visits, decided over the grid;
* `flashRun0 … flashRun3` — the body's run at query tile 0 … 3 (one … four tiles visited), with the pieces the
  output block ends with;
* `flashAt` — what the output window's buffer holds after the body at a point; `dat1` — the region's proof data;
  `body_obligation1` — the body meets it at every point. The running buffers are the region's own scratch: every
  point overwrites them whole before reading them, so the region's invariant holds them at some contents. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Which key tiles a query tile visits

The attention body walks the key tiles `k = 0, 1, 2, 3` of its batch row and visits tile `k` exactly when
`k ≤ q`, `q` the query tile's position (the grid's second coordinate): the causal triangle, tile by tile. -/

/-- Key tile `k` is visited at grid coordinates `i`: the signed comparison `i 1 ≥ k` on 32-bit words. -/
abbrev visits (k : BitVec 32) (i : grid1.Coords) : Prop :=
  (Scalar.cmpi .ne (Scalar.extui (Scalar.cmpi .sge (BitVec.ofNat 32 (i 1).val) k)) 0#32) = 1#1

/-- Tile 0 is visited at every point. -/
theorem visits0 : ∀ t : Fin cfg1.N, visits 0#32 (grid1.coords t) :=
  (by decide +kernel : ∀ t : Fin grid1.N, visits 0#32 (grid1.coords t))
/-- Tile 1 is visited from query tile 1 on. -/
theorem visits1 : ∀ t : Fin cfg1.N, visits 1#32 (grid1.coords t) ↔ 1 ≤ t.val % 4 :=
  (by decide +kernel : ∀ t : Fin grid1.N, visits 1#32 (grid1.coords t) ↔ 1 ≤ t.val % 4)
/-- Tile 2 is visited from query tile 2 on. -/
theorem visits2 : ∀ t : Fin cfg1.N, visits 2#32 (grid1.coords t) ↔ 2 ≤ t.val % 4 :=
  (by decide +kernel : ∀ t : Fin grid1.N, visits 2#32 (grid1.coords t) ↔ 2 ≤ t.val % 4)
/-- Tile 3 is visited at query tile 3 only. -/
theorem visits3 : ∀ t : Fin cfg1.N, visits 3#32 (grid1.coords t) ↔ 3 ≤ t.val % 4 :=
  (by decide +kernel : ∀ t : Fin grid1.N, visits 3#32 (grid1.coords t) ↔ 3 ≤ t.val % 4)

/-! ## The body's run, case by case -/

set_option maxHeartbeats 4000000 in
/-- THE BODY AT QUERY TILE 0: only key tile 0 is visited. On whole memrefs — the query block, the keys and the values of the batch row at their contents, the
    output block and the three running buffers (row maximum, row denominator, numerator) at anything — the body runs
    to the continuation with the inputs as they were, the output block with the pieces it stored (found by the run)
    and the running buffers at some contents. -/
noncomputable def flashRun0 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : ¬visits 1#32 i) (hc2 : ¬visits 2#32 i) (hc3 : ¬visits 3#32 i)
    (x0 : Vec F S1x1024x128 .bf16) (x1 : Vec F S1x4096x128 .bf16) (x2 : Vec F S1x4096x128 .bf16) :
    { L3 : List (View.Piece (Elt F) S1x1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d)
            ∗ (∃ d, owns (c : Thread nD τ) a6 fullShare d) ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ d, owns (c : Thread nD τ) a6 fullShare d) ∗ (∃ d, owns (c : Thread nD τ) a7 fullShare d) ∗ (∃ d, owns (c : Thread nD τ) a8 fullShare d)) -∗ K ⟨⟩))
          ⊢ wp frame (wpE (defs₀ (F := F)) Variants.none c none) E (cc1__flash_kernel i a2 h2 a3 h3 a4 h4 a5 h5 a6 h6 a7 h7 a8 h8) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := h2.eq_unread hf0; obtain rfl := h3.eq_unread hf1; obtain rfl := h4.eq_unread hf2
    sl_exec (disch := first | exact hc0 | exact hc1 | exact hc2 | exact hc3)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H6]
    · iexists _, _; isplitr
      swap; · iexact H6
      ipureintro; rfl
    isplitl [H7]
    · iexists _, _; isplitr
      swap; · iexact H7
      ipureintro; rfl
    iexists _, _; isplitr
    swap; · iexact H8
    ipureintro; rfl

set_option maxHeartbeats 4000000 in
/-- THE BODY AT QUERY TILE 1: key tiles 0 and 1 are visited. On whole memrefs — the query block, the keys and the values of the batch row at their contents, the
    output block and the three running buffers (row maximum, row denominator, numerator) at anything — the body runs
    to the continuation with the inputs as they were, the output block with the pieces it stored (found by the run)
    and the running buffers at some contents. -/
noncomputable def flashRun1 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : ¬visits 2#32 i) (hc3 : ¬visits 3#32 i)
    (x0 : Vec F S1x1024x128 .bf16) (x1 : Vec F S1x4096x128 .bf16) (x2 : Vec F S1x4096x128 .bf16) :
    { L3 : List (View.Piece (Elt F) S1x1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d)
            ∗ (∃ d, owns (c : Thread nD τ) a6 fullShare d) ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ d, owns (c : Thread nD τ) a6 fullShare d) ∗ (∃ d, owns (c : Thread nD τ) a7 fullShare d) ∗ (∃ d, owns (c : Thread nD τ) a8 fullShare d)) -∗ K ⟨⟩))
          ⊢ wp frame (wpE (defs₀ (F := F)) Variants.none c none) E (cc1__flash_kernel i a2 h2 a3 h3 a4 h4 a5 h5 a6 h6 a7 h7 a8 h8) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := h2.eq_unread hf0; obtain rfl := h3.eq_unread hf1; obtain rfl := h4.eq_unread hf2
    sl_exec (disch := first | exact hc0 | exact hc1 | exact hc2 | exact hc3)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H6]
    · iexists _, _; isplitr
      swap; · iexact H6
      ipureintro; rfl
    isplitl [H7]
    · iexists _, _; isplitr
      swap; · iexact H7
      ipureintro; rfl
    iexists _, _; isplitr
    swap; · iexact H8
    ipureintro; rfl

set_option maxHeartbeats 4000000 in
/-- THE BODY AT QUERY TILE 2: key tiles 0, 1 and 2 are visited. On whole memrefs — the query block, the keys and the values of the batch row at their contents, the
    output block and the three running buffers (row maximum, row denominator, numerator) at anything — the body runs
    to the continuation with the inputs as they were, the output block with the pieces it stored (found by the run)
    and the running buffers at some contents. -/
noncomputable def flashRun2 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : visits 2#32 i) (hc3 : ¬visits 3#32 i)
    (x0 : Vec F S1x1024x128 .bf16) (x1 : Vec F S1x4096x128 .bf16) (x2 : Vec F S1x4096x128 .bf16) :
    { L3 : List (View.Piece (Elt F) S1x1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d)
            ∗ (∃ d, owns (c : Thread nD τ) a6 fullShare d) ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ d, owns (c : Thread nD τ) a6 fullShare d) ∗ (∃ d, owns (c : Thread nD τ) a7 fullShare d) ∗ (∃ d, owns (c : Thread nD τ) a8 fullShare d)) -∗ K ⟨⟩))
          ⊢ wp frame (wpE (defs₀ (F := F)) Variants.none c none) E (cc1__flash_kernel i a2 h2 a3 h3 a4 h4 a5 h5 a6 h6 a7 h7 a8 h8) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := h2.eq_unread hf0; obtain rfl := h3.eq_unread hf1; obtain rfl := h4.eq_unread hf2
    sl_exec (disch := first | exact hc0 | exact hc1 | exact hc2 | exact hc3)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H6]
    · iexists _, _; isplitr
      swap; · iexact H6
      ipureintro; rfl
    isplitl [H7]
    · iexists _, _; isplitr
      swap; · iexact H7
      ipureintro; rfl
    iexists _, _; isplitr
    swap; · iexact H8
    ipureintro; rfl

set_option maxHeartbeats 4000000 in
/-- THE BODY AT QUERY TILE 3: all four key tiles are visited. On whole memrefs — the query block, the keys and the values of the batch row at their contents, the
    output block and the three running buffers (row maximum, row denominator, numerator) at anything — the body runs
    to the continuation with the inputs as they were, the output block with the pieces it stored (found by the run)
    and the running buffers at some contents. -/
noncomputable def flashRun3 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : visits 2#32 i) (hc3 : visits 3#32 i)
    (x0 : Vec F S1x1024x128 .bf16) (x1 : Vec F S1x4096x128 .bf16) (x2 : Vec F S1x4096x128 .bf16) :
    { L3 : List (View.Piece (Elt F) S1x1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d)
            ∗ (∃ d, owns (c : Thread nD τ) a6 fullShare d) ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ d, owns (c : Thread nD τ) a6 fullShare d) ∗ (∃ d, owns (c : Thread nD τ) a7 fullShare d) ∗ (∃ d, owns (c : Thread nD τ) a8 fullShare d)) -∗ K ⟨⟩))
          ⊢ wp frame (wpE (defs₀ (F := F)) Variants.none c none) E (cc1__flash_kernel i a2 h2 a3 h3 a4 h4 a5 h5 a6 h6 a7 h7 a8 h8) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := h2.eq_unread hf0; obtain rfl := h3.eq_unread hf1; obtain rfl := h4.eq_unread hf2
    sl_exec (disch := first | exact hc0 | exact hc1 | exact hc2 | exact hc3)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H6]
    · iexists _, _; isplitr
      swap; · iexact H6
      ipureintro; rfl
    isplitl [H7]
    · iexists _, _; isplitr
      swap; · iexact H7
      ipureintro; rfl
    iexists _, _; isplitr
    swap; · iexact H8
    ipureintro; rfl

/-! ## What the output block holds after the body, case by case -/

/-- One staging buffer of the output window, through which its contents are stated (the pieces cover the block, so the
    choice does not matter). -/
abbrev VO1 : View sig .tc .vmem S1x1024x128 .f32 := (Memref.whole cc1_stg3_0 : Memref sig .tc .vmem S1x1024x128 .f32).view

/-- At query tile 0 the body's one store into the output block covers it. -/
theorem flashCover0 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : ¬visits 1#32 i) (hc2 : ¬visits 2#32 i) (hc3 : ¬visits 3#32 i)
    (x0 : Vec F S1x1024x128 .bf16) (x1 : Vec F S1x4096x128 .bf16) (x2 : Vec F S1x4096x128 .bf16) (y : S1x1024x128.Idx) :
    ∃ pc ∈ (flashRun0 c i a2 h2 a3 h3 a4 h4 a5 h5 a6 h6 a7 h7 a8 h8 hc0 hc1 hc2 hc3 x0 x1 x2).1, y ∈ pc.1.set :=
  View.cover_of_tiledL (flashRun0 c i a2 h2 a3 h3 a4 h4 a5 h5 a6 h6 a7 h7 a8 h8 hc0 hc1 hc2 hc3 x0 x1 x2).1 S1x1024x128.size (by sl_kernel_rfl) y

/-- What the output block holds after the body at query tile 0: the run's pieces read back. -/
def flashOut0 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : ¬visits 1#32 i) (hc2 : ¬visits 2#32 i) (hc3 : ¬visits 3#32 i)
    (x0 : Vec F S1x1024x128 .bf16) (x1 : Vec F S1x4096x128 .bf16) (x2 : Vec F S1x4096x128 .bf16) : Vec F S1x1024x128 .f32 :=
  VO1.read (Elt F) (VO1.writes (Elt F) VO1.junk (flashRun0 c i a2 h2 a3 h3 a4 h4 a5 h5 a6 h6 a7 h7 a8 h8 hc0 hc1 hc2 hc3 x0 x1 x2).1)

/-- At query tile 1 the body's one store into the output block covers it. -/
theorem flashCover1 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : ¬visits 2#32 i) (hc3 : ¬visits 3#32 i)
    (x0 : Vec F S1x1024x128 .bf16) (x1 : Vec F S1x4096x128 .bf16) (x2 : Vec F S1x4096x128 .bf16) (y : S1x1024x128.Idx) :
    ∃ pc ∈ (flashRun1 c i a2 h2 a3 h3 a4 h4 a5 h5 a6 h6 a7 h7 a8 h8 hc0 hc1 hc2 hc3 x0 x1 x2).1, y ∈ pc.1.set :=
  View.cover_of_tiledL (flashRun1 c i a2 h2 a3 h3 a4 h4 a5 h5 a6 h6 a7 h7 a8 h8 hc0 hc1 hc2 hc3 x0 x1 x2).1 S1x1024x128.size (by sl_kernel_rfl) y

/-- What the output block holds after the body at query tile 1: the run's pieces read back. -/
def flashOut1 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : ¬visits 2#32 i) (hc3 : ¬visits 3#32 i)
    (x0 : Vec F S1x1024x128 .bf16) (x1 : Vec F S1x4096x128 .bf16) (x2 : Vec F S1x4096x128 .bf16) : Vec F S1x1024x128 .f32 :=
  VO1.read (Elt F) (VO1.writes (Elt F) VO1.junk (flashRun1 c i a2 h2 a3 h3 a4 h4 a5 h5 a6 h6 a7 h7 a8 h8 hc0 hc1 hc2 hc3 x0 x1 x2).1)

/-- At query tile 2 the body's one store into the output block covers it. -/
theorem flashCover2 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : visits 2#32 i) (hc3 : ¬visits 3#32 i)
    (x0 : Vec F S1x1024x128 .bf16) (x1 : Vec F S1x4096x128 .bf16) (x2 : Vec F S1x4096x128 .bf16) (y : S1x1024x128.Idx) :
    ∃ pc ∈ (flashRun2 c i a2 h2 a3 h3 a4 h4 a5 h5 a6 h6 a7 h7 a8 h8 hc0 hc1 hc2 hc3 x0 x1 x2).1, y ∈ pc.1.set :=
  View.cover_of_tiledL (flashRun2 c i a2 h2 a3 h3 a4 h4 a5 h5 a6 h6 a7 h7 a8 h8 hc0 hc1 hc2 hc3 x0 x1 x2).1 S1x1024x128.size (by sl_kernel_rfl) y

/-- What the output block holds after the body at query tile 2: the run's pieces read back. -/
def flashOut2 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : visits 2#32 i) (hc3 : ¬visits 3#32 i)
    (x0 : Vec F S1x1024x128 .bf16) (x1 : Vec F S1x4096x128 .bf16) (x2 : Vec F S1x4096x128 .bf16) : Vec F S1x1024x128 .f32 :=
  VO1.read (Elt F) (VO1.writes (Elt F) VO1.junk (flashRun2 c i a2 h2 a3 h3 a4 h4 a5 h5 a6 h6 a7 h7 a8 h8 hc0 hc1 hc2 hc3 x0 x1 x2).1)

/-- At query tile 3 the body's one store into the output block covers it. -/
theorem flashCover3 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : visits 2#32 i) (hc3 : visits 3#32 i)
    (x0 : Vec F S1x1024x128 .bf16) (x1 : Vec F S1x4096x128 .bf16) (x2 : Vec F S1x4096x128 .bf16) (y : S1x1024x128.Idx) :
    ∃ pc ∈ (flashRun3 c i a2 h2 a3 h3 a4 h4 a5 h5 a6 h6 a7 h7 a8 h8 hc0 hc1 hc2 hc3 x0 x1 x2).1, y ∈ pc.1.set :=
  View.cover_of_tiledL (flashRun3 c i a2 h2 a3 h3 a4 h4 a5 h5 a6 h6 a7 h7 a8 h8 hc0 hc1 hc2 hc3 x0 x1 x2).1 S1x1024x128.size (by sl_kernel_rfl) y

/-- What the output block holds after the body at query tile 3: the run's pieces read back. -/
def flashOut3 (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : visits 2#32 i) (hc3 : visits 3#32 i)
    (x0 : Vec F S1x1024x128 .bf16) (x1 : Vec F S1x4096x128 .bf16) (x2 : Vec F S1x4096x128 .bf16) : Vec F S1x1024x128 .f32 :=
  VO1.read (Elt F) (VO1.writes (Elt F) VO1.junk (flashRun3 c i a2 h2 a3 h3 a4 h4 a5 h5 a6 h6 a7 h7 a8 h8 hc0 hc1 hc2 hc3 x0 x1 x2).1)

/-! ## The memrefs the pipeline calls the body with -/

/-- Each window's current staging memref at point `t`, and its wholeness. -/
abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- The three running buffers: whole scoped buffers of the kernel's own, passed beside the windows. -/
abbrev scM : Memref sig .tc .vmem S1024x1 .f32 := Memref.whole cc1_scratch0
abbrev scL : Memref sig .tc .vmem S1024x1 .f32 := Memref.whole cc1_scratch1
abbrev scA : Memref sig .tc .vmem S1024x128 .f32 := Memref.whole cc1_scratch2

/-- A scoped buffer held whole at some contents. -/
abbrev heldSome (c : Dev nD) (r : Ref sig .tc) : sProp 𝕄 :=
  iprop(∃ f : Buf (Elt F) ((c : Thread nD τ).loc r), ((c : Thread nD τ).loc r) ↦{fullShare} f)

/-- The region's invariant spelled out: the other region's eleven staging buffers at some contents, the three running
    buffers owned as memrefs at some contents, and the generator register at some state. -/
theorem PhiA1_eq (c : Dev nD) :
    (Pipeline.ΦA spec1 c : sProp 𝕄)
      = iprop(iprop(heldSome (F := F) c cc0_stg0_0 ∗ heldSome (F := F) c cc0_stg0_1 ∗ heldSome (F := F) c cc0_stg1_0 ∗ heldSome (F := F) c cc0_stg2_0
          ∗ heldSome (F := F) c cc0_stg3_0 ∗ heldSome (F := F) c cc0_stg4_0 ∗ heldSome (F := F) c cc0_stg4_1 ∗ heldSome (F := F) c cc0_stg5_0
          ∗ heldSome (F := F) c cc0_stg5_1 ∗ heldSome (F := F) c cc0_stg6_0 ∗ heldSome (F := F) c cc0_stg6_1
          ∗ (∃ d, owns (c : Thread nD τ) scM fullShare d) ∗ (∃ d, owns (c : Thread nD τ) scL fullShare d) ∗ (∃ d, owns (c : Thread nD τ) scA fullShare d))
        ∗ (∃ r, prngReg c r)) := by
  unfold Pipeline.ΦA; rw [scopedRest1_eq]; simp only [owns_whole]; try rfl

section Region1

/- The contents of the TensorCore's buffers, core by core, when the region is entered. -/
variable (V : (c : Dev nD) → (b : Ref sig .tc) → Buf (Elt F) ((c : Thread nD τ).loc b))

/-! ## The windows' blocks -/

/-- The block of window `w` at grid point `t`: the part of the window's array, as the region finds it, that the
    window's index map selects there (the query tile; the whole key and value rows of the batch). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block when the body is called, at every point, fetched there or not (the keys'
    and values' block index moves only with the batch row, so between fetches the buffer keeps the block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block when the body is called, at every point, fetched there or not (the keys'
    and values' block index moves only with the batch row, so between fetches the buffer keeps the block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block when the body is called, at every point, fetched there or not (the keys'
    and values' block index moves only with the batch row, so between fetches the buffer keeps the block). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output window holds after each point -/

/-- The output block after the body at point `t`: the case of the point's query tile (`t mod 4`), run at the point's
    memrefs and input blocks. -/
def flashAt (c : Dev nD) (t : Fin cfg1.N) : Vec F S1x1024x128 .f32 :=
  if h1 : 1 ≤ t.val % 4 then
    if h2 : 2 ≤ t.val % 4 then
      if h3 : 3 ≤ t.val % 4 then
        flashOut3 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) ((visits2 t).mpr h2) ((visits3 t).mpr h3) (iblk1 V c 0 t) (iblk1 V c 1 t) (iblk1 V c 2 t)
      else
        flashOut2 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) ((visits2 t).mpr h2) (fun h => h3 ((visits3 t).mp h)) (iblk1 V c 0 t) (iblk1 V c 1 t) (iblk1 V c 2 t)
    else
      flashOut1 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) (fun h => h2 ((visits2 t).mp h)) (fun h => h2 (by have := (visits3 t).mp h; omega)) (iblk1 V c 0 t) (iblk1 V c 1 t) (iblk1 V c 2 t)
  else
    flashOut0 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) (fun h => h1 ((visits1 t).mp h)) (fun h => h1 (by have := (visits2 t).mp h; omega)) (fun h => h1 (by have := (visits3 t).mp h; omega)) (iblk1 V c 0 t) (iblk1 V c 1 t) (iblk1 V c 2 t)

theorem flashAt_0 (c : Dev nD) (t : Fin cfg1.N) (h1 : ¬1 ≤ t.val % 4) :
    flashAt V c t = flashOut0 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) (fun h => h1 ((visits1 t).mp h)) (fun h => h1 (by have := (visits2 t).mp h; omega)) (fun h => h1 (by have := (visits3 t).mp h; omega)) (iblk1 V c 0 t) (iblk1 V c 1 t) (iblk1 V c 2 t) := by
  unfold flashAt; rw [dif_neg h1]
theorem flashAt_1 (c : Dev nD) (t : Fin cfg1.N) (h1 : 1 ≤ t.val % 4) (h2 : ¬2 ≤ t.val % 4) :
    flashAt V c t = flashOut1 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) (fun h => h2 ((visits2 t).mp h)) (fun h => h2 (by have := (visits3 t).mp h; omega)) (iblk1 V c 0 t) (iblk1 V c 1 t) (iblk1 V c 2 t) := by
  unfold flashAt; rw [dif_pos h1, dif_neg h2]
theorem flashAt_2 (c : Dev nD) (t : Fin cfg1.N) (h1 : 1 ≤ t.val % 4) (h2 : 2 ≤ t.val % 4) (h3 : ¬3 ≤ t.val % 4) :
    flashAt V c t = flashOut2 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) ((visits2 t).mpr h2) (fun h => h3 ((visits3 t).mp h)) (iblk1 V c 0 t) (iblk1 V c 1 t) (iblk1 V c 2 t) := by
  unfold flashAt; rw [dif_pos h1, dif_pos h2, dif_neg h3]
theorem flashAt_3 (c : Dev nD) (t : Fin cfg1.N) (h1 : 1 ≤ t.val % 4) (h2 : 2 ≤ t.val % 4) (h3 : 3 ≤ t.val % 4) :
    flashAt V c t = flashOut3 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) ((visits2 t).mpr h2) ((visits3 t).mpr h3) (iblk1 V c 0 t) (iblk1 V c 1 t) (iblk1 V c 2 t) := by
  unfold flashAt; rw [dif_pos h1, dif_pos h2, dif_pos h3]

/-! ## The region's proof data -/

/-- The proof data of the attention pipeline on core `c`. The arrays are the entry contents `V`. After the body at
    point `t` each input window's buffer still holds its block and the output window's holds `flashAt`. The
    invariant is the core's scoped buffers that are no staging buffer of this region — the running buffers among
    them — each at some contents, and the generator register at some state. Shares are full; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => flashAt V c t
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = flashAt V c t := by dsimp only [dat1]

/-- Each input window's buffer holds its block when the body is called. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4800000 in
/-- The body at any point: the input memrefs hold their blocks; the point's query tile says which case it is in, and
    that case's run applies; the invariant lends the running buffers and takes them back at some contents; the output
    block ends at the case's pieces read back, which cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, PhiA1_eq]
  by_cases h1 : 1 ≤ t.val % 4
  · by_cases h2 : 2 ≤ t.val % 4
    · by_cases h3 : 3 ≤ t.val % 4
      · rw [flashAt_3 V c t h1 h2 h3]; unfold flashOut3
        iintro ⟨⟨⟨Hb0, Hb1, Hb2, Hb3, Hb4, Hb5, Hb6, Hb7, Hb8, Hb9, Hb10, HS0, HS1, HS2⟩, Hg⟩, Ho, ⟨%d0, H0⟩, ⟨%d1, H1⟩, ⟨%d2, H2⟩, ⟨%d3, H3⟩⟩
        iapply ((flashRun3 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) ((visits2 t).mpr h2) ((visits3 t).mpr h3) (iblk1 V c 0 t) (iblk1 V c 1 t) (iblk1 V c 2 t)).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [Hb0 Hb1 Hb2 Hb3 Hb4 Hb5 Hb6 Hb7 Hb8 Hb9 Hb10 HS0 HS1 HS2 Hg]
        · isplitr [Hg]
          · isplitl [Hb0]; · iexact Hb0
            isplitl [Hb1]; · iexact Hb1
            isplitl [Hb2]; · iexact Hb2
            isplitl [Hb3]; · iexact Hb3
            isplitl [Hb4]; · iexact Hb4
            isplitl [Hb5]; · iexact Hb5
            isplitl [Hb6]; · iexact Hb6
            isplitl [Hb7]; · iexact Hb7
            isplitl [Hb8]; · iexact Hb8
            isplitl [Hb9]; · iexact Hb9
            isplitl [Hb10]; · iexact Hb10
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (flashCover3 _ _ _ _ _ _ _ _ _ _ _ _ _ _ _ _ _ _ _ _ _ _ _)
      · rw [flashAt_2 V c t h1 h2 h3]; unfold flashOut2
        iintro ⟨⟨⟨Hb0, Hb1, Hb2, Hb3, Hb4, Hb5, Hb6, Hb7, Hb8, Hb9, Hb10, HS0, HS1, HS2⟩, Hg⟩, Ho, ⟨%d0, H0⟩, ⟨%d1, H1⟩, ⟨%d2, H2⟩, ⟨%d3, H3⟩⟩
        iapply ((flashRun2 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) ((visits2 t).mpr h2) (fun h => h3 ((visits3 t).mp h)) (iblk1 V c 0 t) (iblk1 V c 1 t) (iblk1 V c 2 t)).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [Hb0 Hb1 Hb2 Hb3 Hb4 Hb5 Hb6 Hb7 Hb8 Hb9 Hb10 HS0 HS1 HS2 Hg]
        · isplitr [Hg]
          · isplitl [Hb0]; · iexact Hb0
            isplitl [Hb1]; · iexact Hb1
            isplitl [Hb2]; · iexact Hb2
            isplitl [Hb3]; · iexact Hb3
            isplitl [Hb4]; · iexact Hb4
            isplitl [Hb5]; · iexact Hb5
            isplitl [Hb6]; · iexact Hb6
            isplitl [Hb7]; · iexact Hb7
            isplitl [Hb8]; · iexact Hb8
            isplitl [Hb9]; · iexact Hb9
            isplitl [Hb10]; · iexact Hb10
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (flashCover2 _ _ _ _ _ _ _ _ _ _ _ _ _ _ _ _ _ _ _ _ _ _ _)
    · rw [flashAt_1 V c t h1 h2]; unfold flashOut1
      iintro ⟨⟨⟨Hb0, Hb1, Hb2, Hb3, Hb4, Hb5, Hb6, Hb7, Hb8, Hb9, Hb10, HS0, HS1, HS2⟩, Hg⟩, Ho, ⟨%d0, H0⟩, ⟨%d1, H1⟩, ⟨%d2, H2⟩, ⟨%d3, H3⟩⟩
      iapply ((flashRun1 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) ((visits1 t).mpr h1) (fun h => h2 ((visits2 t).mp h)) (fun h => h2 (by have := (visits3 t).mp h; omega)) (iblk1 V c 0 t) (iblk1 V c 1 t) (iblk1 V c 2 t)).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, HS2⟩
      isplitl [Hb0 Hb1 Hb2 Hb3 Hb4 Hb5 Hb6 Hb7 Hb8 Hb9 Hb10 HS0 HS1 HS2 Hg]
      · isplitr [Hg]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          isplitl [Hb10]; · iexact Hb10
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (flashCover1 _ _ _ _ _ _ _ _ _ _ _ _ _ _ _ _ _ _ _ _ _ _ _)
  · rw [flashAt_0 V c t h1]; unfold flashOut0
    iintro ⟨⟨⟨Hb0, Hb1, Hb2, Hb3, Hb4, Hb5, Hb6, Hb7, Hb8, Hb9, Hb10, HS0, HS1, HS2⟩, Hg⟩, Ho, ⟨%d0, H0⟩, ⟨%d1, H1⟩, ⟨%d2, H2⟩, ⟨%d3, H3⟩⟩
    iapply ((flashRun0 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (visits0 t) (fun h => h1 ((visits1 t).mp h)) (fun h => h1 (by have := (visits2 t).mp h; omega)) (fun h => h1 (by have := (visits3 t).mp h; omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [Hb0 Hb1 Hb2 Hb3 Hb4 Hb5 Hb6 Hb7 Hb8 Hb9 Hb10 HS0 HS1 HS2 Hg]
    · isplitr [Hg]
      · isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        isplitl [Hb8]; · iexact Hb8
        isplitl [Hb9]; · iexact Hb9
        isplitl [Hb10]; · iexact Hb10
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (flashCover0 _ _ _ _ _ _ _ _ _ _ _ _ _ _ _ _ _ _ _ _ _ _ _)

/-- The attention body meets its proof data at every point of the grid. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.AttnRun.lean ====
import proofs.«130832_j91044716740856_2_alg».proof.Proof.ProjRegion
import proofs.«130832_j91044716740856_2_alg».proof.Proof.FlashRegion

/-! # The run of the whole program: three host operations, the projection region, the attention region

The program first scales the query weights on the host (a constant, its broadcast, a product), then enters the
projection region, then the attention region, and returns. This module follows the contents of every buffer of a
core that outlives a region through those three segments, for any float instance `F`:

* `W0` … `W3` — the contents at launch, after the host operations, after the projection region, after the
  attention region. A host stretch changes what its operations write; a region changes its windows' arrays to what
  its pipeline leaves there (an input array is left as entered, an output array holds its write-backs) and nothing
  else. `V1`, `V2` are `W1`, `W2` read at the core's references: what the two regions' proof data are taken at.
* the read-back lemmas — every argument array ends as launched (`W3_main_arg0` …); the result array ends at what
  the attention pipeline leaves (`W3_main_v3`); the attention region is entered with the three projections at what
  the projection pipeline leaves (`V2_main_v2_0` …) and the projection region with the arguments as launched and the
  scaled query weights (`V1_main_arg0` …, `V1_main_v1`).
* `run_all` — every weakly fair execution of the program terminates, and at the end every such buffer of every
  core holds `W3`; `frame` — in particular the four argument arrays end as launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents of a core's buffers at each boundary -/

/-- Core `c`'s buffers at launch. -/
abbrev W0 : Dev nD → Valuation τ sig (Elt F) := fun c b => (s₀ m ρ).mem ((c : Dev nD), b)
/-- After the three host operations: the projection region's entry. -/
abbrev W1 : Dev nD → Valuation τ sig (Elt F) := fun c => StableHlo.after hostOps0 (W0 m ρ c)
/-- The same, read at the core's references: what the projection region's proof data are taken at. -/
abbrev V1 : (c : Dev nD) → (b : Ref sig .tc) → Buf (Elt F) ((c : Thread nD τ).loc b) := fun c b => W1 m ρ c b
/-- After the projection region: its windows' arrays at what the pipeline leaves, every other buffer as entered. -/
def W2 (c : Dev nD) : Valuation τ sig (Elt F) :=
  Pipeline.withArrays spec0 c (W1 m ρ c) fun w => (dat0 (V1 m ρ) c).arrAt w cfg0.N
/-- After the projection region, window `w`'s array holds what the pipeline leaves there. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- After the projection region, a buffer that is no window's array holds what it held at entry. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's references: what the attention region's proof data are taken at. -/
abbrev V2 : (c : Dev nD) → (b : Ref sig .tc) → Buf (Elt F) ((c : Thread nD τ).loc b) := fun c b => W2 m ρ c b
/-- At the projection region's exit each of its arrays holds what the pipeline leaves … -/
theorem hF0 (c : Dev nD) (w : Fin cfg0.W) : (dat0 (V1 m ρ) c).arrAt w cfg0.N = V2 m ρ c (Pipeline.arrRef spec0 w) :=
  (W2_arr m ρ c w).symm
/-- … and every other buffer what it held at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention region: its windows' arrays at what the pipeline leaves, every other buffer as entered. -/
def W3 (c : Dev nD) : Valuation τ sig (Elt F) :=
  Pipeline.withArrays spec1 c (W2 m ρ c) fun w => (dat1 (V2 m ρ) c).arrAt w cfg1.N
/-- After the attention region, window `w`'s array holds what the pipeline leaves there. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- After the attention region, a buffer that is no window's array holds what it held at entry. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the core's references. -/
abbrev V3 : (c : Dev nD) → (b : Ref sig .tc) → Buf (Elt F) ((c : Thread nD τ).loc b) := fun c b => W3 m ρ c b
/-- At the attention region's exit each of its arrays holds what the pipeline leaves … -/
theorem hF1 (c : Dev nD) (w : Fin cfg1.W) : (dat1 (V2 m ρ) c).arrAt w cfg1.N = V3 m ρ c (Pipeline.arrRef spec1 w) :=
  (W3_arr m ρ c w).symm
/-- … and every other buffer what it held at entry. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## Reading the contents back -/

/-- The host operations write the constant, its broadcast and the scaled query weights, and nothing else. -/
theorem W1_of_not_written (c : Dev nD) (b : Ref sig .tc) (h0 : main_cst ≠ b) (h1 : main_v0 ≠ b) (h2 : main_v1 ≠ b) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      Finset.mem_singleton]
    exact ⟨(StableHlo.devRef_ne_of_ne h0).symm, (StableHlo.devRef_ne_of_ne h1).symm, (StableHlo.devRef_ne_of_ne h2).symm⟩))

/-- The projection region is entered with the context array as launched. -/
theorem V1_main_arg0 (c : Dev nD) : V1 m ρ c main_arg0 = m ((c : Thread nD τ).loc main_arg0) :=
  W1_of_not_written m ρ c main_arg0 (by decide) (by decide) (by decide)
/-- The projection region is entered with the key weights as launched. -/
theorem V1_main_arg1 (c : Dev nD) : V1 m ρ c main_arg1 = m ((c : Thread nD τ).loc main_arg1) :=
  W1_of_not_written m ρ c main_arg1 (by decide) (by decide) (by decide)
/-- The query weights themselves are as launched after the host operations (their scaled copy is another buffer). -/
theorem V1_main_arg2 (c : Dev nD) : V1 m ρ c main_arg2 = m ((c : Thread nD τ).loc main_arg2) :=
  W1_of_not_written m ρ c main_arg2 (by decide) (by decide) (by decide)
/-- The projection region is entered with the value weights as launched. -/
theorem V1_main_arg3 (c : Dev nD) : V1 m ρ c main_arg3 = m ((c : Thread nD τ).loc main_arg3) :=
  W1_of_not_written m ρ c main_arg3 (by decide) (by decide) (by decide)

/-- The projection region is entered with the query weights times the broadcast constant `2⁻⁵` in the scaled
    weights' buffer: the three host operations composed. -/
theorem V1_main_v1 (c : Dev nD) :
    (V1 m ρ c main_v1 : (⟨S1024x128, .f32⟩ : BufTy).Contents (Elt F))
      = mulf (m ((c : Thread nD τ).loc main_arg2))
          (broadcastInDim S1024x128 ![] bcast_S_S1024x128 (constant (F := F) S_ .f32 0x3D000000#32)) := by
  dsimp only [V1, W1, W0, hostOps0]
  after_results

/-- An input window's array of the projection region is left as entered. -/
theorem V2_in (c : Dev nD) (w : Fin cfg0.W) (hin : (cfg0.win w).isOut = false) :
    V2 m ρ c (Pipeline.arrRef spec0 w) = V1 m ρ c (Pipeline.arrRef spec0 w) :=
  (W2_arr m ρ c w).trans (((dat0 (V1 m ρ) c).arrAt_in w hin _).trans (A_eq0 (V1 m ρ) c w))

/-- The attention region is entered with the query projection at what the projection pipeline leaves. -/
theorem V2_main_v2_0 (c : Dev nD) : V2 m ρ c main_v2_0 = (dat0 (V1 m ρ) c).arrAt 4 cfg0.N := W2_arr m ρ c 4
/-- The attention region is entered with the key projection at what the projection pipeline leaves. -/
theorem V2_main_v2_1 (c : Dev nD) : V2 m ρ c main_v2_1 = (dat0 (V1 m ρ) c).arrAt 5 cfg0.N := W2_arr m ρ c 5
/-- The attention region is entered with the value projection at what the projection pipeline leaves. -/
theorem V2_main_v2_2 (c : Dev nD) : V2 m ρ c main_v2_2 = (dat0 (V1 m ρ) c).arrAt 6 cfg0.N := W2_arr m ρ c 6
/-- Every buffer but the three projections is, at the attention region's entry, what it was at the projection
    region's: the input arrays are left as entered, the others are not touched. -/
theorem V2_of_not_out (c : Dev nD) (b : Ref sig .tc) (h4 : main_v2_0 ≠ b) (h5 : main_v2_1 ≠ b) (h6 : main_v2_2 ≠ b) :
    V2 m ρ c b = V1 m ρ c b := by
  by_cases hb : ∃ w, Pipeline.arrRef spec0 w = b
  · obtain ⟨w, rfl⟩ := hb
    match w with
    | ⟨0, _⟩ => exact V2_in m ρ c 0 rfl
    | ⟨1, _⟩ => exact V2_in m ρ c 1 rfl
    | ⟨2, _⟩ => exact V2_in m ρ c 2 rfl
    | ⟨3, _⟩ => exact V2_in m ρ c 3 rfl
    | ⟨4, _⟩ => exact absurd rfl h4
    | ⟨5, _⟩ => exact absurd rfl h5
    | ⟨6, _⟩ => exact absurd rfl h6
  · exact W2_of_ne m ρ c b fun w e => hb ⟨w, e⟩

/-- The result array ends at what the attention pipeline leaves. -/
theorem W3_main_v3 (c : Dev nD) : W3 m ρ c (Proc.devRef .tc main_v3) = (dat1 (V2 m ρ) c).arrAt 3 cfg1.N := W3_arr m ρ c 3

/-- The context array ends as launched: no host operation writes it, the projection region reads it through an
    input window, the attention region does not touch it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := V2_in m ρ c 0 rfl
    _ = m ((c : Thread nD τ).loc main_arg0) := V1_main_arg0 m ρ c
/-- The key weights end as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := V2_in m ρ c 2 rfl
    _ = m ((c : Thread nD τ).loc main_arg1) := V1_main_arg1 m ρ c
/-- The query weights end as launched: the host reads them, and no region has them among its arrays. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := V1_main_arg2 m ρ c
/-- The value weights end as launched. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := V2_in m ρ c 3 rfl
    _ = m ((c : Thread nD τ).loc main_arg3) := V1_main_arg3 m ρ c

/-! ## The proof data family and the thread state -/

/-- No pipeline has a prefetched table. -/
abbrev adm : (p : Fin 2) → (pcfgs (F := F) p).Adm := fun p => (cfgs p).toPCfg_adm
/-- Each pipeline's proof data, at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A stretch of host operations as a segment over the buffers that outlive a region, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- A reference of the core that outlives a region is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every such buffer at the last contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region over the thread state: entered with every buffer at `W1`, left with every buffer at `W2`.
    Its arrays are split out of the buffers at entry and put back at the exit contents; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered with every buffer at `W2`, left with every buffer at `W3`,
    the last contents, beside the core owing nothing. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the host operations from the launch contents, the projection region, the
    attention region. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program on the cores terminates,
    nothing faulting, and in every final state every buffer of a core that outlives a region holds the last
    contents `W3`: the launch over the three segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- The frame claim: every weakly fair execution of the program terminates, nothing faulting, and the four argument
    arrays end as launched — `run_all` read at the four arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Hand

end
-- ==== Proof.AttnSpec.lean ====
/-
  The specification of single-head causal attention over a context array of 4 batches, 4096 positions and 1024
  embedding coordinates, with three projection matrices of 1024 × 128, at the ideal float values (a float an
  extended real, every operation exact). It names no program.

  For a batch `b`: the key, query and value rows are the projections `proj ctx W b t h = ∑ c, ctx (b, t, c) · W (c, h)`.
  The score of query position `q` against key position `k` is the inner product of the query row at `q` with the key
  row at `k`, times `scale` = 1 / √1024 = 1/32, where `k ≤ q` (the causal mask), and `-∞` (the extended reals' `⊥`)
  elsewhere. A row's softmax subtracts the row's maximum `rowMax` (the supremum over all 4096 key positions, masked
  ones included: they are `⊥` and do not move it), exponentiates, and divides by the row's sum `den`. The result at
  (b, q, h) is the sum over key positions of the softmax weight times the value row's coordinate `h`: `G`.
-/
import Idealize.ShloMosaic.PureOps.Ideal
import Idealize.ShloMosaic.Lib.ValueIdx

noncomputable section

open scoped BigOperators

namespace Cert.AttnSpec

open Idealize.ShloMosaic Idealize.ShloMosaic.ValueIdx

/-- The context array's shape: batch × position × embedding coordinate. -/
abbrev SCtx : Shape := ⟨3, ![4, 4096, 1024]⟩
/-- A projection matrix's shape: embedding coordinate × head coordinate. -/
abbrev SW : Shape := ⟨2, ![1024, 128]⟩
/-- The result's shape: batch × position × head coordinate. -/
abbrev SOut : Shape := ⟨3, ![4, 4096, 128]⟩

/-- A projected row: position `t` of batch `b` times the matrix `W`, at head coordinate `h`. -/
def proj (ctx : SCtx.Idx → EReal) (W : SW.Idx → EReal) (b : Fin 4) (t : Fin 4096) (h : Fin 128) : EReal :=
  ∑ c : Fin 1024, ctx (ix3 b t c) * W (ix2 c h)

/-- The score's factor, one over the square root of the embedding size: the quotient of the float words of `1.0`
    and of `1024.0`'s square root, kept as the quotient it is written as. It is the real `1/32` (`scale_eq`). -/
def scale : EReal :=
  Ideal.div (Ideal.ofBits .f32 0x3F800000#32) (Ideal.sqrt (Ideal.ofBits .f32 0x44800000#32))

/-- The float word of `1.0` denotes `1`. -/
theorem ofBits_one : Ideal.ofBits .f32 0x3F800000#32 = ((1 : ℝ) : EReal) := by
  simp [Ideal.ofBits, Ideal.ieee, -EReal.coe_mul]; norm_num

/-- The float word of `1024.0` denotes the real `1024`. -/
theorem ofBits_1024 : Ideal.ofBits .f32 0x44800000#32 = ((1024 : ℝ) : EReal) := by
  simp [Ideal.ofBits, Ideal.ieee, -EReal.coe_mul]; norm_num

/-- `1 / √1024 = 1/32`. -/
theorem scale_eq : scale = ((1 / 32 : ℝ) : EReal) := by
  have hs : Real.sqrt 1024 = 32 := by
    rw [show (1024 : ℝ) = 32 ^ 2 by norm_num]; exact Real.sqrt_sq (by norm_num)
  unfold scale
  rw [ofBits_one, ofBits_1024, Ideal.sqrt_coe, if_neg (by norm_num), hs,
    Ideal.div_coe (by norm_num : (32 : ℝ) ≠ 0), ← EReal.coe_mul, one_mul]

/-- The masked score of query position `q` against key position `k` in batch `b`: the scaled inner product of
    the query row with the key row where `k ≤ q`, `-∞` where `k` is after `q`. -/
def score (ctx : SCtx.Idx → EReal) (Wk Wq : SW.Idx → EReal) (b : Fin 4) (q k : Fin 4096) : EReal :=
  if k ≤ q then (∑ h : Fin 128, proj ctx Wq b q h * proj ctx Wk b k h) * scale else ⊥

/-- A score row's maximum: the supremum of the row's 4096 masked scores (`Finset.sup` over all key positions; a
    masked entry is `⊥`, the supremum's unit). -/
def rowMax (ctx : SCtx.Idx → EReal) (Wk Wq : SW.Idx → EReal) (b : Fin 4) (q : Fin 4096) : EReal :=
  Finset.univ.sup fun k : Fin 4096 => score ctx Wk Wq b q k

/-- A softmax row's denominator: the sum over all key positions of the exponential of the score less the row's
    maximum (a masked entry contributes `exp ⊥ = 0`). -/
def den (ctx : SCtx.Idx → EReal) (Wk Wq : SW.Idx → EReal) (b : Fin 4) (q : Fin 4096) : EReal :=
  ∑ k : Fin 4096, Ideal.exp (score ctx Wk Wq b q k - rowMax ctx Wk Wq b q)

/-- Attention's result at batch `b`, query position `q`, head coordinate `h`: the softmax weights of row `q`
    against the value rows' coordinate `h`. -/
def out (ctx : SCtx.Idx → EReal) (Wk Wq Wv : SW.Idx → EReal) (b : Fin 4) (q : Fin 4096) (h : Fin 128) : EReal :=
  ∑ k : Fin 4096, Ideal.div (Ideal.exp (score ctx Wk Wq b q k - rowMax ctx Wk Wq b q)) (den ctx Wk Wq b q)
    * proj ctx Wv b k h

/-- Single-head causal attention as ONE function of the context array and the key, query and value matrices,
    index by index over the result's shape. -/
def G (ctx : SCtx.Idx → EReal) (Wk Wq Wv : SW.Idx → EReal) : SOut.Idx → EReal :=
  fun i => out ctx Wk Wq Wv (i 0) (i 1) (i 2)

/-- `G` at the index (b, q, h): the sum over key positions of softmax weight times value coordinate. -/
theorem G_apply (ctx : SCtx.Idx → EReal) (Wk Wq Wv : SW.Idx → EReal) (b : Fin 4) (q : Fin 4096) (h : Fin 128) :
    G ctx Wk Wq Wv (ix3 b q h)
      = ∑ k : Fin 4096, Ideal.div (Ideal.exp (score ctx Wk Wq b q k - rowMax ctx Wk Wq b q)) (den ctx Wk Wq b q)
          * proj ctx Wv b k h := rfl

end Cert.AttnSpec

end
-- ==== Proof.RefIsSpec.lean ====
/-
  The reference's result is the specification. The reference computes single-head causal attention in twenty-three
  array operations: three projections of the context by the key, query and value matrices; the inner products of
  query rows with key rows, scaled by one over the square root of 1024; a lower-triangle mask that puts `-∞` where
  the key position is after the query position; a softmax along the key axis (the row's maximum from `-∞`, the
  shifted exponentials, their sum from zero, the quotient); and the product of the weights with the value rows.
  Read at an index, one operation at a time, each stage is the corresponding function of `Cert.AttnSpec`: the
  projections are `proj`, the masked scaled products `score`, the row maximum `rowMax` (a fold of `max` from `⊥`
  over the 4096 key positions is their supremum, and a further maximum with `⊥` changes nothing), the sum of
  exponentials `den` (zero plus a sum is the sum), and the last product `G`. The mask is a signed comparison of two
  32-bit words that hold a row and a column number below 4096, so it is the order of the two positions.
-/
import proofs.«130832_j91044716740856_2_alg».proof.Proof.Gen.ReferenceIdeal.Read
import proofs.«130832_j91044716740856_2_alg».proof.Proof.AttnSpec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Words and constants -/

/-- A natural below 4096, as a 32-bit word read signed, is itself. -/
theorem toInt_ofNat_small (n : Nat) (h : n < 4096) : (BitVec.ofNat 32 n).toInt = (n : Int) := by
  have hn : (BitVec.ofNat 32 n).toNat = n := by rw [BitVec.toNat_ofNat]; omega
  rw [BitVec.toInt_eq_toNat_of_lt (by rw [hn]; omega), hn]

/-- The float word of `-∞` denotes the extended reals' least element. -/
theorem ofBits_neg_inf : Ideal.ofBits .f32 0xFF800000#32 = (⊥ : EReal) := by
  simp [Ideal.ofBits, Ideal.ieee]

/-! ## The causal mask -/

/-- The lower-triangle mask at (q, k): the word `1` where key position `k` is not after query position `q`, else
    `0` — the comparison of the row number with the column number, read signed, both below 4096. -/
theorem mask_apply (q k : Fin 4096) :
    val_main_v9 (F := Ideal) (ix2 q k) = if k ≤ q then 1#1 else 0#1 := by
  rw [val_main_v9_apply, val_main_call0_v4_apply, val_main_call0_v2_apply, val_main_call0_v0_apply,
    val_main_call0_v1_apply, val_main_call0_c_apply, val_main_call0_v3_apply, val_main_v8_apply, val_main_c_apply,
    val_main_call0_v5_apply, val_main_call0_c_0_apply]
  show Scalar.select (IntOp.cmpi .sge (IntOp.addi (BitVec.ofNat 32 q.val) 0#32) (BitVec.ofNat 32 k.val)) 1#1 0#1 = _
  have hadd : IntOp.addi (BitVec.ofNat 32 q.val) 0#32 = BitVec.ofNat 32 q.val := BitVec.add_zero _
  rw [hadd]
  by_cases hk : k ≤ q
  · rw [if_pos hk, IntOp.cmpi_sge.2 (by
      rw [toInt_ofNat_small _ k.isLt, toInt_ofNat_small _ q.isLt]; exact_mod_cast hk), select_one]
  · have hc : IntOp.cmpi .sge (BitVec.ofNat 32 q.val) (BitVec.ofNat 32 k.val) = 0#1 :=
      eq_zero_of_ne_one (fun e => hk (by
        have := IntOp.cmpi_sge.1 e
        rw [toInt_ofNat_small _ k.isLt, toInt_ofNat_small _ q.isLt] at this; exact_mod_cast this))
    rw [if_neg hk, hc, select_zero]

/-! ## The projections -/

/-- The key rows: the first product is the projection by the key matrix. -/
theorem v0_apply' (x0 : (⟨S4x4096x1024, .f32⟩ : BufTy).Contents (Elt Ideal)) (x1 : (⟨S1024x128, .f32⟩ : BufTy).Contents (Elt Ideal))
    (b : Fin 4) (t : Fin 4096) (h : Fin 128) :
    val_main_v0 (F := Ideal) x0 x1 (ix3 b t h) = AttnSpec.proj x0 x1 b t h := by
  rw [val_main_v0_apply]
  exact Finset.sum_congr rfl fun c _ => congrArg₂ (· * ·)
    (congrArg x0 (funext fun a => by match a with | ⟨0, _⟩ => rfl | ⟨1, _⟩ => rfl | ⟨2, _⟩ => rfl))
    (congrArg x1 (funext fun a => by match a with | ⟨0, _⟩ => rfl | ⟨1, _⟩ => rfl))

/-- The query rows: the second product is the projection by the query matrix. -/
theorem v1_apply' (x0 : (⟨S4x4096x1024, .f32⟩ : BufTy).Contents (Elt Ideal)) (x2 : (⟨S1024x128, .f32⟩ : BufTy).Contents (Elt Ideal))
    (b : Fin 4) (t : Fin 4096) (h : Fin 128) :
    val_main_v1 (F := Ideal) x0 x2 (ix3 b t h) = AttnSpec.proj x0 x2 b t h := by
  rw [val_main_v1_apply]
  exact Finset.sum_congr rfl fun c _ => congrArg₂ (· * ·)
    (congrArg x0 (funext fun a => by match a with | ⟨0, _⟩ => rfl | ⟨1, _⟩ => rfl | ⟨2, _⟩ => rfl))
    (congrArg x2 (funext fun a => by match a with | ⟨0, _⟩ => rfl | ⟨1, _⟩ => rfl))

/-- The value rows: the third product is the projection by the value matrix. -/
theorem v2_apply' (x0 : (⟨S4x4096x1024, .f32⟩ : BufTy).Contents (Elt Ideal)) (x3 : (⟨S1024x128, .f32⟩ : BufTy).Contents (Elt Ideal))
    (b : Fin 4) (t : Fin 4096) (h : Fin 128) :
    val_main_v2 (F := Ideal) x0 x3 (ix3 b t h) = AttnSpec.proj x0 x3 b t h := by
  rw [val_main_v2_apply]
  exact Finset.sum_congr rfl fun c _ => congrArg₂ (· * ·)
    (congrArg x0 (funext fun a => by match a with | ⟨0, _⟩ => rfl | ⟨1, _⟩ => rfl | ⟨2, _⟩ => rfl))
    (congrArg x3 (funext fun a => by match a with | ⟨0, _⟩ => rfl | ⟨1, _⟩ => rfl))

/-! ## The masked scores -/

/-- The unmasked score at (b, q, k): the inner product over the head coordinate of the query row at `q` with the key
    row at `k`. -/
theorem v5_apply' (x0 : (⟨S4x4096x1024, .f32⟩ : BufTy).Contents (Elt Ideal)) (x1 x2 : (⟨S1024x128, .f32⟩ : BufTy).Contents (Elt Ideal))
    (b : Fin 4) (q k : Fin 4096) :
    val_main_v5 (F := Ideal) x0 x1 x2 (ix3 b q k) = ∑ h : Fin 128, AttnSpec.proj x0 x2 b q h * AttnSpec.proj x0 x1 b k h := by
  rw [val_main_v5_apply]
  refine Finset.sum_congr rfl fun h _ => ?_
  rw [← v1_apply', ← v0_apply']
  exact congrArg₂ (· * ·)
    (congrArg (val_main_v1 (F := Ideal) x0 x2) (funext fun a => by match a with | ⟨0, _⟩ => rfl | ⟨1, _⟩ => rfl | ⟨2, _⟩ => rfl))
    (congrArg (val_main_v0 (F := Ideal) x0 x1) (funext fun a => by match a with | ⟨0, _⟩ => rfl | ⟨1, _⟩ => rfl | ⟨2, _⟩ => rfl))

/-- The broadcast factor is, everywhere, the quotient of the word of one by the square root of the word of 1024. -/
theorem v6_apply' (i : S4x4096x4096.Idx) : val_main_v6 (F := Ideal) i = AttnSpec.scale := by
  rw [val_main_v6_apply]; rfl

/-- The masked score at (b, q, k): the scaled inner product where `k ≤ q`, `-∞` after. -/
theorem v10_apply' (x0 : (⟨S4x4096x1024, .f32⟩ : BufTy).Contents (Elt Ideal)) (x1 x2 : (⟨S1024x128, .f32⟩ : BufTy).Contents (Elt Ideal))
    (b : Fin 4) (q k : Fin 4096) :
    val_main_v10 (F := Ideal) x0 x1 x2 (ix3 b q k) = AttnSpec.score x0 x1 x2 b q k := by
  have hm : val_main_call1_v1 (F := Ideal) (ix3 b q k) = if k ≤ q then 1#1 else 0#1 := by
    rw [val_main_call1_v1_apply, ← mask_apply]
    exact congrArg (val_main_v9 (F := Ideal)) (funext fun a => by match a with | ⟨0, _⟩ => rfl | ⟨1, _⟩ => rfl)
  have hinf : val_main_call1_v2 (F := Ideal) (ix3 b q k) = (⊥ : EReal) := by
    rw [val_main_call1_v2_apply, val_main_call1_v0_apply, val_main_cst_1_apply]; exact ofBits_neg_inf
  have hs : val_main_v7 (F := Ideal) x0 x1 x2 (ix3 b q k)
      = (∑ h : Fin 128, AttnSpec.proj x0 x2 b q h * AttnSpec.proj x0 x1 b k h) * AttnSpec.scale := by
    rw [val_main_v7_apply, v5_apply', v6_apply']; rfl
  rw [val_main_v10_apply, hm, hinf, hs]
  unfold AttnSpec.score
  by_cases hk : k ≤ q
  · rw [if_pos hk, if_pos hk, select_one]
  · rw [if_neg hk, if_neg hk, select_zero]

/-! ## The row maximum -/

/-- A row index of the score array with key position `k` put back on the reduced axis is (b, q, k). -/
theorem lift_ix (hR : S4x4096x4096.Reduces [2] S4x4096) (b : Fin 4) (q : Fin 4096) (k : Fin (S4x4096x4096.size 2)) :
    hR.lift (ix2 b q) k = ix3 b q (⟨k.val, k.isLt⟩ : Fin 4096) := by
  funext c; apply Fin.ext
  fin_cases c <;> rfl

/-- A maximum-reduce over the key axis from `-∞`, at row (b, q): the supremum of the row's 4096 entries. -/
theorem rowMax_read (y : S4x4096x4096.Idx → EReal) (init : S_.Idx → EReal) (hinit : ∀ i, init i = ⊥)
    (b : Fin 4) (q : Fin 4096) :
    Host.reduce (FloatOps.maximumf (F := Ideal) (φ := .f32)) y init reducesTo_S4x4096x4096_S4x4096_d2 h_S_ (ix2 b q)
      = Finset.univ.sup fun k : Fin 4096 => y (ix3 b q k) := by
  have hR : S4x4096x4096.Reduces [2] S4x4096 := by decide
  refine (Host.reduce_eq_fold_single (FloatOps.maximumf (F := Ideal) (φ := .f32)) y init
    reducesTo_S4x4096x4096_S4x4096_d2 hR h_S_ (ix2 b q)).trans ?_
  rw [hinit]
  have hf : (y ∘ hR.lift (ix2 b q)) = fun k : Fin 4096 => y (ix3 b q k) :=
    funext fun k => congrArg y (lift_ix hR b q k)
  exact (congrArg (fun f => Finset.fold (FloatOps.maximumf (F := Ideal) (φ := .f32)) (⊥ : EReal) f
    (Finset.univ : Finset (Fin 4096))) hf).trans rfl

/-- The softmax's subtrahend at row (b, q): the maximum of `-∞` with the row's reduced maximum, the row's supremum. -/
theorem v13_apply' (x0 : (⟨S4x4096x1024, .f32⟩ : BufTy).Contents (Elt Ideal)) (x1 x2 : (⟨S1024x128, .f32⟩ : BufTy).Contents (Elt Ideal))
    (b : Fin 4) (q : Fin 4096) :
    val_main_v13 (F := Ideal) x0 x1 x2 (ix2 b q) = AttnSpec.rowMax x0 x1 x2 b q := by
  have h11 : val_main_v11 (F := Ideal) x0 x1 x2 (ix2 b q) = AttnSpec.rowMax x0 x1 x2 b q := by
    unfold val_main_v11 AttnSpec.rowMax
    rw [rowMax_read _ _ (fun i => by rw [val_main_cst_2_apply]; exact ofBits_neg_inf)]
    exact congrArg (Finset.sup Finset.univ) (funext fun k => v10_apply' x0 x1 x2 b q k)
  have h12 : val_main_v12 (F := Ideal) (ix2 b q) = (⊥ : EReal) := by
    rw [val_main_v12_apply, val_main_cst_3_apply]; exact ofBits_neg_inf
  rw [val_main_v13_apply, h11, h12]
  exact max_bot_left _

/-! ## The softmax -/

/-- The exponentiated, shifted score at (b, q, k). -/
theorem v17_apply' (x0 : (⟨S4x4096x1024, .f32⟩ : BufTy).Contents (Elt Ideal)) (x1 x2 : (⟨S1024x128, .f32⟩ : BufTy).Contents (Elt Ideal))
    (b : Fin 4) (q k : Fin 4096) :
    val_main_v17 (F := Ideal) x0 x1 x2 (ix3 b q k)
      = Ideal.exp (AttnSpec.score x0 x1 x2 b q k - AttnSpec.rowMax x0 x1 x2 b q) := by
  have h15 : val_main_v15 (F := Ideal) x0 x1 x2 (ix3 b q k) = AttnSpec.rowMax x0 x1 x2 b q := by
    rw [val_main_v15_apply, val_main_v14_apply, ← v13_apply']
    exact congrArg (val_main_v13 (F := Ideal) x0 x1 x2) (funext fun a => by match a with | ⟨0, _⟩ => rfl | ⟨1, _⟩ => rfl)
  rw [val_main_v17_apply, val_main_v16_apply, v10_apply', h15]; rfl

/-- The softmax denominator at row (b, q): zero plus the sum of the row's exponentials. -/
theorem v18_apply' (x0 : (⟨S4x4096x1024, .f32⟩ : BufTy).Contents (Elt Ideal)) (x1 x2 : (⟨S1024x128, .f32⟩ : BufTy).Contents (Elt Ideal))
    (b : Fin 4) (q : Fin 4096) :
    val_main_v18 (F := Ideal) x0 x1 x2 (ix2 b q) = AttnSpec.den x0 x1 x2 b q := by
  rw [val_main_v18_apply, val_main_cst_4_apply]
  show Ideal.ofBits .f32 0x00000000#32 + _ = _
  rw [Ideal.ofBits_zero_f32, zero_add]
  unfold AttnSpec.den
  refine Finset.sum_congr rfl fun k _ => ?_
  rw [← v17_apply']
  exact congrArg (val_main_v17 (F := Ideal) x0 x1 x2) (funext fun a => by match a with | ⟨0, _⟩ => rfl | ⟨1, _⟩ => rfl | ⟨2, _⟩ => rfl)

/-- The softmax weight at (b, q, k): the exponential over the row's denominator. -/
theorem v21_apply' (x0 : (⟨S4x4096x1024, .f32⟩ : BufTy).Contents (Elt Ideal)) (x1 x2 : (⟨S1024x128, .f32⟩ : BufTy).Contents (Elt Ideal))
    (b : Fin 4) (q k : Fin 4096) :
    val_main_v21 (F := Ideal) x0 x1 x2 (ix3 b q k)
      = Ideal.div (Ideal.exp (AttnSpec.score x0 x1 x2 b q k - AttnSpec.rowMax x0 x1 x2 b q)) (AttnSpec.den x0 x1 x2 b q) := by
  have h20 : val_main_v20 (F := Ideal) x0 x1 x2 (ix3 b q k) = AttnSpec.den x0 x1 x2 b q := by
    rw [val_main_v20_apply, val_main_v19_apply, ← v18_apply']
    exact congrArg (val_main_v18 (F := Ideal) x0 x1 x2) (funext fun a => by match a with | ⟨0, _⟩ => rfl | ⟨1, _⟩ => rfl)
  rw [val_main_v21_apply, v17_apply', h20]; rfl

/-! ## The reference is the specification -/

/-- The reference's result, as a function of its four argument arrays at the ideal values, is single-head causal
    attention `AttnSpec.G`: at (b, q, h), the sum over key positions of the softmax weight of row `q` times the
    value row's coordinate `h`. -/
theorem ref_eq_spec (x0 : (⟨S4x4096x1024, .f32⟩ : BufTy).Contents (Elt Ideal)) (x1 x2 x3 : (⟨S1024x128, .f32⟩ : BufTy).Contents (Elt Ideal)) :
    val_main_v22 (F := Ideal) x0 x1 x2 x3 = Cert.AttnSpec.G x0 x1 x2 x3 := by
  funext i
  obtain ⟨b, q, h, rfl⟩ : ∃ (b : Fin 4) (q : Fin 4096) (h : Fin 128), i = ix3 b q h := ⟨i 0, i 1, i 2, eq_ix3 i⟩
  rw [val_main_v22_apply, AttnSpec.G_apply]
  refine Finset.sum_congr rfl fun k _ => ?_
  rw [← v21_apply', ← v2_apply']
  exact congrArg₂ (· * ·)
    (congrArg (val_main_v21 (F := Ideal) x0 x1 x2) (funext fun a => by match a with | ⟨0, _⟩ => rfl | ⟨1, _⟩ => rfl | ⟨2, _⟩ => rfl))
    (congrArg (val_main_v2 (F := Ideal) x0 x3) (funext fun a => by match a with | ⟨0, _⟩ => rfl | ⟨1, _⟩ => rfl | ⟨2, _⟩ => rfl))

end Cert.ReferenceIdeal.RefValue

end
-- ==== Proof.FlashValue.lean ====
import proofs.«130832_j91044716740856_2_alg».proof.Proof.FlashRegion
import Idealize.ShloMosaic.Lib.Pipeline.Value
import Idealize.ShloMosaic.Lib.Tactic

/-! # What the attention body leaves in the output block, as its running buffers' arithmetic

The body's run (per query tile) ends with one store into the output block whose value is built from loads of the three
running buffers; those loads read back what the body itself stored there. Reading them back, the output block is the
numerator divided by the denominator after the visited key tiles, each tile's update one triple of the kernel's named
values applied to the state before it. -/

set_option maxRecDepth 16384

noncomputable section

namespace Cert.KernelIdeal.Hand

open Idealize.ShloMosaic Idealize.ShloMosaic.TcCoe Idealize.ShloMosaic.Tactic Idealize.SL.Sem
open Idealize.ShloMosaic.Pipeline (Dat)
open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer reads the payload of the LAST whole-buffer store, whatever was stored before. -/
theorem readCov_cons_unit_zero {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- Key tile `k` inside the whole key (or value) row of a batch: rows `1024 k … 1024 k + 1023`. -/
abbrev rT0 : Rect S1x4096x128 := Rect.unit (s := S1x4096x128) ![0, 0, 0] S1x1024x128.size inb_S1x4096x128_S1x1024x128_0_0_0
abbrev rT1 : Rect S1x4096x128 := Rect.unit (s := S1x4096x128) ![0, 1024, 0] S1x1024x128.size inb_S1x4096x128_S1x1024x128_0_1024_0
abbrev rT2 : Rect S1x4096x128 := Rect.unit (s := S1x4096x128) ![0, 2048, 0] S1x1024x128.size inb_S1x4096x128_S1x1024x128_0_2048_0
abbrev rT3 : Rect S1x4096x128 := Rect.unit (s := S1x4096x128) ![0, 3072, 0] S1x1024x128.size inb_S1x4096x128_S1x1024x128_0_3072_0

/-- The three running buffers: row maximum, row denominator, numerator. -/
abbrev St (F : FTy → Type) : Type := Vec F S1024x1 .f32 × Vec F S1024x1 .f32 × Vec F S1024x128 .f32

/-- Their contents after the reset: `-∞`, `0`, `0`. -/
def st0 : St F := (k1_pay26 (F := F), k1_pay27 (F := F), k1_pay28 (F := F))

/-- The update by key tile 0: the new maximum, the rescaled denominator plus the tile's row sums, the rescaled
    numerator plus the tile's weighted values — each a named value of the kernel, of the query block `q`, the tile of
    keys and of values, and the state before. `w` is the query tile's position as a word. -/
def tile0 (w : BitVec 32) (q : FVec F S1024x128 .bf16) (x1 x2 : Vec F S1x4096x128 .bf16) (s : St F) : St F :=
  (k1_pay31 (k1_pay3 w q (View.ld x1 rT0) s.1), k1_pay6 w q (View.ld x1 rT0) s.1 s.2.1,
    k1_pay30 (k1_pay7 w q (View.ld x1 rT0) (View.ld x2 rT0) s.1 s.2.2))

/-- The update by key tile 1: the new maximum, the rescaled denominator plus the tile's row sums, the rescaled
    numerator plus the tile's weighted values — each a named value of the kernel, of the query block `q`, the tile of
    keys and of values, and the state before. `w` is the query tile's position as a word. -/
def tile1 (w : BitVec 32) (q : FVec F S1024x128 .bf16) (x1 x2 : Vec F S1x4096x128 .bf16) (s : St F) : St F :=
  (k1_pay33 (k1_pay9 w q (View.ld x1 rT1) s.1), k1_pay12 w q (View.ld x1 rT1) s.1 s.2.1,
    k1_pay32 (k1_pay13 w q (View.ld x1 rT1) (View.ld x2 rT1) s.1 s.2.2))

/-- The update by key tile 2: the new maximum, the rescaled denominator plus the tile's row sums, the rescaled
    numerator plus the tile's weighted values — each a named value of the kernel, of the query block `q`, the tile of
    keys and of values, and the state before. `w` is the query tile's position as a word. -/
def tile2 (w : BitVec 32) (q : FVec F S1024x128 .bf16) (x1 x2 : Vec F S1x4096x128 .bf16) (s : St F) : St F :=
  (k1_pay35 (k1_pay15 w q (View.ld x1 rT2) s.1), k1_pay18 w q (View.ld x1 rT2) s.1 s.2.1,
    k1_pay34 (k1_pay19 w q (View.ld x1 rT2) (View.ld x2 rT2) s.1 s.2.2))

/-- The update by key tile 3: the new maximum, the rescaled denominator plus the tile's row sums, the rescaled
    numerator plus the tile's weighted values — each a named value of the kernel, of the query block `q`, the tile of
    keys and of values, and the state before. `w` is the query tile's position as a word. -/
def tile3 (w : BitVec 32) (q : FVec F S1024x128 .bf16) (x1 x2 : Vec F S1x4096x128 .bf16) (s : St F) : St F :=
  (k1_pay37 (k1_pay21 w q (View.ld x1 rT3) s.1), k1_pay24 w q (View.ld x1 rT3) s.1 s.2.1,
    k1_pay36 (k1_pay25 w q (View.ld x1 rT3) (View.ld x2 rT3) s.1 s.2.2))

/-- The state after the key tiles a query tile visits. -/
def stAfter0 (w : BitVec 32) (x0 : Vec F S1x1024x128 .bf16) (x1 x2 : Vec F S1x4096x128 .bf16) : St F := tile0 w (k1_pay29 x0) x1 x2 st0
def stAfter1 (w : BitVec 32) (x0 : Vec F S1x1024x128 .bf16) (x1 x2 : Vec F S1x4096x128 .bf16) : St F := tile1 w (k1_pay29 x0) x1 x2 (stAfter0 w x0 x1 x2)
def stAfter2 (w : BitVec 32) (x0 : Vec F S1x1024x128 .bf16) (x1 x2 : Vec F S1x4096x128 .bf16) : St F := tile2 w (k1_pay29 x0) x1 x2 (stAfter1 w x0 x1 x2)
def stAfter3 (w : BitVec 32) (x0 : Vec F S1x1024x128 .bf16) (x1 x2 : Vec F S1x4096x128 .bf16) : St F := tile3 w (k1_pay29 x0) x1 x2 (stAfter2 w x0 x1 x2)

set_option maxHeartbeats 2000000 in
/-- At query tile 0 the output block ends at numerator over denominator of the state after key tile 0. -/
theorem flashOut0_eq (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : ¬visits 1#32 i) (hc2 : ¬visits 2#32 i) (hc3 : ¬visits 3#32 i)
    (x0 : Vec F S1x1024x128 .bf16) (x1 : Vec F S1x4096x128 .bf16) (x2 : Vec F S1x4096x128 .bf16) :
    flashOut0 c i a2 h2 a3 h3 a4 h4 a5 h5 a6 h6 a7 h7 a8 h8 hc0 hc1 hc2 hc3 x0 x1 x2
      = k1_pay1 (stAfter0 (BitVec.ofNat 32 (i 1).val) x0 x1 x2).2.2 (stAfter0 (BitVec.ofNat 32 (i 1).val) x0 x1 x2).2.1 := by
  unfold flashOut0
  rw [View.read_writes_eq_canon _ _ _ (flashCover0 c i a2 h2 a3 h3 a4 h4 a5 h5 a6 h6 a7 h7 a8 h8 hc0 hc1 hc2 hc3 x0 x1 x2)]
  unfold flashRun0
  dsimp only
  sl_unfold_words
  rw [View.canon_unit_zero hz3]
  simp only [readCov_cons_unit_zero (S := S1024x1) _ hz2, readCov_cons_unit_zero (S := S1024x128) _ hz2,
    View.readCov_unit_zero (S := S1024x1) _ hz2, View.readCov_unit_zero (S := S1024x128) _ hz2, View.readAt_eq_ld, h2.read_unread, h3.read_unread, h4.read_unread,
    View.ld_unit_zero (S := S1x1024x128) hz3]
  rfl

set_option maxHeartbeats 2000000 in
/-- At query tile 1 the output block ends at numerator over denominator of the state after key tiles 0 … 1. -/
theorem flashOut1_eq (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : ¬visits 2#32 i) (hc3 : ¬visits 3#32 i)
    (x0 : Vec F S1x1024x128 .bf16) (x1 : Vec F S1x4096x128 .bf16) (x2 : Vec F S1x4096x128 .bf16) :
    flashOut1 c i a2 h2 a3 h3 a4 h4 a5 h5 a6 h6 a7 h7 a8 h8 hc0 hc1 hc2 hc3 x0 x1 x2
      = k1_pay1 (stAfter1 (BitVec.ofNat 32 (i 1).val) x0 x1 x2).2.2 (stAfter1 (BitVec.ofNat 32 (i 1).val) x0 x1 x2).2.1 := by
  unfold flashOut1
  rw [View.read_writes_eq_canon _ _ _ (flashCover1 c i a2 h2 a3 h3 a4 h4 a5 h5 a6 h6 a7 h7 a8 h8 hc0 hc1 hc2 hc3 x0 x1 x2)]
  unfold flashRun1
  dsimp only
  sl_unfold_words
  rw [View.canon_unit_zero hz3]
  simp only [readCov_cons_unit_zero (S := S1024x1) _ hz2, readCov_cons_unit_zero (S := S1024x128) _ hz2,
    View.readCov_unit_zero (S := S1024x1) _ hz2, View.readCov_unit_zero (S := S1024x128) _ hz2, View.readAt_eq_ld, h2.read_unread, h3.read_unread, h4.read_unread,
    View.ld_unit_zero (S := S1x1024x128) hz3]
  rfl

set_option maxHeartbeats 2000000 in
/-- At query tile 2 the output block ends at numerator over denominator of the state after key tiles 0 … 2. -/
theorem flashOut2_eq (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : visits 2#32 i) (hc3 : ¬visits 3#32 i)
    (x0 : Vec F S1x1024x128 .bf16) (x1 : Vec F S1x4096x128 .bf16) (x2 : Vec F S1x4096x128 .bf16) :
    flashOut2 c i a2 h2 a3 h3 a4 h4 a5 h5 a6 h6 a7 h7 a8 h8 hc0 hc1 hc2 hc3 x0 x1 x2
      = k1_pay1 (stAfter2 (BitVec.ofNat 32 (i 1).val) x0 x1 x2).2.2 (stAfter2 (BitVec.ofNat 32 (i 1).val) x0 x1 x2).2.1 := by
  unfold flashOut2
  rw [View.read_writes_eq_canon _ _ _ (flashCover2 c i a2 h2 a3 h3 a4 h4 a5 h5 a6 h6 a7 h7 a8 h8 hc0 hc1 hc2 hc3 x0 x1 x2)]
  unfold flashRun2
  dsimp only
  sl_unfold_words
  rw [View.canon_unit_zero hz3]
  simp only [readCov_cons_unit_zero (S := S1024x1) _ hz2, readCov_cons_unit_zero (S := S1024x128) _ hz2,
    View.readCov_unit_zero (S := S1024x1) _ hz2, View.readCov_unit_zero (S := S1024x128) _ hz2, View.readAt_eq_ld, h2.read_unread, h3.read_unread, h4.read_unread,
    View.ld_unit_zero (S := S1x1024x128) hz3]
  rfl

set_option maxHeartbeats 2000000 in
/-- At query tile 3 the output block ends at numerator over denominator of the state after key tiles 0 … 3. -/
theorem flashOut3_eq (c : Dev nD) (i : grid1.Coords)
    (a2 : Memref sig .tc .vmem S1x1024x128 .bf16) (h2 : a2.IsWhole) (a3 : Memref sig .tc .vmem S1x4096x128 .bf16) (h3 : a3.IsWhole)
    (a4 : Memref sig .tc .vmem S1x4096x128 .bf16) (h4 : a4.IsWhole) (a5 : Memref sig .tc .vmem S1x1024x128 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x128 .f32) (h8 : a8.IsWhole)
    (hc0 : visits 0#32 i) (hc1 : visits 1#32 i) (hc2 : visits 2#32 i) (hc3 : visits 3#32 i)
    (x0 : Vec F S1x1024x128 .bf16) (x1 : Vec F S1x4096x128 .bf16) (x2 : Vec F S1x4096x128 .bf16) :
    flashOut3 c i a2 h2 a3 h3 a4 h4 a5 h5 a6 h6 a7 h7 a8 h8 hc0 hc1 hc2 hc3 x0 x1 x2
      = k1_pay1 (stAfter3 (BitVec.ofNat 32 (i 1).val) x0 x1 x2).2.2 (stAfter3 (BitVec.ofNat 32 (i 1).val) x0 x1 x2).2.1 := by
  unfold flashOut3
  rw [View.read_writes_eq_canon _ _ _ (flashCover3 c i a2 h2 a3 h3 a4 h4 a5 h5 a6 h6 a7 h7 a8 h8 hc0 hc1 hc2 hc3 x0 x1 x2)]
  unfold flashRun3
  dsimp only
  sl_unfold_words
  rw [View.canon_unit_zero hz3]
  simp only [readCov_cons_unit_zero (S := S1024x1) _ hz2, readCov_cons_unit_zero (S := S1024x128) _ hz2,
    View.readCov_unit_zero (S := S1024x1) _ hz2, View.readCov_unit_zero (S := S1024x128) _ hz2, View.readAt_eq_ld, h2.read_unread, h3.read_unread, h4.read_unread,
    View.ld_unit_zero (S := S1x1024x128) hz3]
  rfl

end Cert.KernelIdeal.Hand

end
-- ==== Proof.LibOnlineSoftmax.lean ====
/-
Online (tiled, running-maximum) softmax-weighted sums over the extended reals.

A row of scores is cut into tiles.  A one-pass evaluation keeps a state `(m, l, a)`: the
running maximum of the scores seen so far, the sum of `exp (score - m)` over them, and the
sum of `exp (score - m) * value`.  On a new tile the maximum is raised to `m'`, the two old
sums are rescaled by `exp (m - m')`, and the tile's terms are added.  This file proves that
the quotient `a / l` after the last unmasked tile is the softmax-weighted sum of the values
taken with the global maximum `M` and the global denominator `L = Σ exp (score - M)`.

The mathematics.  Write `E x` for the real value of the extended exponential (`E ⊥ = 0`,
`E r = exp r`).  For a score `x ≠ ⊤` and a real `m`, `exp (x - m) = E x * exp (-m)`.  Hence
after `k` tiles the state satisfies `E m * l = Σ_{t<k} Σ_j E (s t j)` and
`E m * a = Σ_{t<k} Σ_j E (s t j) * v t j`: raising the maximum multiplies both sides of the
state by `exp (m - m')` and the invariant is untouched, and at `k = 0` both sides are `0`.
From the first tile on the maximum is a real number, so `a / l` is the quotient of the two
unscaled sums; the same holds for the right-hand side with `M` in place of `m`.  Wholly
masked tiles contribute `E ⊥ = 0` to both sums.
-/
import Mathlib.Data.EReal.Inv
import Mathlib.Analysis.SpecialFunctions.Exp
import Mathlib.Algebra.BigOperators.Fin
import Mathlib.Tactic.LinearCombination
import Mathlib.Tactic.FieldSimp
import Mathlib.Tactic.Ring
import Idealize.ShloMosaic.PureOps.Ideal

namespace Cert.Lib.OnlineSoftmax

open Idealize.ShloMosaic
open scoped BigOperators

/-! ### Coercion of finite sums, folds of `max` -/

/-- The coercion `ℝ → EReal` commutes with finite sums. -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Folding `max` from `⊥` over a finite set is its supremum. -/
theorem fold_max_eq_sup {ι : Type*} (S : Finset ι) (f : ι → EReal) :
    S.fold max ⊥ f = S.sup f := by
  classical
  induction S using Finset.induction_on with
  | empty => simp
  | insert a S ha ih => rw [Finset.fold_insert ha, Finset.sup_insert, ih]

/-- Folding `max` from `⊥` over a whole finite type is the supremum over it. -/
theorem univ_fold_max_eq_sup {ι : Type*} [Fintype ι] (f : ι → EReal) :
    Finset.univ.fold max ⊥ f = Finset.univ.sup f :=
  fold_max_eq_sup _ _

/-- A finite supremum of extended reals none of which is `⊤` is not `⊤`. -/
theorem sup_ne_top {ι : Type*} (S : Finset ι) (f : ι → EReal) (hf : ∀ i, f i ≠ ⊤) :
    S.sup f ≠ ⊤ :=
  ne_of_lt ((Finset.sup_lt_iff bot_lt_top).2 fun i _ => lt_top_iff_ne_top.2 (hf i))

/-! ### The real value of the extended exponential -/

/-- `E x`: the real value of the extended exponential, `0` at `⊥` and `exp r` at a real `r`. -/
noncomputable def expR (x : EReal) : ℝ := (Ideal.exp x).toReal

@[simp] theorem expR_bot : expR ⊥ = 0 := by simp [expR]

@[simp] theorem expR_coe (r : ℝ) : expR (r : EReal) = Real.exp r := by simp [expR]

/-- `E x ≥ 0` at every extended real. -/
theorem expR_nonneg (x : EReal) : 0 ≤ expR x := by
  induction x with
  | bot => simp
  | coe r => rw [expR_coe]; exact (Real.exp_pos r).le
  | top => simp [expR]

/-- `E x > 0` at a finite `x`. -/
theorem expR_pos {x : EReal} (hx : x ≠ ⊤) (hx' : x ≠ ⊥) : 0 < expR x := by
  induction x with
  | bot => exact absurd rfl hx'
  | coe r => rw [expR_coe]; exact Real.exp_pos r
  | top => exact absurd rfl hx

/-- For `x ≠ ⊤` and a real `m`: `exp (x - m) = E x * exp (-m)`; both sides are `0` at
    `x = ⊥`, and `exp (r - m) = exp r * exp (-m)` at a real `r`. -/
theorem exp_sub_coe {x : EReal} (hx : x ≠ ⊤) (m : ℝ) :
    Ideal.exp (x - (m : EReal)) = ((expR x * Real.exp (-m) : ℝ) : EReal) := by
  induction x with
  | bot => simp
  | coe r => rw [← EReal.coe_sub, Ideal.exp_coe, expR_coe, sub_eq_add_neg, Real.exp_add]
  | top => exact absurd rfl hx

/-! ### The one-pass evaluation -/

variable {J : Type*} [Fintype J] {T : ℕ}

/-- One tile of the one-pass evaluation: raise the maximum, rescale the two running sums by
    `exp (m - m')`, add the tile's terms. -/
noncomputable def step (s v : J → EReal) (st : EReal × EReal × EReal) : EReal × EReal × EReal :=
  let m' := max st.1 (Finset.univ.sup s)
  let a := Ideal.exp (st.1 - m')
  (m', a * st.2.1 + ∑ j, Ideal.exp (s j - m'), a * st.2.2 + ∑ j, Ideal.exp (s j - m') * v j)

/-- The state after the first `k` tiles, from `(⊥, 0, 0)`. -/
noncomputable def run (s v : Fin T → J → EReal) : (k : ℕ) → k ≤ T → EReal × EReal × EReal
  | 0, _ => (⊥, 0, 0)
  | k + 1, h => step (s ⟨k, h⟩) (v ⟨k, h⟩) (run s v k (Nat.le_of_succ_le h))

@[simp] theorem run_zero (s v : Fin T → J → EReal) (h : 0 ≤ T) : run s v 0 h = (⊥, 0, 0) := rfl

theorem run_succ (s v : Fin T → J → EReal) (k : ℕ) (h : k + 1 ≤ T) :
    run s v (k + 1) h = step (s ⟨k, h⟩) (v ⟨k, h⟩) (run s v k (Nat.le_of_succ_le h)) := rfl

/-- One tile on a state whose two sums are real and whose new maximum is a real `m'`: the new
    sums are real, the old ones scaled by `E μ * exp (-m')` plus the tile's terms
    `E (s j) * exp (-m')`. -/
theorem step_coe (s v : J → EReal) (μ : EReal) (l a m' : ℝ)
    (hμ : μ ≠ ⊤) (hs : ∀ j, s j ≠ ⊤) (hv : ∀ j, v j ≠ ⊤ ∧ v j ≠ ⊥)
    (hm : max μ (Finset.univ.sup s) = (m' : EReal)) :
    step s v (μ, (l : EReal), (a : EReal)) =
      ((m' : EReal),
       ((expR μ * Real.exp (-m') * l + ∑ j, expR (s j) * Real.exp (-m') : ℝ) : EReal),
       ((expR μ * Real.exp (-m') * a
          + ∑ j, expR (s j) * Real.exp (-m') * (v j).toReal : ℝ) : EReal)) := by
  have h1 : ∀ j, Ideal.exp (s j - (m' : EReal)) = ((expR (s j) * Real.exp (-m') : ℝ) : EReal) :=
    fun j => exp_sub_coe (hs j) m'
  have h2 : ∀ j, Ideal.exp (s j - (m' : EReal)) * v j
      = ((expR (s j) * Real.exp (-m') * (v j).toReal : ℝ) : EReal) := fun j => by
    rw [h1 j, EReal.coe_mul (expR (s j) * Real.exp (-m')), EReal.coe_toReal (hv j).1 (hv j).2]
  simp only [step, hm]
  rw [exp_sub_coe hμ m', Finset.sum_congr rfl fun j _ => h1 j,
    Finset.sum_congr rfl fun j _ => h2 j, ← coe_finset_sum, ← coe_finset_sum,
    ← EReal.coe_mul, ← EReal.coe_mul, ← EReal.coe_add, ← EReal.coe_add]

/-! ### Sums over the first `k` tiles -/

/-- The sum over the tiles below `k + 1` is the sum over the tiles below `k` plus tile `k`. -/
theorem sum_lt_succ (g : Fin T → ℝ) (k : ℕ) (hk : k < T) :
    (∑ t : Fin T, if t.val < k + 1 then g t else 0)
      = (∑ t : Fin T, if t.val < k then g t else 0) + g ⟨k, hk⟩ := by
  classical
  rw [← Finset.sum_filter, ← Finset.sum_filter]
  have h : Finset.univ.filter (fun t : Fin T => t.val < k + 1)
      = insert ⟨k, hk⟩ (Finset.univ.filter (fun t : Fin T => t.val < k)) := by
    ext t
    simp only [Finset.mem_filter, Finset.mem_univ, true_and, Finset.mem_insert, Fin.ext_iff]
    omega
  rw [h, Finset.sum_insert (by simp), add_comm]

/-- If `g` vanishes from tile `n` on, the sum over the tiles below `n` is the whole sum. -/
theorem sum_lt_of_masked (g : Fin T → ℝ) (n : ℕ) (hg : ∀ t : Fin T, n ≤ t.val → g t = 0) :
    (∑ t : Fin T, if t.val < n then g t else 0) = ∑ t : Fin T, g t := by
  refine Finset.sum_congr rfl fun t _ => ?_
  split_ifs with h
  · rfl
  · exact (hg t (not_lt.1 h)).symm

/-! ### The invariant -/

/-- After `k` tiles the state is `(μ, l, a)` with `l`, `a` real, `μ ≠ ⊤` (and `μ ≠ ⊥` from
    the first tile on), `E μ * l = Σ_{t<k} Σ_j E (s t j)` and
    `E μ * a = Σ_{t<k} Σ_j E (s t j) * v t j`. -/
theorem run_invariant (s v : Fin T → J → EReal)
    (hs_top : ∀ t j, s t j ≠ ⊤) (hv : ∀ t j, v t j ≠ ⊤ ∧ v t j ≠ ⊥)
    (hfirst : ∀ h : 0 < T, ∃ j, s ⟨0, h⟩ j ≠ ⊥) :
    ∀ (k : ℕ) (hk : k ≤ T), ∃ (μ : EReal) (l a : ℝ),
      run s v k hk = (μ, (l : EReal), (a : EReal)) ∧ μ ≠ ⊤ ∧ (0 < k → μ ≠ ⊥) ∧
      expR μ * l = (∑ t : Fin T, if t.val < k then ∑ j, expR (s t j) else 0) ∧
      expR μ * a
        = (∑ t : Fin T, if t.val < k then ∑ j, expR (s t j) * (v t j).toReal else 0) := by
  intro k
  induction k with
  | zero =>
    intro hk
    exact ⟨⊥, 0, 0, by simp, bot_ne_top, fun h => absurd h (lt_irrefl 0), by simp, by simp⟩
  | succ k ih =>
    intro hk
    obtain ⟨μ, l, a, hrun, hμt, hμb, hl, ha⟩ := ih (Nat.le_of_succ_le hk)
    -- the new maximum is a real number
    have hsup_le : Finset.univ.sup (s ⟨k, hk⟩) ≤ max μ (Finset.univ.sup (s ⟨k, hk⟩)) :=
      le_max_right _ _
    have hnt : max μ (Finset.univ.sup (s ⟨k, hk⟩)) ≠ ⊤ :=
      ne_of_lt (max_lt (lt_top_iff_ne_top.2 hμt)
        (lt_top_iff_ne_top.2 (sup_ne_top _ _ (hs_top ⟨k, hk⟩))))
    have hnb : max μ (Finset.univ.sup (s ⟨k, hk⟩)) ≠ ⊥ := by
      rcases Nat.eq_zero_or_pos k with h0 | hpos
      · subst h0
        obtain ⟨j, hj⟩ := hfirst hk
        have : s ⟨0, hk⟩ j ≤ max μ (Finset.univ.sup (s ⟨0, hk⟩)) :=
          le_trans (Finset.le_sup (f := s ⟨0, hk⟩) (Finset.mem_univ j)) hsup_le
        exact ne_of_gt (lt_of_lt_of_le (bot_lt_iff_ne_bot.2 hj) this)
      · exact ne_of_gt (lt_of_lt_of_le (bot_lt_iff_ne_bot.2 (hμb hpos)) (le_max_left _ _))
    have hm : max μ (Finset.univ.sup (s ⟨k, hk⟩))
        = ((max μ (Finset.univ.sup (s ⟨k, hk⟩))).toReal : EReal) :=
      (EReal.coe_toReal hnt hnb).symm
    generalize (max μ (Finset.univ.sup (s ⟨k, hk⟩))).toReal = m' at hm
    have hcancel : Real.exp m' * Real.exp (-m') = 1 := by
      rw [← Real.exp_add, add_neg_cancel, Real.exp_zero]
    refine ⟨(m' : EReal),
      expR μ * Real.exp (-m') * l + ∑ j, expR (s ⟨k, hk⟩ j) * Real.exp (-m'),
      expR μ * Real.exp (-m') * a
        + ∑ j, expR (s ⟨k, hk⟩ j) * Real.exp (-m') * (v ⟨k, hk⟩ j).toReal,
      ?_, EReal.coe_ne_top _, fun _ => EReal.coe_ne_bot _, ?_, ?_⟩
    · rw [run_succ, hrun]
      exact step_coe (s ⟨k, hk⟩) (v ⟨k, hk⟩) μ l a m' hμt (hs_top _) (hv _) hm
    · rw [sum_lt_succ _ k hk, ← hl, expR_coe, ← Finset.sum_mul]
      linear_combination (expR μ * l + ∑ j, expR (s ⟨k, hk⟩ j)) * hcancel
    · have hsum : (∑ j, expR (s ⟨k, hk⟩ j) * Real.exp (-m') * (v ⟨k, hk⟩ j).toReal)
          = (∑ j, expR (s ⟨k, hk⟩ j) * (v ⟨k, hk⟩ j).toReal) * Real.exp (-m') := by
        rw [Finset.sum_mul]
        exact Finset.sum_congr rfl fun j _ => by ring
      rw [sum_lt_succ _ k hk, ← ha, expR_coe, hsum]
      linear_combination
        (expR μ * a + ∑ j, expR (s ⟨k, hk⟩ j) * (v ⟨k, hk⟩ j).toReal) * hcancel

/-! ### The theorem -/

/-- The coercion `ℝ → EReal` commutes with finite double sums. -/
theorem coe_sum_sum {ι κ : Type*} (S : Finset ι) (S' : Finset κ) (f : ι → κ → ℝ) :
    ((∑ i ∈ S, ∑ j ∈ S', f i j : ℝ) : EReal) = ∑ i ∈ S, ∑ j ∈ S', (f i j : EReal) := by
  rw [coe_finset_sum]
  exact Finset.sum_congr rfl fun i _ => coe_finset_sum _ _

/-- **Online softmax.**  Let the scores never be `⊤`, the values be finite, the first tile hold
    a finite score, and the tiles from `n` on be wholly masked (`⊥`).  Then the quotient of the
    two running sums after `n` tiles is `Σ_t Σ_j (exp (s t j - M) / L) * v t j`, with `M` the
    maximum of all scores and `L = Σ_t Σ_j exp (s t j - M)`.  Both sides are the real number
    `(Σ E (s t j) * v t j) / (Σ E (s t j))`: on the left the common factor is `exp (-m)` for
    the running maximum `m`, on the right it is `exp (-M)`. -/
theorem online_eq_softmax (s v : Fin T → J → EReal) (n : ℕ) (hn : 0 < n) (hnT : n ≤ T)
    (hs_top : ∀ t j, s t j ≠ ⊤) (hv : ∀ t j, v t j ≠ ⊤ ∧ v t j ≠ ⊥)
    (hfirst : ∃ j, s ⟨0, by omega⟩ j ≠ ⊥)
    (hmasked : ∀ t : Fin T, n ≤ t.val → ∀ j, s t j = ⊥) :
    Ideal.div (run s v n hnT).2.2 (run s v n hnT).2.1
      = ∑ t, ∑ j,
          Ideal.div (Ideal.exp (s t j - Finset.univ.sup fun t => Finset.univ.sup (s t)))
            (∑ t, ∑ j, Ideal.exp (s t j - Finset.univ.sup fun t => Finset.univ.sup (s t)))
          * v t j := by
  have hT : 0 < T := lt_of_lt_of_le hn hnT
  obtain ⟨j0, hj0⟩ := hfirst
  -- the two unscaled sums; the first is positive
  have hSpos : 0 < ∑ t : Fin T, ∑ j, expR (s t j) := by
    have h0 : 0 < expR (s ⟨0, hT⟩ j0) := expR_pos (hs_top _ _) hj0
    have h1 : expR (s ⟨0, hT⟩ j0) ≤ ∑ j, expR (s ⟨0, hT⟩ j) :=
      Finset.single_le_sum (f := fun j => expR (s ⟨0, hT⟩ j)) (fun j _ => expR_nonneg _)
        (Finset.mem_univ j0)
    have h2 : (∑ j, expR (s ⟨0, hT⟩ j)) ≤ ∑ t : Fin T, ∑ j, expR (s t j) :=
      Finset.single_le_sum (f := fun t : Fin T => ∑ j, expR (s t j))
        (fun t _ => Finset.sum_nonneg fun j _ => expR_nonneg _) (Finset.mem_univ _)
    linarith
  generalize hS : (∑ t : Fin T, ∑ j, expR (s t j)) = S at hSpos
  generalize hA : (∑ t : Fin T, ∑ j, expR (s t j) * (v t j).toReal) = A
  -- the state after `n` tiles
  obtain ⟨μ, l, a, hrun, hμt, hμb, hl, ha⟩ :=
    run_invariant s v hs_top hv (fun _ => ⟨j0, hj0⟩) n hnT
  rw [sum_lt_of_masked _ n (fun t ht => by simp [hmasked t ht]), hS] at hl
  rw [sum_lt_of_masked _ n (fun t ht => by simp [hmasked t ht]), hA] at ha
  obtain ⟨m, rfl⟩ : ∃ m : ℝ, μ = (m : EReal) :=
    ⟨μ.toReal, (EReal.coe_toReal hμt (hμb hn)).symm⟩
  rw [expR_coe] at hl ha
  have hl0 : l ≠ 0 := by
    rintro rfl
    rw [mul_zero] at hl
    exact hSpos.ne hl
  -- the global maximum is a real number
  have hMt : (Finset.univ.sup fun t => Finset.univ.sup (s t)) ≠ ⊤ :=
    sup_ne_top _ _ fun t => sup_ne_top _ _ (hs_top t)
  have hMb : (Finset.univ.sup fun t => Finset.univ.sup (s t)) ≠ ⊥ :=
    ne_of_gt (lt_of_lt_of_le (bot_lt_iff_ne_bot.2 hj0)
      (le_trans (Finset.le_sup (f := s ⟨0, hT⟩) (Finset.mem_univ j0))
        (Finset.le_sup (f := fun t : Fin T => Finset.univ.sup (s t))
          (Finset.mem_univ (⟨0, hT⟩ : Fin T)))))
  obtain ⟨M, hM⟩ : ∃ M : ℝ, (Finset.univ.sup fun t => Finset.univ.sup (s t)) = (M : EReal) :=
    ⟨_, (EReal.coe_toReal hMt hMb).symm⟩
  rw [hM]
  -- the denominator
  have hL : (∑ t, ∑ j, Ideal.exp (s t j - (M : EReal))) = ((S * Real.exp (-M) : ℝ) : EReal) := by
    rw [← hS, Finset.sum_mul, coe_finset_sum]
    refine Finset.sum_congr rfl fun t _ => ?_
    rw [Finset.sum_mul, coe_finset_sum]
    exact Finset.sum_congr rfl fun j _ => exp_sub_coe (hs_top t j) M
  have hL0 : S * Real.exp (-M) ≠ 0 := mul_ne_zero hSpos.ne' (Real.exp_pos _).ne'
  have hterm : ∀ t j,
      Ideal.div (Ideal.exp (s t j - (M : EReal))) ((S * Real.exp (-M) : ℝ) : EReal) * v t j
        = ((expR (s t j) * Real.exp (-M) * (1 / (S * Real.exp (-M))) * (v t j).toReal : ℝ)
            : EReal) := fun t j => by
    rw [Ideal.div_coe hL0, exp_sub_coe (hs_top t j) M, ← EReal.coe_mul,
      EReal.coe_mul (expR (s t j) * Real.exp (-M) * (1 / (S * Real.exp (-M)))),
      EReal.coe_toReal (hv t j).1 (hv t j).2]
  rw [hL, Finset.sum_congr rfl fun t _ => Finset.sum_congr rfl fun j _ => hterm t j,
    ← coe_sum_sum, hrun]
  show Ideal.div (a : EReal) (l : EReal) = _
  rw [Ideal.div_coe hl0, ← EReal.coe_mul]
  congr 1
  -- the identity between real numbers
  have hR : (∑ t : Fin T, ∑ j,
      expR (s t j) * Real.exp (-M) * (1 / (S * Real.exp (-M))) * (v t j).toReal)
        = A * (Real.exp (-M) * (1 / (S * Real.exp (-M)))) := by
    rw [← hA, Finset.sum_mul]
    refine Finset.sum_congr rfl fun t _ => ?_
    rw [Finset.sum_mul]
    exact Finset.sum_congr rfl fun j _ => by ring
  rw [hR, ← ha, ← hl]
  have hem : Real.exp m ≠ 0 := (Real.exp_pos m).ne'
  have heM : Real.exp (-M) ≠ 0 := (Real.exp_pos (-M)).ne'
  field_simp

end Cert.Lib.OnlineSoftmax
-- ==== Proof.LibScaleContract.lean ====
/-
Scaling a contraction over the extended reals, and two numerical constants.

For finite (real-valued) extended reals, multiplying one factor of a double contraction
`Σ_h (Σ_c x c * w c h) * k h` by a real constant `α` multiplies the whole contraction by `α`:
every partial sum and product is the coercion of the corresponding real sum or product, and
over the reals the identity is distributivity.  The file also records that a finite sum and a
product of finite extended reals are finite, and the values `sqrt 1024 = 32` and
`1 / 32` of the extended square root and division.
-/
import Mathlib.Data.EReal.Inv
import Mathlib.Analysis.SpecialFunctions.Sqrt
import Mathlib.Tactic.Ring
import Mathlib.Tactic.NormNum
import Idealize.ShloMosaic.PureOps.Ideal

namespace Cert.Lib.ScaleContract

open Idealize.ShloMosaic
open scoped BigOperators

/-! ### Finite extended reals -/

/-- The coercion `ℝ → EReal` commutes with finite sums. -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A finite sum of finite extended reals is the coercion of the sum of their real values. -/
theorem sum_eq_coe_sum_toReal {ι : Type*} (S : Finset ι) (f : ι → EReal)
    (hf : ∀ i ∈ S, f i ≠ ⊤ ∧ f i ≠ ⊥) :
    ∑ i ∈ S, f i = ((∑ i ∈ S, (f i).toReal : ℝ) : EReal) := by
  rw [coe_finset_sum]
  exact Finset.sum_congr rfl fun i hi => (EReal.coe_toReal (hf i hi).1 (hf i hi).2).symm

/-- A finite sum of finite extended reals is finite. -/
theorem sum_finite {ι : Type*} (S : Finset ι) (f : ι → EReal)
    (hf : ∀ i ∈ S, f i ≠ ⊤ ∧ f i ≠ ⊥) :
    ∑ i ∈ S, f i ≠ ⊤ ∧ ∑ i ∈ S, f i ≠ ⊥ := by
  rw [sum_eq_coe_sum_toReal S f hf]
  exact ⟨EReal.coe_ne_top _, EReal.coe_ne_bot _⟩

/-- A product of two finite extended reals is the coercion of the product of their real
    values. -/
theorem mul_eq_coe_mul_toReal {x y : EReal} (hx : x ≠ ⊤ ∧ x ≠ ⊥) (hy : y ≠ ⊤ ∧ y ≠ ⊥) :
    x * y = ((x.toReal * y.toReal : ℝ) : EReal) := by
  rw [EReal.coe_mul, EReal.coe_toReal hx.1 hx.2, EReal.coe_toReal hy.1 hy.2]

/-- A product of two finite extended reals is finite. -/
theorem mul_finite {x y : EReal} (hx : x ≠ ⊤ ∧ x ≠ ⊥) (hy : y ≠ ⊤ ∧ y ≠ ⊥) :
    x * y ≠ ⊤ ∧ x * y ≠ ⊥ := by
  rw [mul_eq_coe_mul_toReal hx hy]
  exact ⟨EReal.coe_ne_top _, EReal.coe_ne_bot _⟩

/-- A family of finite extended reals is the coercion of a real family. -/
theorem exists_real_of_finite {ι : Type*} (f : ι → EReal) (hf : ∀ i, f i ≠ ⊤ ∧ f i ≠ ⊥) :
    ∃ g : ι → ℝ, f = fun i => (g i : EReal) :=
  ⟨fun i => (f i).toReal, funext fun i => (EReal.coe_toReal (hf i).1 (hf i).2).symm⟩

/-! ### Scaling a contraction -/

variable {C H : Type*} [Fintype C] [Fintype H]

/-- Over the reals: scaling `w` by `α` scales the double contraction by `α`. -/
theorem real_scale_contract (x : C → ℝ) (w : C → H → ℝ) (k : H → ℝ) (α : ℝ) :
    ∑ h, (∑ c, x c * (w c h * α)) * k h = (∑ h, (∑ c, x c * w c h) * k h) * α := by
  rw [Finset.sum_mul]
  refine Finset.sum_congr rfl fun h _ => ?_
  have hc : ∑ c, x c * (w c h * α) = (∑ c, x c * w c h) * α := by
    rw [Finset.sum_mul]
    exact Finset.sum_congr rfl fun c _ => by ring
  rw [hc]
  ring

/-- Over finite extended reals: scaling `w` by a real `α` scales the double contraction
    `Σ_h (Σ_c x c * w c h) * k h` by `α`.  All sums and products are coercions of real ones,
    and over the reals this is distributivity. -/
theorem scale_contract (x : C → EReal) (w : C → H → EReal) (k : H → EReal) (α : ℝ)
    (hx : ∀ c, x c ≠ ⊤ ∧ x c ≠ ⊥) (hw : ∀ c h, w c h ≠ ⊤ ∧ w c h ≠ ⊥)
    (hk : ∀ h, k h ≠ ⊤ ∧ k h ≠ ⊥) :
    ∑ h, (∑ c, x c * (w c h * (α : EReal))) * k h
      = (∑ h, (∑ c, x c * w c h) * k h) * (α : EReal) := by
  obtain ⟨xr, rfl⟩ := exists_real_of_finite x hx
  obtain ⟨kr, rfl⟩ := exists_real_of_finite k hk
  obtain ⟨wr, rfl⟩ : ∃ g : C → H → ℝ, w = fun c h => (g c h : EReal) :=
    ⟨fun c h => (w c h).toReal,
      funext fun c => funext fun h => (EReal.coe_toReal (hw c h).1 (hw c h).2).symm⟩
  have hl : ∀ h, (∑ c, (xr c : EReal) * ((wr c h : EReal) * (α : EReal))) * (kr h : EReal)
      = (((∑ c, xr c * (wr c h * α)) * kr h : ℝ) : EReal) := fun h => by
    rw [EReal.coe_mul, coe_finset_sum]
    simp only [EReal.coe_mul]
  have hr : ∀ h, (∑ c, (xr c : EReal) * (wr c h : EReal)) * (kr h : EReal)
      = (((∑ c, xr c * wr c h) * kr h : ℝ) : EReal) := fun h => by
    rw [EReal.coe_mul, coe_finset_sum]
    simp only [EReal.coe_mul]
  rw [Finset.sum_congr rfl fun h _ => hl h, Finset.sum_congr rfl fun h _ => hr h,
    ← coe_finset_sum, ← coe_finset_sum, ← EReal.coe_mul, real_scale_contract]

/-! ### Two constants -/

/-- `sqrt 1024 = 32`, since `32 ^ 2 = 1024` and `32 ≥ 0`. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-- `1 / 32` over the extended reals is the real `1 / 32`. -/
theorem div_one_32 : Ideal.div ((1 : ℝ) : EReal) ((32 : ℝ) : EReal) = ((1 / 32 : ℝ) : EReal) := by
  rw [Ideal.div_coe (by norm_num), ← EReal.coe_mul, one_mul]

end Cert.Lib.ScaleContract
-- ==== Proof.FlashRow.lean ====
/-
  One row of causal attention, evaluated tile by tile. The 4096 key positions of a row are cut into 4 tiles of 1024
  columns: key position k is column k mod 1024 of tile k div 1024. A one-pass ("online") evaluation keeps the running
  maximum of the scores, the running sum of the shifted exponentials and the running weighted sum of the value
  coordinates, and visits only the tiles up to the one that holds the query position (later tiles are wholly masked).
  This file proves that the quotient of the two running sums after those tiles is the specification's result
  out (b, q, h).

  Three steps. (1) The score formed with the scale folded into the query weight is the specification's score: over
  finite extended reals a constant factor moves out of a double contraction. (2) The one-pass evaluation's quotient
  is the softmax-weighted sum with the global maximum and the global denominator, both taken over all (tile, column)
  pairs. (3) The pairs (tile, column) are in bijection with the key positions, so the double sums and the double
  supremum are the sums and the supremum over the 4096 key positions.
-/
import Mathlib.Data.EReal.Inv
import Mathlib.Algebra.BigOperators.Fin
import Mathlib.Tactic.NormNum
import Idealize.ShloMosaic.PureOps.Ideal
import Idealize.ShloMosaic.Lib.ValueIdx
import proofs.«130832_j91044716740856_2_alg».proof.Proof.AttnSpec
import proofs.«130832_j91044716740856_2_alg».proof.Proof.LibOnlineSoftmax
import proofs.«130832_j91044716740856_2_alg».proof.Proof.LibScaleContract

noncomputable section

open scoped BigOperators

namespace Cert.FlashRow

open Cert.AttnSpec Cert.Lib.OnlineSoftmax Idealize.ShloMosaic Idealize.ShloMosaic.ValueIdx

/-! ## Tiles and key positions -/

/-- The key position of column j of tile t. -/
def keyPos (t : Fin 4) (j : Fin 1024) : Fin 4096 := ⟨t.val * 1024 + j.val, by omega⟩

@[simp] theorem keyPos_val (t : Fin 4) (j : Fin 1024) : (keyPos t j).val = t.val * 1024 + j.val := rfl

/-- The tile that holds key position k. -/
def tileOf (k : Fin 4096) : Fin 4 := ⟨k.val / 1024, by omega⟩

/-- The column of key position k inside its tile. -/
def colOf (k : Fin 4096) : Fin 1024 := ⟨k.val % 1024, by omega⟩

/-- A key position is column (k mod 1024) of tile (k div 1024). -/
theorem keyPos_tileOf_colOf (k : Fin 4096) : keyPos (tileOf k) (colOf k) = k := by
  apply Fin.ext
  simp only [keyPos_val, tileOf, colOf]
  omega

/-- The pairs (tile, column) are the key positions. -/
def tileEquiv : Fin 4 × Fin 1024 ≃ Fin 4096 where
  toFun p := keyPos p.1 p.2
  invFun k := (tileOf k, colOf k)
  left_inv p := by
    obtain ⟨t, j⟩ := p
    refine Prod.ext (Fin.ext ?_) (Fin.ext ?_)
    · simp only [tileOf, keyPos_val]; omega
    · simp only [colOf, keyPos_val]; omega
  right_inv k := keyPos_tileOf_colOf k

/-- A double sum over tiles and columns is the sum over the key positions. -/
theorem sum_tiles {M : Type*} [AddCommMonoid M] (f : Fin 4096 → M) :
    ∑ t : Fin 4, ∑ j : Fin 1024, f (keyPos t j) = ∑ k : Fin 4096, f k := by
  rw [← Equiv.sum_comp tileEquiv f, Fintype.sum_prod_type]
  rfl

/-- A double supremum over tiles and columns is the supremum over the key positions. -/
theorem sup_tiles (f : Fin 4096 → EReal) :
    (Finset.univ.sup fun t : Fin 4 => Finset.univ.sup fun j : Fin 1024 => f (keyPos t j))
      = Finset.univ.sup f := by
  apply le_antisymm
  · exact Finset.sup_le fun t _ => Finset.sup_le fun j _ => Finset.le_sup (Finset.mem_univ (keyPos t j))
  · refine Finset.sup_le fun k _ => ?_
    have h1 : f k ≤ Finset.univ.sup fun j : Fin 1024 => f (keyPos (tileOf k) j) := by
      have := Finset.le_sup (f := fun j : Fin 1024 => f (keyPos (tileOf k) j)) (Finset.mem_univ (colOf k))
      rwa [keyPos_tileOf_colOf] at this
    exact le_trans h1
      (Finset.le_sup (f := fun t : Fin 4 => Finset.univ.sup fun j : Fin 1024 => f (keyPos t j))
        (Finset.mem_univ (tileOf k)))

/-- The softmax-weighted sum written over (tile, column) pairs, with the maximum and the denominator over the pairs
    too, is the softmax-weighted sum over the key positions. -/
theorem softmax_tiles (f g : Fin 4096 → EReal) :
    (∑ t : Fin 4, ∑ j : Fin 1024,
        Ideal.div
          (Ideal.exp (f (keyPos t j)
            - Finset.univ.sup fun t : Fin 4 => Finset.univ.sup fun j : Fin 1024 => f (keyPos t j)))
          (∑ t : Fin 4, ∑ j : Fin 1024, Ideal.exp (f (keyPos t j)
            - Finset.univ.sup fun t : Fin 4 => Finset.univ.sup fun j : Fin 1024 => f (keyPos t j)))
          * g (keyPos t j))
      = ∑ k : Fin 4096,
          Ideal.div (Ideal.exp (f k - Finset.univ.sup f)) (∑ k : Fin 4096, Ideal.exp (f k - Finset.univ.sup f))
            * g k := by
  rw [sup_tiles f, sum_tiles (fun k => Ideal.exp (f k - Finset.univ.sup f))]
  exact sum_tiles (fun k =>
    Ideal.div (Ideal.exp (f k - Finset.univ.sup f)) (∑ k : Fin 4096, Ideal.exp (f k - Finset.univ.sup f)) * g k)

/-! ## The scale inside the query weight -/

/-- The query weight with the attention scale folded in: every entry times the float word 0x3D000000 (= 1/32). -/
def scaledW (Wq : SW.Idx → EReal) : SW.Idx → EReal := fun i => Wq i * Ideal.ofBits .f32 0x3D000000#32

/-- The float word 0x3D000000 (exponent field 122, mantissa 0) denotes 2⁻⁵ = 1/32. -/
theorem ofBits_inv32 : Ideal.ofBits .f32 0x3D000000#32 = ((1/32 : ℝ) : EReal) := by
  simp [Ideal.ofBits, Ideal.ieee, -EReal.coe_mul]; norm_num

/-- A projected row of finite data is finite. -/
theorem proj_finite (ctx : SCtx.Idx → EReal) (W : SW.Idx → EReal)
    (hctx : ∀ i, ctx i ≠ ⊤ ∧ ctx i ≠ ⊥) (hW : ∀ i, W i ≠ ⊤ ∧ W i ≠ ⊥)
    (b : Fin 4) (t : Fin 4096) (h : Fin 128) :
    proj ctx W b t h ≠ ⊤ ∧ proj ctx W b t h ≠ ⊥ :=
  Cert.Lib.ScaleContract.sum_finite _ _ fun _ _ => Cert.Lib.ScaleContract.mul_finite (hctx _) (hW _)

/-- The scaled query weight of a finite weight is finite. -/
theorem scaledW_finite (Wq : SW.Idx → EReal) (hWq : ∀ i, Wq i ≠ ⊤ ∧ Wq i ≠ ⊥) (i : SW.Idx) :
    scaledW Wq i ≠ ⊤ ∧ scaledW Wq i ≠ ⊥ := by
  refine Cert.Lib.ScaleContract.mul_finite (hWq i) ?_
  rw [ofBits_inv32]
  exact ⟨EReal.coe_ne_top _, EReal.coe_ne_bot _⟩

/-- The inner product of the query row taken with the scaled weight against a key row is the inner product with the
    plain weight, times the specification's scale: the constant 1/32 moves out of the double contraction. -/
theorem scaled_inner (ctx : SCtx.Idx → EReal) (Wk Wq : SW.Idx → EReal)
    (hctx : ∀ i, ctx i ≠ ⊤ ∧ ctx i ≠ ⊥) (hWk : ∀ i, Wk i ≠ ⊤ ∧ Wk i ≠ ⊥) (hWq : ∀ i, Wq i ≠ ⊤ ∧ Wq i ≠ ⊥)
    (b : Fin 4) (q k : Fin 4096) :
    (∑ d : Fin 128, proj ctx (scaledW Wq) b q d * proj ctx Wk b k d)
      = (∑ d : Fin 128, proj ctx Wq b q d * proj ctx Wk b k d) * scale := by
  rw [scale_eq]
  have h := Cert.Lib.ScaleContract.scale_contract
    (fun c : Fin 1024 => ctx (ix3 b q c)) (fun (c : Fin 1024) (d : Fin 128) => Wq (ix2 c d))
    (fun d : Fin 128 => proj ctx Wk b k d) (1/32 : ℝ)
    (fun c => hctx _) (fun c d => hWq _) (fun d => proj_finite ctx Wk hctx hWk b k d)
  simp only [proj, scaledW, ofBits_inv32]
  exact h

/-! ## The kernel's scores and values, by tile -/

/-- The masked score of query row (qi, r) against column j of key tile t, as the kernel forms it: no scale factor
    outside (it sits in the weight). -/
def tileScore (ctx : SCtx.Idx → EReal) (Wk Wq : SW.Idx → EReal) (b : Fin 4) (qi : Fin 4) (r : Fin 1024) :
    Fin 4 → Fin 1024 → EReal :=
  fun t j => if t.val * 1024 + j.val ≤ qi.val * 1024 + r.val
    then ∑ d : Fin 128, proj ctx (scaledW Wq) b (keyPos qi r) d * proj ctx Wk b (keyPos t j) d else ⊥

/-- The value row's coordinate h at column j of key tile t. -/
def tileVal (ctx : SCtx.Idx → EReal) (Wv : SW.Idx → EReal) (b : Fin 4) (h : Fin 128) :
    Fin 4 → Fin 1024 → EReal :=
  fun t j => proj ctx Wv b (keyPos t j) h

/-- Step 1: the kernel's tile score is the specification's masked score at the key position of (t, j). The mask
    t·1024 + j ≤ qi·1024 + r is the order of the two positions. -/
theorem tileScore_eq_score (ctx : SCtx.Idx → EReal) (Wk Wq : SW.Idx → EReal)
    (hctx : ∀ i, ctx i ≠ ⊤ ∧ ctx i ≠ ⊥) (hWk : ∀ i, Wk i ≠ ⊤ ∧ Wk i ≠ ⊥) (hWq : ∀ i, Wq i ≠ ⊤ ∧ Wq i ≠ ⊥)
    (b : Fin 4) (qi : Fin 4) (r : Fin 1024) (t : Fin 4) (j : Fin 1024) :
    tileScore ctx Wk Wq b qi r t j = score ctx Wk Wq b (keyPos qi r) (keyPos t j) := by
  unfold tileScore score
  rw [scaled_inner ctx Wk Wq hctx hWk hWq b (keyPos qi r) (keyPos t j)]
  rfl

/-! ## The hypotheses of the one-pass theorem -/

/-- A tile score is never the top element: it is the bottom element or a finite sum. -/
theorem tileScore_ne_top (ctx : SCtx.Idx → EReal) (Wk Wq : SW.Idx → EReal)
    (hctx : ∀ i, ctx i ≠ ⊤ ∧ ctx i ≠ ⊥) (hWk : ∀ i, Wk i ≠ ⊤ ∧ Wk i ≠ ⊥) (hWq : ∀ i, Wq i ≠ ⊤ ∧ Wq i ≠ ⊥)
    (b : Fin 4) (qi : Fin 4) (r : Fin 1024) (t : Fin 4) (j : Fin 1024) :
    tileScore ctx Wk Wq b qi r t j ≠ ⊤ := by
  unfold tileScore
  split_ifs
  · exact (Cert.Lib.ScaleContract.sum_finite _ _ fun d _ => Cert.Lib.ScaleContract.mul_finite
      (proj_finite ctx (scaledW Wq) hctx (scaledW_finite Wq hWq) b _ d) (proj_finite ctx Wk hctx hWk b _ d)).1
  · exact bot_ne_top

/-- The first column of the first tile is never masked, and its score is finite. -/
theorem tileScore_first (ctx : SCtx.Idx → EReal) (Wk Wq : SW.Idx → EReal)
    (hctx : ∀ i, ctx i ≠ ⊤ ∧ ctx i ≠ ⊥) (hWk : ∀ i, Wk i ≠ ⊤ ∧ Wk i ≠ ⊥) (hWq : ∀ i, Wq i ≠ ⊤ ∧ Wq i ≠ ⊥)
    (b : Fin 4) (qi : Fin 4) (r : Fin 1024) (h0 : 0 < 4) :
    ∃ j, tileScore ctx Wk Wq b qi r ⟨0, h0⟩ j ≠ ⊥ := by
  refine ⟨⟨0, by omega⟩, ?_⟩
  unfold tileScore
  rw [if_pos (by simp only []; omega)]
  exact (Cert.Lib.ScaleContract.sum_finite _ _ fun d _ => Cert.Lib.ScaleContract.mul_finite
    (proj_finite ctx (scaledW Wq) hctx (scaledW_finite Wq hWq) b _ d) (proj_finite ctx Wk hctx hWk b _ d)).2

/-- A tile after the query's own tile is wholly masked: its first column is already after the query position, as
    r < 1024. -/
theorem tileScore_masked (ctx : SCtx.Idx → EReal) (Wk Wq : SW.Idx → EReal)
    (b : Fin 4) (qi : Fin 4) (r : Fin 1024) (t : Fin 4) (ht : qi.val + 1 ≤ t.val) (j : Fin 1024) :
    tileScore ctx Wk Wq b qi r t j = ⊥ := by
  unfold tileScore
  rw [if_neg (by omega)]

/-- A value coordinate of finite data is finite. -/
theorem tileVal_finite (ctx : SCtx.Idx → EReal) (Wv : SW.Idx → EReal)
    (hctx : ∀ i, ctx i ≠ ⊤ ∧ ctx i ≠ ⊥) (hWv : ∀ i, Wv i ≠ ⊤ ∧ Wv i ≠ ⊥)
    (b : Fin 4) (h : Fin 128) (t : Fin 4) (j : Fin 1024) :
    tileVal ctx Wv b h t j ≠ ⊤ ∧ tileVal ctx Wv b h t j ≠ ⊥ :=
  proj_finite ctx Wv hctx hWv b _ h

/-! ## The row -/

/-- The quotient of the two running sums after the tiles 0 … qi of query row (qi, r) is the specification's result
    at query position qi·1024 + r: the one-pass evaluation gives the softmax-weighted sum over (tile, column) pairs
    of the kernel's scores, these are the specification's scores, and the pairs are the key positions. -/
theorem flash_row (ctx : SCtx.Idx → EReal) (Wk Wq Wv : SW.Idx → EReal)
    (hctx : ∀ i, ctx i ≠ ⊤ ∧ ctx i ≠ ⊥) (hWk : ∀ i, Wk i ≠ ⊤ ∧ Wk i ≠ ⊥) (hWq : ∀ i, Wq i ≠ ⊤ ∧ Wq i ≠ ⊥)
    (hWv : ∀ i, Wv i ≠ ⊤ ∧ Wv i ≠ ⊥)
    (b : Fin 4) (qi : Fin 4) (r : Fin 1024) (h : Fin 128) :
    Ideal.div (run (tileScore ctx Wk Wq b qi r) (tileVal ctx Wv b h) (qi.val + 1) (by omega)).2.2
              (run (tileScore ctx Wk Wq b qi r) (tileVal ctx Wv b h) (qi.val + 1) (by omega)).2.1
      = out ctx Wk Wq Wv b (keyPos qi r) h := by
  have hs : tileScore ctx Wk Wq b qi r = fun t j => score ctx Wk Wq b (keyPos qi r) (keyPos t j) :=
    funext fun t => funext fun j => tileScore_eq_score ctx Wk Wq hctx hWk hWq b qi r t j
  rw [online_eq_softmax (tileScore ctx Wk Wq b qi r) (tileVal ctx Wv b h) (qi.val + 1) (by omega) (by omega)
    (tileScore_ne_top ctx Wk Wq hctx hWk hWq b qi r) (tileVal_finite ctx Wv hctx hWv b h)
    (tileScore_first ctx Wk Wq hctx hWk hWq b qi r _)
    (fun t ht j => tileScore_masked ctx Wk Wq b qi r t ht j), hs]
  exact softmax_tiles (fun k => score ctx Wk Wq b (keyPos qi r) k) (fun k => proj ctx Wv b k h)

end Cert.FlashRow

end
-- ==== Proof.FlashTile.lean ====
/-
The flash-attention body's values, read index by index at the ideal float values.

One pass over a key tile takes a running row maximum `m`, a running denominator `l` and a running
numerator `acc` and returns the new ones.  For a query row `r` and a head coordinate `h` these are, at
the extended reals, one step of the one-pass softmax evaluation on the row's masked scores against
the tile: the score of key column `j` is the inner product of the query row with the key row where
the key's position is not after the query's, and `⊥` elsewhere; the new maximum is the old one or
the row's largest score; the old sums are rescaled by `exp (m - m')` and the tile's terms
`exp (score - m')`, resp. `exp (score - m') * value`, are added.
-/
import proofs.«130832_j91044716740856_2_alg».proof.Proof.Gen.KernelIdeal.Skeleton
import proofs.«130832_j91044716740856_2_alg».proof.Proof.LibOnlineSoftmax
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.FlashTile

open Cert.KernelIdeal Cert.KernelIdeal.Gen Idealize.ShloMosaic Idealize.ShloMosaic.ValueIdx Idealize.SL.Sem
open scoped BigOperators

/-! ## Layout operations on a column: `[a] → [a, 1]` and `[a, 1] → [a, b]` -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Constants -/

/-- The float word of `-∞` denotes `⊥`. -/
theorem ofBits_neg_inf : Ideal.ofBits .f32 0xFF800000#32 = ⊥ := by simp [Ideal.ofBits, Ideal.ieee]

/-- The named constant `neg_big` denotes `⊥`, by the certificate's table. -/
theorem neg_big : Named.named (F := Ideal) Cert.KernelIdeal.κ "neg_big" (φ := .f32) 0xFF333332#32 = (⊥ : EReal) :=
  IdealRules.named_const.ideal_named_scalar _ _ _ _ rfl

/-! ## The small payloads -/

/-- The initial running maximum is `⊥` everywhere. -/
theorem pay26_apply (i : S1024x1.Idx) : k1_pay26 (F := Ideal) i = (⊥ : EReal) := by
  unfold k1_pay26
  rw [shapeCast_self]
  exact ofBits_neg_inf

/-- The initial running denominator is `0` everywhere. -/
theorem pay27_apply (i : S1024x1.Idx) : k1_pay27 (F := Ideal) i = (0 : EReal) := by
  unfold k1_pay27
  rw [shapeCast_self]
  exact Ideal.ofBits_zero_f32

/-- The initial running numerator is `0` everywhere. -/
theorem pay28_apply (i : S1024x128.Idx) : k1_pay28 (F := Ideal) i = (0 : EReal) := by
  unfold k1_pay28
  rw [shapeCast_self]
  exact Ideal.ofBits_zero_f32

theorem pay26_eq : k1_pay26 (F := Ideal) = fun _ => (⊥ : EReal) := funext pay26_apply
theorem pay27_eq : k1_pay27 (F := Ideal) = fun _ => (0 : EReal) := funext pay27_apply
theorem pay28_eq : k1_pay28 (F := Ideal) = fun _ => (0 : EReal) := funext pay28_apply

/-- The query block `[1, 1024, 128]` viewed `[1024, 128]`: row `r`, coordinate `d` is the block's `(0, r, d)`. -/
theorem pay29_apply (x0 : Vec Ideal S1x1024x128 .bf16) (r : Fin 1024) (d : Fin 128) :
    k1_pay29 (F := Ideal) x0 (ix2 r d) = x0 (ix3 (0 : Fin 1) r d) := by
  unfold k1_pay29
  exact shapeCast_1ab_ab_apply x0 _ r d

/-- The stored running sums are the computed ones: a cast to the same shape is the identity. -/
theorem pay30_eq (x : FVec Ideal S1024x128 .f32) : k1_pay30 (F := Ideal) x = x := shapeCast_self _ _
theorem pay31_eq (x : FVec Ideal S1024x1 .f32) : k1_pay31 (F := Ideal) x = x := shapeCast_self _ _
theorem pay32_eq (x : FVec Ideal S1024x128 .f32) : k1_pay32 (F := Ideal) x = x := shapeCast_self _ _
theorem pay33_eq (x : FVec Ideal S1024x1 .f32) : k1_pay33 (F := Ideal) x = x := shapeCast_self _ _
theorem pay34_eq (x : FVec Ideal S1024x128 .f32) : k1_pay34 (F := Ideal) x = x := shapeCast_self _ _
theorem pay35_eq (x : FVec Ideal S1024x1 .f32) : k1_pay35 (F := Ideal) x = x := shapeCast_self _ _
theorem pay36_eq (x : FVec Ideal S1024x128 .f32) : k1_pay36 (F := Ideal) x = x := shapeCast_self _ _
theorem pay37_eq (x : FVec Ideal S1024x1 .f32) : k1_pay37 (F := Ideal) x = x := shapeCast_self _ _

/-- The result block: the numerator over the row's denominator. -/
theorem pay1_apply (acc : Vec Ideal S1024x128 .f32) (l : Vec Ideal S1024x1 .f32) (r : Fin 1024) (h : Fin 128) :
    k1_pay1 (F := Ideal) acc l (ix3 (0 : Fin 1) r h) = Ideal.div (acc (ix2 r h)) (l (ix2 r (0 : Fin 1))) := by
  unfold k1_pay1
  refine (shapeCast_ab_1ab_apply _ _ (0 : Fin 1) r h).trans ?_
  show Ideal.div (acc (ix2 r h)) (broadcastTo S1024x128 l _ (ix2 r h)) = _
  rw [broadcastTo_a1_ab_apply]

/-! ## The causal mask's comparison -/

/-- For naturals below `2 ^ 31` the signed comparison of their 32-bit words is the comparison of the naturals. -/
theorem sle_ofNat (a b : ℕ) (ha : a < 2 ^ 31) (hb : b < 2 ^ 31) :
    (BitVec.ofNat 32 a).sle (BitVec.ofNat 32 b) = decide (a ≤ b) := by
  have h1 : (BitVec.ofNat 32 a).toInt = (a : Int) := by
    rw [BitVec.toInt_eq_toNat_of_lt (by rw [BitVec.toNat_ofNat]; omega), BitVec.toNat_ofNat,
      Nat.mod_eq_of_lt (by omega)]
  have h2 : (BitVec.ofNat 32 b).toInt = (b : Int) := by
    rw [BitVec.toInt_eq_toNat_of_lt (by rw [BitVec.toNat_ofNat]; omega), BitVec.toNat_ofNat,
      Nat.mod_eq_of_lt (by omega)]
  rw [BitVec.sle_eq_decide, h1, h2]
  simp

/-- So the `sle` comparison of two such words is the bit of `a ≤ b`. -/
theorem cmpi_sle_ofNat (a b : ℕ) (ha : a < 2 ^ 31) (hb : b < 2 ^ 31) :
    IntOp.cmpi .sle (BitVec.ofNat 32 a) (BitVec.ofNat 32 b) = if a ≤ b then 1#1 else 0#1 := by
  show BitVec.ofBool ((BitVec.ofNat 32 a).sle (BitVec.ofNat 32 b)) = _
  rw [sle_ofNat a b ha hb]
  by_cases h : a ≤ b
  · rw [if_pos h, decide_eq_true h]; rfl
  · rw [if_neg h, decide_eq_false h]; rfl

/-- The mask of the tile whose first key position is `c`, for the query block `qi`: at row `r` and column `j`
    it is set exactly when the key position `c + j` is not after the query position `qi * 1024 + r`. -/
theorem mask_apply (c : ℕ) (hc : c ≤ 3072) (qi : Fin 4) (r j : Fin 1024)
    (h0 : S1024x1024.Iotas .tc 32 [0]) (h1 : S1024x1024.Iotas .tc 32 [1]) :
    cmpi .sle (addi (broadcast S1024x1024 (BitVec.ofNat 32 c)) (iota .tc S1024x1024 32 [1] h1))
        (addi (broadcast S1024x1024 (Scalar.muli (BitVec.ofNat 32 qi.val) 1024#32)) (iota .tc S1024x1024 32 [0] h0))
        (ix2 r j)
      = if c + j.val ≤ qi.val * 1024 + r.val then 1#1 else 0#1 := by
  show IntOp.cmpi .sle (BitVec.ofNat 32 c + iota .tc S1024x1024 32 [1] h1 (ix2 r j))
      (BitVec.ofNat 32 qi.val * BitVec.ofNat 32 1024 + iota .tc S1024x1024 32 [0] h0 (ix2 r j)) = _
  rw [iota_single_apply, iota_single_apply]
  show IntOp.cmpi .sle (BitVec.ofNat 32 c + BitVec.ofNat 32 j.val)
      (BitVec.ofNat 32 qi.val * BitVec.ofNat 32 1024 + BitVec.ofNat 32 r.val) = _
  rw [← BitVec.ofNat_mul, ← BitVec.ofNat_add, ← BitVec.ofNat_add]
  exact cmpi_sle_ofNat _ _ (by have := j.isLt; omega) (by have := qi.isLt; have := r.isLt; omega)

/-! ## The two products at an index -/

theorem qk_lhs0 (i : S1024x1024.Idx) (k : dot_S1024x128_S1024x128_S1024x1024_1_1_0_0_n_n.contr.Idx) :
    (dot_S1024x128_S1024x128_S1024x1024_1_1_0_0_n_n.lhsIdx i k 0).val = (i 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl
theorem qk_rhs0 (i : S1024x1024.Idx) (k : dot_S1024x128_S1024x128_S1024x1024_1_1_0_0_n_n.contr.Idx) :
    (dot_S1024x128_S1024x128_S1024x1024_1_1_0_0_n_n.rhsIdx i k 0).val = (i 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl
theorem pv_lhs0 (i : S1024x128.Idx) (k : dot_S1024x1024_S1024x128_S1024x128_1_0_0_1_n_n.contr.Idx) :
    (dot_S1024x1024_S1024x128_S1024x128_1_0_0_1_n_n.lhsIdx i k 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
theorem pv_rhs1 (i : S1024x128.Idx) (k : dot_S1024x1024_S1024x128_S1024x128_1_0_0_1_n_n.contr.Idx) :
    (dot_S1024x1024_S1024x128_S1024x128_1_0_0_1_n_n.rhsIdx i k 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- Query rows against key rows: at `(r, j)` the inner product of query row `r` with key row `j`. -/
theorem qk_apply (q k : FVec Ideal S1024x128 .bf16) (r j : Fin 1024) :
    matmul dot_S1024x128_S1024x128_S1024x1024_1_1_0_0_n_n none q k (constant (F := Ideal) S1024x1024 .f32 0x00000000#32) (ix2 r j)
      = ∑ d : Fin 128, q (ix2 r d) * k (ix2 j d) := by
  refine (Ideal.matmul_constant_zero_apply dot_S1024x128_S1024x128_S1024x1024_1_1_0_0_n_n none q k (ix2 r j)).trans ?_
  rw [← Equiv.sum_comp (contrEquiv1 dot_S1024x128_S1024x128_S1024x1024_1_1_0_0_n_n 128 rfl rfl).symm]
  refine Finset.sum_congr rfl fun d _ => ?_
  have hd := contrEquiv1_symm_val dot_S1024x128_S1024x128_S1024x1024_1_1_0_0_n_n 128 rfl rfl d
  have el : dot_S1024x128_S1024x128_S1024x1024_1_1_0_0_n_n.lhsIdx (ix2 r j)
      ((contrEquiv1 dot_S1024x128_S1024x128_S1024x1024_1_1_0_0_n_n 128 rfl rfl).symm d) = ix2 r d :=
    funext fun a => Fin.ext (by
      match a with
      | ⟨0, _⟩ => exact qk_lhs0 _ _
      | ⟨1, _⟩ => exact (dot_S1024x128_S1024x128_S1024x1024_1_1_0_0_n_n.lhsIdx_val_of_single rfl _ _).trans hd)
  have er : dot_S1024x128_S1024x128_S1024x1024_1_1_0_0_n_n.rhsIdx (ix2 r j)
      ((contrEquiv1 dot_S1024x128_S1024x128_S1024x1024_1_1_0_0_n_n 128 rfl rfl).symm d) = ix2 j d :=
    funext fun a => Fin.ext (by
      match a with
      | ⟨0, _⟩ => exact qk_rhs0 _ _
      | ⟨1, _⟩ => exact (dot_S1024x128_S1024x128_S1024x1024_1_1_0_0_n_n.rhsIdx_val_of_single rfl _ _).trans hd)
  rw [el, er]

/-- Weights against value rows: at `(r, h)` the sum over key rows `j` of the weight `(r, j)` times value `(j, h)`. -/
theorem pv_apply (p : FVec Ideal S1024x1024 .bf16) (v : FVec Ideal S1024x128 .bf16) (r : Fin 1024) (h : Fin 128) :
    matmul dot_S1024x1024_S1024x128_S1024x128_1_0_0_1_n_n none p v (constant (F := Ideal) S1024x128 .f32 0x00000000#32) (ix2 r h)
      = ∑ j : Fin 1024, p (ix2 r j) * v (ix2 j h) := by
  refine (Ideal.matmul_constant_zero_apply dot_S1024x1024_S1024x128_S1024x128_1_0_0_1_n_n none p v (ix2 r h)).trans ?_
  rw [← Equiv.sum_comp (contrEquiv1 dot_S1024x1024_S1024x128_S1024x128_1_0_0_1_n_n 1024 rfl rfl).symm]
  refine Finset.sum_congr rfl fun j _ => ?_
  have hj := contrEquiv1_symm_val dot_S1024x1024_S1024x128_S1024x128_1_0_0_1_n_n 1024 rfl rfl j
  have el : dot_S1024x1024_S1024x128_S1024x128_1_0_0_1_n_n.lhsIdx (ix2 r h)
      ((contrEquiv1 dot_S1024x1024_S1024x128_S1024x128_1_0_0_1_n_n 1024 rfl rfl).symm j) = ix2 r j :=
    funext fun a => Fin.ext (by
      match a with
      | ⟨0, _⟩ => exact pv_lhs0 _ _
      | ⟨1, _⟩ => exact (dot_S1024x1024_S1024x128_S1024x128_1_0_0_1_n_n.lhsIdx_val_of_single rfl _ _).trans hj)
  have er : dot_S1024x1024_S1024x128_S1024x128_1_0_0_1_n_n.rhsIdx (ix2 r h)
      ((contrEquiv1 dot_S1024x1024_S1024x128_S1024x128_1_0_0_1_n_n 1024 rfl rfl).symm j) = ix2 j h :=
    funext fun a => Fin.ext (by
      match a with
      | ⟨0, _⟩ => exact (dot_S1024x1024_S1024x128_S1024x128_1_0_0_1_n_n.rhsIdx_val_of_single rfl _ _).trans hj
      | ⟨1, _⟩ => exact pv_rhs1 _ _)
  rw [el, er]

/-! ## One tile's pass as functions of the tile's score array -/

/-- The masked score array of the tile whose first key position is the word `c`, for the query block of word
    `arg1`: query rows against the tile's key rows where the key position is not after the query position, the
    named constant (`⊥`) elsewhere. -/
def scoreArr (c arg1 : BitVec 32) (q : FVec Ideal S1024x128 .bf16) (kt : Vec Ideal S1x1024x128 .bf16) :
    FVec Ideal S1024x1024 .f32 :=
  select
    (cmpi .sle (addi (broadcast S1024x1024 c) (iota .tc S1024x1024 32 [1] iota_S1024x1024_d1_w32))
      (addi (broadcast S1024x1024 (Scalar.muli arg1 1024#32)) (iota .tc S1024x1024 32 [0] iota_S1024x1024_d0_w32)))
    (matmul dot_S1024x128_S1024x128_S1024x1024_1_1_0_0_n_n none q (shapeCast S1024x128 kt shapeCasts_S1x1024x128_S1024x128 : FVec Ideal S1024x128 .bf16)
      (constant (F := Ideal) S1024x1024 .f32 0x00000000#32))
    (broadcast S1024x1024 (Named.named (F := Ideal) κ "neg_big" (φ := .f32) 0xFF333332#32))

/-- The new running maximum: the old one or the row's largest score. -/
def newMax (S : FVec Ideal S1024x1024 .f32) (m : Vec Ideal S1024x1 .f32) : FVec Ideal S1024x1 .f32 :=
  maximumf m (shapeCast S1024x1
    (multiReduction (F := Ideal) .maximumf [1] S1024 S 0xFF800000#32 reduces_S1024x1024_S1024 (.inl rfl) rfl)
    shapeCasts_S1024_S1024x1)

/-- The factor that rescales the old sums: `exp (m - m')`. -/
def rescale (S : FVec Ideal S1024x1024 .f32) (m : Vec Ideal S1024x1 .f32) : FVec Ideal S1024x1 .f32 :=
  exp (subf m (newMax S m))

/-- The tile's weights: `exp (score - m')`. -/
def weights (S : FVec Ideal S1024x1024 .f32) (m : Vec Ideal S1024x1 .f32) : FVec Ideal S1024x1024 .f32 :=
  exp (subf S (broadcastTo S1024x1024 (newMax S m) broadcasts_S1024x1_S1024x1024))

/-- The new running denominator: the old one rescaled plus the row sums of the weights. -/
def newDen (S : FVec Ideal S1024x1024 .f32) (m l : Vec Ideal S1024x1 .f32) : FVec Ideal S1024x1 .f32 :=
  shapeCast S1024x1
    (addf (mulf (rescale S m) l)
      (shapeCast S1024x1
        (multiReduction (F := Ideal) .add [1] S1024 (weights S m) 0x00000000#32 reduces_S1024x1024_S1024 (.inl rfl) rfl)
        shapeCasts_S1024_S1024x1))
    shapeCasts_S1024x1_S1024x1

/-- The new running numerator: the old one rescaled plus the weights against the tile's value rows. -/
def newNum (S : FVec Ideal S1024x1024 .f32) (vt : Vec Ideal S1x1024x128 .bf16) (m : Vec Ideal S1024x1 .f32)
    (acc : Vec Ideal S1024x128 .f32) : FVec Ideal S1024x128 .f32 :=
  addf (mulf (broadcastTo S1024x128 (rescale S m) broadcasts_S1024x1_S1024x128) acc)
    (matmul dot_S1024x1024_S1024x128_S1024x128_1_0_0_1_n_n none (truncf .bf16 (weights S m) bitsLt_bf16_f32)
      (shapeCast S1024x128 vt shapeCasts_S1x1024x128_S1024x128 : FVec Ideal S1024x128 .bf16)
      (constant (F := Ideal) S1024x128 .f32 0x00000000#32))

/-! ### Each at an index -/

/-- The vector exponential at an index. -/
theorem exp_apply {s : Shape} {φ : FTy} (a : FVec Ideal s φ) (i : s.Idx) : exp a i = Ideal.exp (a i) := rfl

/-- The source index of a row reduction: row `r` with the dropped coordinate `k` put back is `(r, k)`. -/
theorem lift_row (h : S1024x1024.Reduces [1] S1024) (r k : Fin 1024) : h.lift (ix1 r) k = ix2 r k := by
  funext c
  apply Fin.ext
  match c with
  | ⟨0, _⟩ => rfl
  | ⟨1, _⟩ => rfl

theorem newMax_apply (S : FVec Ideal S1024x1024 .f32) (m : Vec Ideal S1024x1 .f32) (r : Fin 1024) :
    newMax S m (ix2 r (0 : Fin 1))
      = max (m (ix2 r (0 : Fin 1))) (Finset.univ.sup fun j : Fin 1024 => S (ix2 r j)) := by
  unfold newMax
  rw [maximumf_apply, shapeCast_a_a1_apply]
  refine congrArg (max (m (ix2 r (0 : Fin 1)))) ?_
  refine (Ideal.multiReduction_maximumf_single S 0xFF800000#32 reduces_S1024x1024_S1024 (.inl rfl) rfl (ix1 r)).trans ?_
  rw [Ideal.ofBits_def, ofBits_neg_inf]
  refine (Cert.Lib.OnlineSoftmax.fold_max_eq_sup _ _).trans ?_
  exact congrArg (fun f : Fin 1024 → EReal => Finset.univ.sup f) (funext fun k => congrArg S (lift_row _ r k))

theorem rescale_apply (S : FVec Ideal S1024x1024 .f32) (m : Vec Ideal S1024x1 .f32) (i : S1024x1.Idx) :
    rescale S m i = Ideal.exp (m i - newMax S m i) := by
  unfold rescale
  rw [exp_apply, subf_apply]

theorem weights_apply (S : FVec Ideal S1024x1024 .f32) (m : Vec Ideal S1024x1 .f32) (r j : Fin 1024) :
    weights S m (ix2 r j) = Ideal.exp (S (ix2 r j) - newMax S m (ix2 r (0 : Fin 1))) := by
  unfold weights
  rw [exp_apply, subf_apply, broadcastTo_a1_ab_apply]

theorem newDen_apply (S : FVec Ideal S1024x1024 .f32) (m l : Vec Ideal S1024x1 .f32) (r : Fin 1024) :
    newDen S m l (ix2 r (0 : Fin 1))
      = rescale S m (ix2 r (0 : Fin 1)) * l (ix2 r (0 : Fin 1)) + ∑ j : Fin 1024, weights S m (ix2 r j) := by
  unfold newDen
  rw [shapeCast_self, addf_apply, mulf_apply, shapeCast_a_a1_apply]
  refine congrArg (rescale S m (ix2 r (0 : Fin 1)) * l (ix2 r (0 : Fin 1)) + ·) ?_
  refine (Ideal.multiReduction_add_single (weights S m) 0x00000000#32 reduces_S1024x1024_S1024 (.inl rfl) rfl (ix1 r)).trans ?_
  exact Finset.sum_congr rfl fun k _ => congrArg (weights S m) (lift_row _ r k)

theorem newNum_apply (S : FVec Ideal S1024x1024 .f32) (vt : Vec Ideal S1x1024x128 .bf16) (m : Vec Ideal S1024x1 .f32)
    (acc : Vec Ideal S1024x128 .f32) (r : Fin 1024) (h : Fin 128) :
    newNum S vt m acc (ix2 r h)
      = rescale S m (ix2 r (0 : Fin 1)) * acc (ix2 r h)
        + ∑ j : Fin 1024, weights S m (ix2 r j) * vt (ix3 (0 : Fin 1) j h) := by
  unfold newNum
  rw [addf_apply, mulf_apply, broadcastTo_a1_ab_apply]
  refine congrArg (rescale S m (ix2 r (0 : Fin 1)) * acc (ix2 r h) + ·) ?_
  refine (pv_apply _ _ r h).trans ?_
  refine Finset.sum_congr rfl fun j _ => ?_
  rw [truncf_apply, shapeCast_1ab_ab_apply]

/-- The masked score of query row `r` of query block `qi` against key column `j` of key tile `ki`. -/
def tileScore (ki : ℕ) (qi : Fin 4) (q : FVec Ideal S1024x128 .bf16) (kt : Vec Ideal S1x1024x128 .bf16)
    (r : Fin 1024) : Fin 1024 → EReal :=
  fun j => if ki * 1024 + j.val ≤ qi.val * 1024 + r.val
    then ∑ d : Fin 128, (q (ix2 r d) : EReal) * (kt (ix3 (0 : Fin 1) j d) : EReal) else ⊥

theorem scoreArr_apply (ki : ℕ) (hki : ki ≤ 3) (qi : Fin 4) (q : FVec Ideal S1024x128 .bf16)
    (kt : Vec Ideal S1x1024x128 .bf16) (r j : Fin 1024) :
    scoreArr (BitVec.ofNat 32 (ki * 1024)) (BitVec.ofNat 32 qi.val) q kt (ix2 r j) = tileScore ki qi q kt r j := by
  unfold scoreArr tileScore
  rw [select_apply, mask_apply (ki * 1024) (by omega) qi r j, broadcast_apply, neg_big, qk_apply]
  by_cases hle : ki * 1024 + j.val ≤ qi.val * 1024 + r.val
  · rw [if_pos hle, if_pos hle, select_one]
    exact Finset.sum_congr rfl fun d _ => by rw [shapeCast_1ab_ab_apply]
  · rw [if_neg hle, if_neg hle, select_zero]

/-- One tile's pass at row `r` and head coordinate `h` is one step of the one-pass softmax evaluation on the
    row's masked scores against the tile and the tile's value column `h`. -/
theorem step_of_scoreArr (ki : ℕ) (hki : ki ≤ 3) (qi : Fin 4) (q : FVec Ideal S1024x128 .bf16)
    (kt vt : Vec Ideal S1x1024x128 .bf16) (m l : Vec Ideal S1024x1 .f32) (acc : Vec Ideal S1024x128 .f32)
    (r : Fin 1024) (h : Fin 128) :
    (newMax (scoreArr (BitVec.ofNat 32 (ki * 1024)) (BitVec.ofNat 32 qi.val) q kt) m (ix2 r (0 : Fin 1)),
      newDen (scoreArr (BitVec.ofNat 32 (ki * 1024)) (BitVec.ofNat 32 qi.val) q kt) m l (ix2 r (0 : Fin 1)),
      newNum (scoreArr (BitVec.ofNat 32 (ki * 1024)) (BitVec.ofNat 32 qi.val) q kt) vt m acc (ix2 r h))
      = Cert.Lib.OnlineSoftmax.step (tileScore ki qi q kt r) (fun j => (vt (ix3 (0 : Fin 1) j h) : EReal))
          ((m (ix2 r (0 : Fin 1)) : EReal), (l (ix2 r (0 : Fin 1)) : EReal), (acc (ix2 r h) : EReal)) := by
  generalize hS : scoreArr (BitVec.ofNat 32 (ki * 1024)) (BitVec.ofNat 32 qi.val) q kt = S
  have hrow : ∀ j : Fin 1024, S (ix2 r j) = tileScore ki qi q kt r j :=
    fun j => by rw [← hS]; exact scoreArr_apply ki hki qi q kt r j
  have hmax : newMax S m (ix2 r (0 : Fin 1))
      = max (m (ix2 r (0 : Fin 1))) (Finset.univ.sup (tileScore ki qi q kt r)) := by
    rw [newMax_apply]
    exact congrArg (fun f : Fin 1024 → EReal => max (m (ix2 r (0 : Fin 1))) (Finset.univ.sup f)) (funext hrow)
  have hw : ∀ j, weights S m (ix2 r j)
      = Ideal.exp (tileScore ki qi q kt r j - max (m (ix2 r (0 : Fin 1))) (Finset.univ.sup (tileScore ki qi q kt r))) :=
    fun j => by rw [weights_apply, hmax, hrow j]
  rw [newDen_apply, newNum_apply, rescale_apply, hmax, Finset.sum_congr rfl fun j _ => hw j,
    Finset.sum_congr rfl fun j _ => congrArg (· * (vt (ix3 (0 : Fin 1) j h) : EReal)) (hw j)]
  simp only [Cert.Lib.OnlineSoftmax.step]

/-! ## The four key tiles -/

/-! ### Key tile 0 -/

theorem pay2_eq (arg1 : BitVec 32) (q : FVec Ideal S1024x128 .bf16) (kt : Vec Ideal S1x1024x128 .bf16) :
    k1_pay2 (F := Ideal) arg1 q kt = scoreArr (BitVec.ofNat 32 (0 * 1024)) arg1 q kt := rfl
theorem pay3_eq (arg1 : BitVec 32) (q : FVec Ideal S1024x128 .bf16) (kt : Vec Ideal S1x1024x128 .bf16)
    (m : Vec Ideal S1024x1 .f32) :
    k1_pay3 (F := Ideal) arg1 q kt m = newMax (k1_pay2 (F := Ideal) arg1 q kt) m := rfl
theorem pay6_eq (arg1 : BitVec 32) (q : FVec Ideal S1024x128 .bf16) (kt : Vec Ideal S1x1024x128 .bf16)
    (m l : Vec Ideal S1024x1 .f32) :
    k1_pay6 (F := Ideal) arg1 q kt m l = newDen (k1_pay2 (F := Ideal) arg1 q kt) m l := rfl
theorem pay7_eq (arg1 : BitVec 32) (q : FVec Ideal S1024x128 .bf16) (kt vt : Vec Ideal S1x1024x128 .bf16)
    (m : Vec Ideal S1024x1 .f32) (acc : Vec Ideal S1024x128 .f32) :
    k1_pay7 (F := Ideal) arg1 q kt vt m acc = newNum (k1_pay2 (F := Ideal) arg1 q kt) vt m acc := rfl

/-- Key tile 0: the body's new maximum, denominator and numerator at row `r` and head coordinate `h` are one
    step of the one-pass softmax evaluation on the row's masked scores against the tile. -/
theorem tile0_step (qi : Fin 4) (q : FVec Ideal S1024x128 .bf16) (kt vt : Vec Ideal S1x1024x128 .bf16)
    (m l : Vec Ideal S1024x1 .f32) (acc : Vec Ideal S1024x128 .f32) (r : Fin 1024) (h : Fin 128) :
    (k1_pay3 (F := Ideal) (BitVec.ofNat 32 qi.val) q kt m (ix2 r (0 : Fin 1)),
      k1_pay6 (F := Ideal) (BitVec.ofNat 32 qi.val) q kt m l (ix2 r (0 : Fin 1)),
      k1_pay7 (F := Ideal) (BitVec.ofNat 32 qi.val) q kt vt m acc (ix2 r h))
      = Cert.Lib.OnlineSoftmax.step (tileScore 0 qi q kt r) (fun j => vt (ix3 (0 : Fin 1) j h))
          (m (ix2 r (0 : Fin 1)), l (ix2 r (0 : Fin 1)), acc (ix2 r h)) := by
  rw [pay3_eq, pay6_eq, pay7_eq, pay2_eq]
  exact step_of_scoreArr 0 (by omega) qi q kt vt m l acc r h

/-! ### Key tile 1 -/

theorem pay8_eq (arg1 : BitVec 32) (q : FVec Ideal S1024x128 .bf16) (kt : Vec Ideal S1x1024x128 .bf16) :
    k1_pay8 (F := Ideal) arg1 q kt = scoreArr (BitVec.ofNat 32 (1 * 1024)) arg1 q kt := rfl
theorem pay9_eq (arg1 : BitVec 32) (q : FVec Ideal S1024x128 .bf16) (kt : Vec Ideal S1x1024x128 .bf16)
    (m : Vec Ideal S1024x1 .f32) :
    k1_pay9 (F := Ideal) arg1 q kt m = newMax (k1_pay8 (F := Ideal) arg1 q kt) m := rfl
theorem pay12_eq (arg1 : BitVec 32) (q : FVec Ideal S1024x128 .bf16) (kt : Vec Ideal S1x1024x128 .bf16)
    (m l : Vec Ideal S1024x1 .f32) :
    k1_pay12 (F := Ideal) arg1 q kt m l = newDen (k1_pay8 (F := Ideal) arg1 q kt) m l := rfl
theorem pay13_eq (arg1 : BitVec 32) (q : FVec Ideal S1024x128 .bf16) (kt vt : Vec Ideal S1x1024x128 .bf16)
    (m : Vec Ideal S1024x1 .f32) (acc : Vec Ideal S1024x128 .f32) :
    k1_pay13 (F := Ideal) arg1 q kt vt m acc = newNum (k1_pay8 (F := Ideal) arg1 q kt) vt m acc := rfl

/-- Key tile 1: the body's new maximum, denominator and numerator at row `r` and head coordinate `h` are one
    step of the one-pass softmax evaluation on the row's masked scores against the tile. -/
theorem tile1_step (qi : Fin 4) (q : FVec Ideal S1024x128 .bf16) (kt vt : Vec Ideal S1x1024x128 .bf16)
    (m l : Vec Ideal S1024x1 .f32) (acc : Vec Ideal S1024x128 .f32) (r : Fin 1024) (h : Fin 128) :
    (k1_pay9 (F := Ideal) (BitVec.ofNat 32 qi.val) q kt m (ix2 r (0 : Fin 1)),
      k1_pay12 (F := Ideal) (BitVec.ofNat 32 qi.val) q kt m l (ix2 r (0 : Fin 1)),
      k1_pay13 (F := Ideal) (BitVec.ofNat 32 qi.val) q kt vt m acc (ix2 r h))
      = Cert.Lib.OnlineSoftmax.step (tileScore 1 qi q kt r) (fun j => vt (ix3 (0 : Fin 1) j h))
          (m (ix2 r (0 : Fin 1)), l (ix2 r (0 : Fin 1)), acc (ix2 r h)) := by
  rw [pay9_eq, pay12_eq, pay13_eq, pay8_eq]
  exact step_of_scoreArr 1 (by omega) qi q kt vt m l acc r h

/-! ### Key tile 2 -/

theorem pay14_eq (arg1 : BitVec 32) (q : FVec Ideal S1024x128 .bf16) (kt : Vec Ideal S1x1024x128 .bf16) :
    k1_pay14 (F := Ideal) arg1 q kt = scoreArr (BitVec.ofNat 32 (2 * 1024)) arg1 q kt := rfl
theorem pay15_eq (arg1 : BitVec 32) (q : FVec Ideal S1024x128 .bf16) (kt : Vec Ideal S1x1024x128 .bf16)
    (m : Vec Ideal S1024x1 .f32) :
    k1_pay15 (F := Ideal) arg1 q kt m = newMax (k1_pay14 (F := Ideal) arg1 q kt) m := rfl
theorem pay18_eq (arg1 : BitVec 32) (q : FVec Ideal S1024x128 .bf16) (kt : Vec Ideal S1x1024x128 .bf16)
    (m l : Vec Ideal S1024x1 .f32) :
    k1_pay18 (F := Ideal) arg1 q kt m l = newDen (k1_pay14 (F := Ideal) arg1 q kt) m l := rfl
theorem pay19_eq (arg1 : BitVec 32) (q : FVec Ideal S1024x128 .bf16) (kt vt : Vec Ideal S1x1024x128 .bf16)
    (m : Vec Ideal S1024x1 .f32) (acc : Vec Ideal S1024x128 .f32) :
    k1_pay19 (F := Ideal) arg1 q kt vt m acc = newNum (k1_pay14 (F := Ideal) arg1 q kt) vt m acc := rfl

/-- Key tile 2: the body's new maximum, denominator and numerator at row `r` and head coordinate `h` are one
    step of the one-pass softmax evaluation on the row's masked scores against the tile. -/
theorem tile2_step (qi : Fin 4) (q : FVec Ideal S1024x128 .bf16) (kt vt : Vec Ideal S1x1024x128 .bf16)
    (m l : Vec Ideal S1024x1 .f32) (acc : Vec Ideal S1024x128 .f32) (r : Fin 1024) (h : Fin 128) :
    (k1_pay15 (F := Ideal) (BitVec.ofNat 32 qi.val) q kt m (ix2 r (0 : Fin 1)),
      k1_pay18 (F := Ideal) (BitVec.ofNat 32 qi.val) q kt m l (ix2 r (0 : Fin 1)),
      k1_pay19 (F := Ideal) (BitVec.ofNat 32 qi.val) q kt vt m acc (ix2 r h))
      = Cert.Lib.OnlineSoftmax.step (tileScore 2 qi q kt r) (fun j => vt (ix3 (0 : Fin 1) j h))
          (m (ix2 r (0 : Fin 1)), l (ix2 r (0 : Fin 1)), acc (ix2 r h)) := by
  rw [pay15_eq, pay18_eq, pay19_eq, pay14_eq]
  exact step_of_scoreArr 2 (by omega) qi q kt vt m l acc r h

/-! ### Key tile 3 -/

theorem pay20_eq (arg1 : BitVec 32) (q : FVec Ideal S1024x128 .bf16) (kt : Vec Ideal S1x1024x128 .bf16) :
    k1_pay20 (F := Ideal) arg1 q kt = scoreArr (BitVec.ofNat 32 (3 * 1024)) arg1 q kt := rfl
theorem pay21_eq (arg1 : BitVec 32) (q : FVec Ideal S1024x128 .bf16) (kt : Vec Ideal S1x1024x128 .bf16)
    (m : Vec Ideal S1024x1 .f32) :
    k1_pay21 (F := Ideal) arg1 q kt m = newMax (k1_pay20 (F := Ideal) arg1 q kt) m := rfl
theorem pay24_eq (arg1 : BitVec 32) (q : FVec Ideal S1024x128 .bf16) (kt : Vec Ideal S1x1024x128 .bf16)
    (m l : Vec Ideal S1024x1 .f32) :
    k1_pay24 (F := Ideal) arg1 q kt m l = newDen (k1_pay20 (F := Ideal) arg1 q kt) m l := rfl
theorem pay25_eq (arg1 : BitVec 32) (q : FVec Ideal S1024x128 .bf16) (kt vt : Vec Ideal S1x1024x128 .bf16)
    (m : Vec Ideal S1024x1 .f32) (acc : Vec Ideal S1024x128 .f32) :
    k1_pay25 (F := Ideal) arg1 q kt vt m acc = newNum (k1_pay20 (F := Ideal) arg1 q kt) vt m acc := rfl

/-- Key tile 3: the body's new maximum, denominator and numerator at row `r` and head coordinate `h` are one
    step of the one-pass softmax evaluation on the row's masked scores against the tile. -/
theorem tile3_step (qi : Fin 4) (q : FVec Ideal S1024x128 .bf16) (kt vt : Vec Ideal S1x1024x128 .bf16)
    (m l : Vec Ideal S1024x1 .f32) (acc : Vec Ideal S1024x128 .f32) (r : Fin 1024) (h : Fin 128) :
    (k1_pay21 (F := Ideal) (BitVec.ofNat 32 qi.val) q kt m (ix2 r (0 : Fin 1)),
      k1_pay24 (F := Ideal) (BitVec.ofNat 32 qi.val) q kt m l (ix2 r (0 : Fin 1)),
      k1_pay25 (F := Ideal) (BitVec.ofNat 32 qi.val) q kt vt m acc (ix2 r h))
      = Cert.Lib.OnlineSoftmax.step (tileScore 3 qi q kt r) (fun j => vt (ix3 (0 : Fin 1) j h))
          (m (ix2 r (0 : Fin 1)), l (ix2 r (0 : Fin 1)), acc (ix2 r h)) := by
  rw [pay21_eq, pay24_eq, pay25_eq, pay20_eq]
  exact step_of_scoreArr 3 (by omega) qi q kt vt m l acc r h

end Cert.KernelIdeal.FlashTile

end
-- ==== Proof.FlashArr.lean ====
import proofs.«130832_j91044716740856_2_alg».proof.Proof.FlashRegion
import proofs.«130832_j91044716740856_2_alg».proof.Proof.FlashValue
import Idealize.ShloMosaic.Lib.Pipeline.Value
import Idealize.ShloMosaic.Lib.ValueIdx
import Idealize.ShloMosaic.Lib.Tactic

/-! # The attention region: from the windows' blocks to the arrays

The attention region runs on a grid of 4 × 4 points; point t stands for batch row t div 4 and query tile t mod 4. Its
query and output windows cut their arrays (4 batch rows × 4096 positions × 128 head coordinates) into blocks of one
batch row × 1024 positions × 128 coordinates, block (t div 4, t mod 4, 0) at point t; its key and value windows take
one whole batch row, block (t div 4, 0, 0). An element of a block sits in the array at block index × block size + its
coordinate inside the block, axis by axis. This file reads each input block as the array at those coordinates, reads a
key tile (1024 consecutive rows) out of a batch row, and shows that when every point's output block is one array
function read at the point's rows, the output array ends holding that function: every point writes its block back, and
the index (b, Q, h) lies in the block of point b·4 + Q div 1024. Everything is for any float instance. -/

set_option maxRecDepth 16384

noncomputable section

namespace Cert.KernelIdeal.Hand

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

variable {F : FTy → Type} [FloatOps F] [Named F]

/-- A grid point of the attention region is below 16. -/
theorem pt_lt16 (t : Fin cfg1.N) : t.val < 16 := lt_of_lt_of_eq t.isLt N_1

/-- The printed index maps, decided over the grid: the query and output windows' block index is (t div 4, t mod 4, 0),
    the key and value windows' is (t div 4, 0, 0). -/
theorem idx_facts1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

section Region1

variable (V : (c : Dev nD) → (b : Ref sig .tc) → Buf (Elt F) ((c : Thread nD τ).loc b))

/-! ## Block reads -/

/-- The query window's block at point t is rows (t mod 4)·1024 … of batch row t div 4 of the query array. -/
theorem iblk1_0_at (c : Dev nD) (t : Fin cfg1.N) (x : S1x1024x128.Idx) (k : S4x4096x128.Idx)
    (hk0 : (k 0).val = t.val / 4) (hk1 : (k 1).val = (t.val % 4) * 1024 + (x 1).val) (hk2 : (k 2).val = (x 2).val) :
    (iblk1 V c 0 t : Vec F S1x1024x128 .bf16) x = (V c main_v2_0 : S4x4096x128.Idx → Elt F .bf16) k := by
  obtain ⟨e0, e1, e2, -⟩ := idx_facts1 t
  unfold iblk1
  rw [View.read_apply]
  show V c main_v2_0 _ = V c main_v2_0 k
  congr 1
  funext a
  apply Fin.ext
  match a with
  | ⟨0, _⟩ => show win1_0.index t (0 : Fin 3) * 1 + 1 * (x 0).val = (k 0).val; have hx : (x 0).val < 1 := (x 0).isLt; rw [e0, hk0]; omega
  | ⟨1, _⟩ => show win1_0.index t (1 : Fin 3) * 1024 + 1 * (x 1).val = (k 1).val; rw [e1, hk1]; omega
  | ⟨2, _⟩ => show win1_0.index t (2 : Fin 3) * 128 + 1 * (x 2).val = (k 2).val; rw [e2, hk2]; omega

/-- The key window's block at point t is batch row t div 4 of the key array. -/
theorem iblk1_1_at (c : Dev nD) (t : Fin cfg1.N) (x : S1x4096x128.Idx) (k : S4x4096x128.Idx)
    (hk0 : (k 0).val = t.val / 4) (hk1 : (k 1).val = (x 1).val) (hk2 : (k 2).val = (x 2).val) :
    (iblk1 V c 1 t : Vec F S1x4096x128 .bf16) x = (V c main_v2_1 : S4x4096x128.Idx → Elt F .bf16) k := by
  obtain ⟨-, -, -, e0, e1, e2, -⟩ := idx_facts1 t
  unfold iblk1
  rw [View.read_apply]
  show V c main_v2_1 _ = V c main_v2_1 k
  congr 1
  funext a
  apply Fin.ext
  match a with
  | ⟨0, _⟩ => show win1_1.index t (0 : Fin 3) * 1 + 1 * (x 0).val = (k 0).val; have hx : (x 0).val < 1 := (x 0).isLt; rw [e0, hk0]; omega
  | ⟨1, _⟩ => show win1_1.index t (1 : Fin 3) * 4096 + 1 * (x 1).val = (k 1).val; rw [e1, hk1]; omega
  | ⟨2, _⟩ => show win1_1.index t (2 : Fin 3) * 128 + 1 * (x 2).val = (k 2).val; rw [e2, hk2]; omega

/-- The value window's block at point t is batch row t div 4 of the value array. -/
theorem iblk1_2_at (c : Dev nD) (t : Fin cfg1.N) (x : S1x4096x128.Idx) (k : S4x4096x128.Idx)
    (hk0 : (k 0).val = t.val / 4) (hk1 : (k 1).val = (x 1).val) (hk2 : (k 2).val = (x 2).val) :
    (iblk1 V c 2 t : Vec F S1x4096x128 .bf16) x = (V c main_v2_2 : S4x4096x128.Idx → Elt F .bf16) k := by
  obtain ⟨-, -, -, -, -, -, e0, e1, e2, -⟩ := idx_facts1 t
  unfold iblk1
  rw [View.read_apply]
  show V c main_v2_2 _ = V c main_v2_2 k
  congr 1
  funext a
  apply Fin.ext
  match a with
  | ⟨0, _⟩ => show win1_2.index t (0 : Fin 3) * 1 + 1 * (x 0).val = (k 0).val; have hx : (x 0).val < 1 := (x 0).isLt; rw [e0, hk0]; omega
  | ⟨1, _⟩ => show win1_2.index t (1 : Fin 3) * 4096 + 1 * (x 1).val = (k 1).val; rw [e1, hk1]; omega
  | ⟨2, _⟩ => show win1_2.index t (2 : Fin 3) * 128 + 1 * (x 2).val = (k 2).val; rw [e2, hk2]; omega

/-- The query block by coordinates. -/
theorem iblk1_0_apply (c : Dev nD) (t : Fin cfg1.N) (r : Fin 1024) (d : Fin 128) :
    (iblk1 V c 0 t : Vec F S1x1024x128 .bf16) (ix3 (0 : Fin 1) r d)
      = (V c main_v2_0 : S4x4096x128.Idx → Elt F .bf16)
          (ix3 (⟨t.val / 4, by have := pt_lt16 t; omega⟩ : Fin 4) (⟨(t.val % 4) * 1024 + r.val, by omega⟩ : Fin 4096) d) :=
  iblk1_0_at V c t _ _ rfl rfl rfl

/-- The key block by coordinates. -/
theorem iblk1_1_apply (c : Dev nD) (t : Fin cfg1.N) (k : Fin 4096) (d : Fin 128) :
    (iblk1 V c 1 t : Vec F S1x4096x128 .bf16) (ix3 (0 : Fin 1) k d)
      = (V c main_v2_1 : S4x4096x128.Idx → Elt F .bf16) (ix3 (⟨t.val / 4, by have := pt_lt16 t; omega⟩ : Fin 4) k d) :=
  iblk1_1_at V c t _ _ rfl rfl rfl

/-- The value block by coordinates. -/
theorem iblk1_2_apply (c : Dev nD) (t : Fin cfg1.N) (k : Fin 4096) (d : Fin 128) :
    (iblk1 V c 2 t : Vec F S1x4096x128 .bf16) (ix3 (0 : Fin 1) k d)
      = (V c main_v2_2 : S4x4096x128.Idx → Elt F .bf16) (ix3 (⟨t.val / 4, by have := pt_lt16 t; omega⟩ : Fin 4) k d) :=
  iblk1_2_at V c t _ _ rfl rfl rfl

end Region1

/-! ## A key tile read out of a batch row -/

/-- Key tile 0 of a batch row: rows 0 … 1023. -/
theorem ld_rT0 {e : EltTy} (X : Vec F S1x4096x128 e) (j : Fin 1024) (d : Fin 128) :
    View.ld X rT0 (ix3 (0 : Fin 1) j d) = X (ix3 (0 : Fin 1) (⟨1024 * 0 + j.val, by omega⟩ : Fin 4096) d) := by
  show X _ = X _
  congr 1
  funext a
  apply Fin.ext
  match a with
  | ⟨0, _⟩ => rfl
  | ⟨1, _⟩ => show (0 : Nat) + 1 * j.val = 1024 * 0 + j.val; omega
  | ⟨2, _⟩ => show (0 : Nat) + 1 * d.val = d.val; omega

/-- Key tile 1 of a batch row: rows 1024 … 2047. -/
theorem ld_rT1 {e : EltTy} (X : Vec F S1x4096x128 e) (j : Fin 1024) (d : Fin 128) :
    View.ld X rT1 (ix3 (0 : Fin 1) j d) = X (ix3 (0 : Fin 1) (⟨1024 * 1 + j.val, by omega⟩ : Fin 4096) d) := by
  show X _ = X _
  congr 1
  funext a
  apply Fin.ext
  match a with
  | ⟨0, _⟩ => rfl
  | ⟨1, _⟩ => show (1024 : Nat) + 1 * j.val = 1024 * 1 + j.val; omega
  | ⟨2, _⟩ => show (0 : Nat) + 1 * d.val = d.val; omega

/-- Key tile 2 of a batch row: rows 2048 … 3071. -/
theorem ld_rT2 {e : EltTy} (X : Vec F S1x4096x128 e) (j : Fin 1024) (d : Fin 128) :
    View.ld X rT2 (ix3 (0 : Fin 1) j d) = X (ix3 (0 : Fin 1) (⟨1024 * 2 + j.val, by omega⟩ : Fin 4096) d) := by
  show X _ = X _
  congr 1
  funext a
  apply Fin.ext
  match a with
  | ⟨0, _⟩ => rfl
  | ⟨1, _⟩ => show (2048 : Nat) + 1 * j.val = 1024 * 2 + j.val; omega
  | ⟨2, _⟩ => show (0 : Nat) + 1 * d.val = d.val; omega

/-- Key tile 3 of a batch row: rows 3072 … 4095. -/
theorem ld_rT3 {e : EltTy} (X : Vec F S1x4096x128 e) (j : Fin 1024) (d : Fin 128) :
    View.ld X rT3 (ix3 (0 : Fin 1) j d) = X (ix3 (0 : Fin 1) (⟨1024 * 3 + j.val, by omega⟩ : Fin 4096) d) := by
  show X _ = X _
  congr 1
  funext a
  apply Fin.ext
  match a with
  | ⟨0, _⟩ => rfl
  | ⟨1, _⟩ => show (3072 : Nat) + 1 * j.val = 1024 * 3 + j.val; omega
  | ⟨2, _⟩ => show (0 : Nat) + 1 * d.val = d.val; omega

section Region1

variable (V : (c : Dev nD) → (b : Ref sig .tc) → Buf (Elt F) ((c : Thread nD τ).loc b))

/-! ## From the output blocks to the output array -/

/-- Where an element of the output window's block at point t sits in the output array: batch row t div 4, row
    (t mod 4)·1024 + the row inside the block, the same head coordinate. -/
theorem blk1_3_emb (t : Fin cfg1.N) (y : S1x1024x128.Idx) (k : S4x4096x128.Idx)
    (hk0 : (k 0).val = t.val / 4) (hk1 : (k 1).val = (t.val % 4) * 1024 + (y 1).val) (hk2 : (k 2).val = (y 2).val) :
    ((cfg1.win 3).blk t).view.emb y = k := by
  obtain ⟨-, -, -, -, -, -, -, -, -, e0, e1, e2⟩ := idx_facts1 t
  funext a
  apply Fin.ext
  match a with
  | ⟨0, _⟩ => show win1_3.index t (0 : Fin 3) * 1 + 1 * (y 0).val = (k 0).val; have hy : (y 0).val < 1 := (y 0).isLt; rw [e0, hk0]; omega
  | ⟨1, _⟩ => show win1_3.index t (1 : Fin 3) * 1024 + 1 * (y 1).val = (k 1).val; rw [e1, hk1]; omega
  | ⟨2, _⟩ => show win1_3.index t (2 : Fin 3) * 128 + 1 * (y 2).val = (k 2).val; rw [e2, hk2]; omega

/-- One element of what point t writes back is the array function there. -/
theorem flushed1_3_at (c : Dev nD) (Gf : S4x4096x128.Idx → Elt F .f32)
    (hG : ∀ (t : Fin cfg1.N) (r : Fin 1024) (h : Fin 128), flashAt V c t (ix3 (0 : Fin 1) r h)
      = Gf (ix3 (⟨t.val / 4, by have := pt_lt16 t; omega⟩ : Fin 4) (⟨(t.val % 4) * 1024 + r.val, by omega⟩ : Fin 4096) h))
    (t : Fin cfg1.N) (j : S1x1024x128.Idx) :
    flashAt V c t j = Gf (((cfg1.win 3).blk t).view.emb j) := by
  obtain ⟨z, r, h, rfl⟩ : ∃ (z : Fin 1) (r : Fin 1024) (h : Fin 128), j = ix3 z r h := ⟨j 0, j 1, j 2, eq_ix3 j⟩
  obtain rfl : z = 0 := Subsingleton.elim _ _
  rw [hG t r h]
  exact congrArg Gf (blk1_3_emb t _ _ rfl rfl rfl).symm

/-- What point t writes back is block t of the array function. -/
theorem flushed1_3_eq (c : Dev nD) (Gf : S4x4096x128.Idx → Elt F .f32)
    (hG : ∀ (t : Fin cfg1.N) (r : Fin 1024) (h : Fin 128), flashAt V c t (ix3 (0 : Fin 1) r h)
      = Gf (ix3 (⟨t.val / 4, by have := pt_lt16 t; omega⟩ : Fin 4) (⟨(t.val % 4) * 1024 + r.val, by omega⟩ : Fin 4096) h))
    (t : Fin cfg1.N) :
    (dat1 V c).flushed 3 t = ((cfg1.win 3).blk t).view.read (Elt F) Gf := by
  show (cfg1.win 3).cut (grid1.coords t) ((dat1 V c).after 3 t) = _
  rw [after1_3]
  funext j
  exact flushed1_3_at V c Gf hG t j

/-- An index of the output array is in point t's block iff each coordinate is in the block's range on its axis. -/
theorem mem_blk1_3 (t : Fin cfg1.N) (i : S4x4096x128.Idx) :
    i ∈ ((cfg1.win 3).blk t).view.set ↔ ∀ a : Fin 3, win1_3.index t a * S1x1024x128.size a ≤ (i a).val
      ∧ (i a).val < win1_3.index t a * S1x1024x128.size a + S1x1024x128.size a := by
  show i ∈ ((View.whole main_v3).slice (win1_3.rect t)).set ↔ _
  rw [View.set_slice_whole, Rect.mem_set_unit]
  exact Iff.rfl

/-- Every index (b, Q, h) of the output array is in the block of the point b·4 + Q div 1024, and every point writes
    its block back. -/
theorem cover1_3 (i : S4x4096x128.Idx) :
    ∃ t : Fin cfg1.N, (cfg1.win 3).flush t = true ∧ i ∈ ((cfg1.win 3).blk t).view.set := by
  have h0 : (i 0).val < 4 := (i 0).isLt
  have h1 : (i 1).val < 4096 := (i 1).isLt
  have h2 : (i 2).val < 128 := (i 2).isLt
  have hlt : (i 0).val * 4 + (i 1).val / 1024 < cfg1.N := lt_of_lt_of_eq (by omega : _ < 16) N_1.symm
  refine ⟨⟨(i 0).val * 4 + (i 1).val / 1024, hlt⟩, flush1_3 _, ?_⟩
  rw [mem_blk1_3]
  obtain ⟨-, -, -, -, -, -, -, -, -, e0, e1, e2⟩ := idx_facts1 ⟨(i 0).val * 4 + (i 1).val / 1024, hlt⟩
  have hv : (⟨(i 0).val * 4 + (i 1).val / 1024, hlt⟩ : Fin cfg1.N).val = (i 0).val * 4 + (i 1).val / 1024 := rfl
  rw [hv] at e0 e1
  intro a
  match a with
  | ⟨0, _⟩ => show win1_3.index _ (0 : Fin 3) * 1 ≤ (i 0).val ∧ (i 0).val < win1_3.index _ (0 : Fin 3) * 1 + 1; rw [e0]; omega
  | ⟨1, _⟩ => show win1_3.index _ (1 : Fin 3) * 1024 ≤ (i 1).val ∧ (i 1).val < win1_3.index _ (1 : Fin 3) * 1024 + 1024; rw [e1]; omega
  | ⟨2, _⟩ => show win1_3.index _ (2 : Fin 3) * 128 ≤ (i 2).val ∧ (i 2).val < win1_3.index _ (2 : Fin 3) * 128 + 128; rw [e2]; omega

/-- THE OUTPUT ARRAY after the region: if every point's output block is the array function Gf read at the point's
    rows, the array ends holding Gf. -/
theorem flashArr (c : Dev nD) (Gf : S4x4096x128.Idx → Elt F .f32)
    (hG : ∀ (t : Fin cfg1.N) (r : Fin 1024) (h : Fin 128), flashAt V c t (ix3 (0 : Fin 1) r h)
      = Gf (ix3 (⟨t.val / 4, by have := pt_lt16 t; omega⟩ : Fin 4) (⟨(t.val % 4) * 1024 + r.val, by omega⟩ : Fin 4096) h)) :
    (dat1 V c).arrAt 3 cfg1.N = Gf :=
  (dat1 V c).arrAt_eq_of_cover 3 Gf (fun t _ => flushed1_3_eq V c Gf hG t) cover1_3

end Region1

end Cert.KernelIdeal.Hand

end
-- ==== Proof.ProjValue.lean ====
import proofs.«130832_j91044716740856_2_alg».proof.Proof.ProjRegion
import proofs.«130832_j91044716740856_2_alg».proof.Proof.AttnSpec
import Idealize.ShloMosaic.Lib.Pipeline.Value
import Idealize.ShloMosaic.Lib.ValueIdx
import Idealize.ShloMosaic.Lib.ValueLayout
import Idealize.ShloMosaic.PureOps.Ideal.Laws

/-! # The projection region's three output arrays as whole-array functions, at the ideal values

At the ideal float values (a float an extended real, every operation exact) the projection body's roundings to bf16
are the identity, so each output block is a plain matrix product of the context block with a weight. This module
reads that product at an index (`pay2_apply`, `pay3_apply`, `pay4_apply`), reads each window's block as a part of
its array through the grid's index maps (`idx_facts`, `ctx_block_apply`, `wgtK_block_apply`), shows that what grid
point `t` writes back is block `t` of ONE function of the arrays — the projection `Cert.AttnSpec.proj` of the whole
context array by the whole weight (`flushedW_eq`) —, that the sixteen blocks cover each output array (`coverW`), and
concludes that after the region each output array IS that function (`projArr4`, `projArr5`, `projArr6`). -/

noncomputable section

open scoped BigOperators

namespace Cert.KernelIdeal.ProjValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The matrix unit's operand indices -/

/-- The left operand's row is the output's row, -/
theorem lhs_row (j : S1024x128.Idx) (q : (dot_S1024x1024_S1024x128_S1024x128_1_0_0_1_n_n).contr.Idx) :
    ((dot_S1024x1024_S1024x128_S1024x128_1_0_0_1_n_n).lhsIdx j q 0).val = (j 0).val := by
  unfold DotDims.lhsIdx
  rw [dif_neg (show ¬(0 : Fin S1024x1024.rank) ∈ (dot_S1024x1024_S1024x128_S1024x128_1_0_0_1_n_n).lhsBatch by decide),
    dif_pos (show (0 : Fin S1024x1024.rank) ∈ (dot_S1024x1024_S1024x128_S1024x128_1_0_0_1_n_n).lhsNonContracting by decide)]
  rfl
/-- its column the contraction position; -/
theorem lhs_col (j : S1024x128.Idx) (q : (dot_S1024x1024_S1024x128_S1024x128_1_0_0_1_n_n).contr.Idx) :
    ((dot_S1024x1024_S1024x128_S1024x128_1_0_0_1_n_n).lhsIdx j q 1).val = (q ⟨0, by decide⟩).val :=
  (dot_S1024x1024_S1024x128_S1024x128_1_0_0_1_n_n).lhsIdx_val_of_single rfl j q
/-- the right operand's row is the contraction position, -/
theorem rhs_row (j : S1024x128.Idx) (q : (dot_S1024x1024_S1024x128_S1024x128_1_0_0_1_n_n).contr.Idx) :
    ((dot_S1024x1024_S1024x128_S1024x128_1_0_0_1_n_n).rhsIdx j q 0).val = (q ⟨0, by decide⟩).val :=
  (dot_S1024x1024_S1024x128_S1024x128_1_0_0_1_n_n).rhsIdx_val_of_single rfl j q
/-- its column the output's column. -/
theorem rhs_col (j : S1024x128.Idx) (q : (dot_S1024x1024_S1024x128_S1024x128_1_0_0_1_n_n).contr.Idx) :
    ((dot_S1024x1024_S1024x128_S1024x128_1_0_0_1_n_n).rhsIdx j q 1).val = (j 1).val := by
  unfold DotDims.rhsIdx
  rw [dif_neg (show ¬(1 : Fin S1024x128.rank) ∈ (dot_S1024x1024_S1024x128_S1024x128_1_0_0_1_n_n).rhsBatch by decide),
    dif_pos (show (1 : Fin S1024x128.rank) ∈ (dot_S1024x1024_S1024x128_S1024x128_1_0_0_1_n_n).rhsNonContracting by decide)]
  rfl

/-- The product of a `1024×1024` matrix with a `1024×128` one into the zero accumulator, at the ideal values: entry
    `(r, h)` is the sum over `k` of `X (r, k) · A (k, h)`. -/
theorem matmul_zero_apply (X : FVec Ideal S1024x1024 .bf16) (A : FVec Ideal S1024x128 .bf16) (r : Fin 1024) (h : Fin 128) :
    matmul dot_S1024x1024_S1024x128_S1024x128_1_0_0_1_n_n none X A (constant (F := Ideal) S1024x128 .f32 0x00000000#32) (ix2 r h)
      = ∑ k : Fin 1024, X (ix2 r k) * A (ix2 k h) := by
  show FloatOps.matmul dot_S1024x1024_S1024x128_S1024x128_1_0_0_1_n_n none X A (constant S1024x128 .f32 0x00000000#32) (ix2 r h) = _
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : (dot_S1024x1024_S1024x128_S1024x128_1_0_0_1_n_n).lhsIdx (ix2 r h) ((ValueIdx.contrEquiv1 dot_S1024x1024_S1024x128_S1024x128_1_0_0_1_n_n 1024 rfl rfl).symm k) = ix2 r k := funext fun a => Fin.ext (by
    match a with
    | ⟨0, _⟩ => exact lhs_row _ _
    | ⟨1, _⟩ => exact (lhs_col _ _).trans hk)
  have er : (dot_S1024x1024_S1024x128_S1024x128_1_0_0_1_n_n).rhsIdx (ix2 r h) ((ValueIdx.contrEquiv1 dot_S1024x1024_S1024x128_S1024x128_1_0_0_1_n_n 1024 rfl rfl).symm k) = ix2 k h := funext fun a => Fin.ext (by
    match a with
    | ⟨0, _⟩ => exact (rhs_row _ _).trans hk
    | ⟨1, _⟩ => exact rhs_col _ _)
  rw [el, er]

/-! ## The shape casts around the product, at an index -/

/-- Adding the leading unit axis to a `1024×128` vector: entry `(0, r, h)` is entry `(r, h)`. -/
theorem cast_addUnit_apply {α : Type} (v : S1024x128.Idx → α) (hc : S1024x128.ShapeCasts S1x1024x128) (r : Fin 1024) (h : Fin 128) :
    shapeCast S1x1024x128 v hc (ix3 (0 : Fin 1) r h) = v (ix2 r h) :=
  (shapeCast_addUnit_apply _ v hc _).trans (congrArg v (funext fun d => by match d with | ⟨0, _⟩ => rfl | ⟨1, _⟩ => rfl))

/-- Dropping the leading unit axis of a `1×1024×1024` vector: entry `(r, k)` is entry `(0, r, k)`. -/
theorem cast_dropUnit_apply {α : Type} (v : S1x1024x1024.Idx → α) (hc : S1x1024x1024.ShapeCasts S1024x1024) (r k : Fin 1024) :
    shapeCast S1024x1024 v hc (ix2 r k) = v (ix3 (0 : Fin 1) r k) :=
  (shapeCast_dropUnit_apply _ v hc _).trans (congrArg v (funext fun d => by match d with | ⟨0, _⟩ => rfl | ⟨1, _⟩ => rfl | ⟨2, _⟩ => rfl))

/-! ## The body's payloads at an index -/

/-- The context block as the product's left operand: rounding to bf16 is the identity at the ideal values, and the
    leading unit axis is dropped. -/
theorem pay1_apply (x : Vec Ideal S1x1024x1024 .f32) (r k : Fin 1024) :
    k0_pay1 (F := Ideal) x (ix2 r k) = x (ix3 (0 : Fin 1) r k) := by
  unfold k0_pay1
  rw [truncf_apply]
  exact cast_dropUnit_apply x _ r k

/-- The first output block at row `r`, column `h`: the context block's row `r` against the weight's column `h`, summed
    from zero; the roundings are the identity at the ideal values. -/
theorem pay2_apply (x : Vec Ideal S1x1024x1024 .f32) (a : Vec Ideal S1024x128 .f32) (r : Fin 1024) (h : Fin 128) :
    k0_pay2 (F := Ideal) x a (ix3 (0 : Fin 1) r h) = ∑ k : Fin 1024, x (ix3 (0 : Fin 1) r k) * a (ix2 k h) := by
  unfold k0_pay2
  rw [cast_addUnit_apply, truncf_apply]
  refine (matmul_zero_apply _ _ r h).trans ?_
  refine Finset.sum_congr rfl fun k _ => ?_
  rw [pay1_apply, truncf_apply, shapeCast_self]

/-- The second output block: the same with the second weight, which no shape cast precedes. -/
theorem pay3_apply (x : Vec Ideal S1x1024x1024 .f32) (b : Vec Ideal S1024x128 .f32) (r : Fin 1024) (h : Fin 128) :
    k0_pay3 (F := Ideal) x b (ix3 (0 : Fin 1) r h) = ∑ k : Fin 1024, x (ix3 (0 : Fin 1) r k) * b (ix2 k h) := by
  unfold k0_pay3
  rw [cast_addUnit_apply, truncf_apply]
  refine (matmul_zero_apply _ _ r h).trans ?_
  refine Finset.sum_congr rfl fun k _ => ?_
  rw [pay1_apply, truncf_apply]

/-- The third output block: the same with the third weight. -/
theorem pay4_apply (x : Vec Ideal S1x1024x1024 .f32) (g : Vec Ideal S1024x128 .f32) (r : Fin 1024) (h : Fin 128) :
    k0_pay4 (F := Ideal) x g (ix3 (0 : Fin 1) r h) = ∑ k : Fin 1024, x (ix3 (0 : Fin 1) r k) * g (ix2 k h) := by
  unfold k0_pay4
  rw [cast_addUnit_apply, truncf_apply]
  refine (matmul_zero_apply _ _ r h).trans ?_
  refine Finset.sum_congr rfl fun k _ => ?_
  rw [pay1_apply, truncf_apply]

/-! ## The grid's index maps, decided once -/

theorem hz3 : (![0, 0, 0] : Fin 3 → Nat) = fun _ => 0 := funext fun a => by fin_cases a <;> rfl
theorem hz2 : (![0, 0] : Fin 2 → Nat) = fun _ => 0 := funext fun a => by fin_cases a <;> rfl

/-- At point `t` of the `4×4` grid the context window and the three output windows are on block
    `(t / 4, t % 4, 0)`, and the three weight windows on block `(0, 0)`. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0
    ∧ win0_6.index t (0 : Fin 3) = t.val / 4 ∧ win0_6.index t (1 : Fin 3) = t.val % 4 ∧ win0_6.index t (2 : Fin 3) = 0 :=
  (by decide +kernel : ∀ t : Fin grid0.N, _)

/-! ## The output arrays as whole-array functions -/

/-- The projection of every row of the context array `ctx` by the weight `W`: the array an output window ends holding. -/
abbrev projArr (ctx : S4x4096x1024.Idx → EReal) (W : S1024x128.Idx → EReal) : S4x4096x128.Idx → EReal :=
  fun i => Cert.AttnSpec.proj ctx W (i 0) (i 1) (i 2)

/-- One block's product is a block of the projection: when the context block `x` is rows `q·1024 …` of batch `b` of
    `ctx` and the weight block `a` is all of `W`, the sum at `(0, r, h)` is the projected row `q·1024 + r` at `h`. -/
theorem block_sum_eq (ctx : S4x4096x1024.Idx → EReal) (W : S1024x128.Idx → EReal)
    (x : Vec Ideal S1x1024x1024 .f32) (a : Vec Ideal S1024x128 .f32) (b q : Nat) (hb : b < 4) (hq : q < 4)
    (hx : ∀ r k : Fin 1024, x (ix3 (0 : Fin 1) r k) = ctx (ix3 (⟨b, hb⟩ : Fin 4) (⟨q * 1024 + r.val, by omega⟩ : Fin 4096) k))
    (ha : ∀ (k : Fin 1024) (h : Fin 128), a (ix2 k h) = W (ix2 k h))
    (r : Fin 1024) (h : Fin 128) :
    (∑ k : Fin 1024, x (ix3 (0 : Fin 1) r k) * a (ix2 k h))
      = Cert.AttnSpec.proj ctx W (⟨b, hb⟩ : Fin 4) (⟨q * 1024 + r.val, by omega⟩ : Fin 4096) h := by
  unfold Cert.AttnSpec.proj
  exact Finset.sum_congr rfl fun k _ => by rw [hx, ha]

/-- The projection array at an index whose coordinates are known. -/
theorem projArr_apply (ctx : S4x4096x1024.Idx → EReal) (W : S1024x128.Idx → EReal) (i : S4x4096x128.Idx)
    (b : Fin 4) (p : Fin 4096) (h : Fin 128) (h0 : (i 0).val = b.val) (h1 : (i 1).val = p.val) (h2 : (i 2).val = h.val) :
    projArr ctx W i = Cert.AttnSpec.proj ctx W b p h := by
  have e : i = ix3 b p h := funext fun a => Fin.ext (by
    match a with
    | ⟨0, _⟩ => exact h0
    | ⟨1, _⟩ => exact h1
    | ⟨2, _⟩ => exact h2)
  subst e
  rfl

/-- The grid has sixteen points. -/
theorem pt_lt (t : Fin cfg0.N) : t.val < 16 := lt_of_lt_of_eq t.isLt N_0

section Arrays

/- The contents of the TensorCore's buffers when the region is entered, at the ideal values. -/
variable (V : (c : Dev nD) → (b : Ref sig .tc) → Buf (Elt Ideal) ((c : Thread nD τ).loc b))

/-! ## The input windows' blocks, read at an index -/

/-- The context block of point `t` at `(0, r, k)` is the context array at batch `t / 4`, row `(t % 4)·1024 + r`,
    coordinate `k`. -/
theorem ctx_block_apply (c : Dev nD) (t : Fin cfg0.N) (r k : Fin 1024) :
    (iblk0 V c 0 t : Vec Ideal S1x1024x1024 .f32) (ix3 (0 : Fin 1) r k)
      = (V c (Pipeline.arrRef spec0 0) : S4x4096x1024.Idx → EReal)
          (ix3 (⟨t.val / 4, by have := pt_lt t; omega⟩ : Fin 4) (⟨t.val % 4 * 1024 + r.val, by have := pt_lt t; omega⟩ : Fin 4096) k) := by
  obtain ⟨e0, e1, e2, -⟩ := idx_facts t
  unfold iblk0
  rw [View.read_apply]
  refine congrArg (V c (Pipeline.arrRef spec0 0) : S4x4096x1024.Idx → EReal) ?_
  funext a
  apply Fin.ext
  match a with
  | ⟨0, _⟩ => show win0_0.index t (0 : Fin 3) * 1 + 1 * 0 = t.val / 4; rw [e0]; omega
  | ⟨1, _⟩ => show win0_0.index t (1 : Fin 3) * 1024 + 1 * r.val = t.val % 4 * 1024 + r.val; rw [e1]; omega
  | ⟨2, _⟩ => show win0_0.index t (2 : Fin 3) * 1024 + 1 * k.val = k.val; rw [e2]; omega

/-- A weight window's block, at any point, is the whole weight array: its block index is `(0, 0)`. -/
theorem wgt1_block_apply (c : Dev nD) (t : Fin cfg0.N) (k : Fin 1024) (h : Fin 128) :
    (iblk0 V c 1 t : Vec Ideal S1024x128 .f32) (ix2 k h) = (V c (Pipeline.arrRef spec0 1) : S1024x128.Idx → EReal) (ix2 k h) := by
  obtain ⟨-, -, -, e0, e1, -⟩ := idx_facts t
  unfold iblk0
  rw [View.read_apply]
  refine congrArg (V c (Pipeline.arrRef spec0 1) : S1024x128.Idx → EReal) ?_
  funext a
  apply Fin.ext
  match a with
  | ⟨0, _⟩ => show win0_1.index t (0 : Fin 2) * 1024 + 1 * k.val = k.val; rw [e0]; omega
  | ⟨1, _⟩ => show win0_1.index t (1 : Fin 2) * 128 + 1 * h.val = h.val; rw [e1]; omega

theorem wgt2_block_apply (c : Dev nD) (t : Fin cfg0.N) (k : Fin 1024) (h : Fin 128) :
    (iblk0 V c 2 t : Vec Ideal S1024x128 .f32) (ix2 k h) = (V c (Pipeline.arrRef spec0 2) : S1024x128.Idx → EReal) (ix2 k h) := by
  obtain ⟨-, -, -, -, -, e0, e1, -⟩ := idx_facts t
  unfold iblk0
  rw [View.read_apply]
  refine congrArg (V c (Pipeline.arrRef spec0 2) : S1024x128.Idx → EReal) ?_
  funext a
  apply Fin.ext
  match a with
  | ⟨0, _⟩ => show win0_2.index t (0 : Fin 2) * 1024 + 1 * k.val = k.val; rw [e0]; omega
  | ⟨1, _⟩ => show win0_2.index t (1 : Fin 2) * 128 + 1 * h.val = h.val; rw [e1]; omega

theorem wgt3_block_apply (c : Dev nD) (t : Fin cfg0.N) (k : Fin 1024) (h : Fin 128) :
    (iblk0 V c 3 t : Vec Ideal S1024x128 .f32) (ix2 k h) = (V c (Pipeline.arrRef spec0 3) : S1024x128.Idx → EReal) (ix2 k h) := by
  obtain ⟨-, -, -, -, -, -, -, e0, e1, -⟩ := idx_facts t
  unfold iblk0
  rw [View.read_apply]
  refine congrArg (V c (Pipeline.arrRef spec0 3) : S1024x128.Idx → EReal) ?_
  funext a
  apply Fin.ext
  match a with
  | ⟨0, _⟩ => show win0_3.index t (0 : Fin 2) * 1024 + 1 * k.val = k.val; rw [e0]; omega
  | ⟨1, _⟩ => show win0_3.index t (1 : Fin 2) * 128 + 1 * h.val = h.val; rw [e1]; omega

/-! ## What a point writes back is a block of the projection -/

/-- Point `t` writes back, to the first output array, block `t` of the context array's projection by the first weight. -/
theorem flushed4_eq (c : Dev nD) (t : Fin cfg0.N) :
    (dat0 (F := Ideal) V c).flushed 4 t
      = ((cfg0.win 4).blk t).view.read (Elt Ideal) (projArr (V c (Pipeline.arrRef spec0 0)) (V c (Pipeline.arrRef spec0 1))) := by
  show (cfg0.win 4).cut (grid0.coords t) ((dat0 V c).after 4 t) = _
  rw [after0_4]
  unfold projOut4
  rw [View.canon_unit_zero hz3]
  simp only [View.ld_unit_zero (S := S1x1024x1024) hz3, View.ld_unit_zero (S := S1024x128) hz2]
  funext j
  obtain ⟨z, r, h, rfl⟩ : ∃ (z : Fin 1) (r : Fin 1024) (h : Fin 128), j = ix3 z r h := ⟨j 0, j 1, j 2, eq_ix3 j⟩
  obtain rfl : z = 0 := Subsingleton.elim _ _
  obtain ⟨-, -, -, -, -, -, -, -, -, e0, e1, e2, -⟩ := idx_facts t
  have ht := pt_lt t
  show k0_pay2 (F := Ideal) (iblk0 V c 0 t) (iblk0 V c 1 t) (ix3 (0 : Fin 1) r h)
    = projArr (V c (Pipeline.arrRef spec0 0)) (V c (Pipeline.arrRef spec0 1)) (((cfg0.win 4).blk t).view.emb (ix3 (0 : Fin 1) r h))
  refine (pay2_apply _ _ r h).trans ?_
  refine (block_sum_eq (V c (Pipeline.arrRef spec0 0)) (V c (Pipeline.arrRef spec0 1)) _ _ (t.val / 4) (t.val % 4) (by omega) (by omega)
    (fun r k => ctx_block_apply V c t r k) (fun k h => wgt1_block_apply V c t k h) r h).trans ?_
  refine (projArr_apply _ _ (((cfg0.win 4).blk t).view.emb (ix3 (0 : Fin 1) r h)) _ _ h ?_ ?_ ?_).symm
  · show win0_4.index t (0 : Fin 3) * 1 + 1 * 0 = t.val / 4
    rw [e0]; omega
  · show win0_4.index t (1 : Fin 3) * 1024 + 1 * r.val = t.val % 4 * 1024 + r.val
    rw [e1]; omega
  · show win0_4.index t (2 : Fin 3) * 128 + 1 * h.val = h.val
    rw [e2]; omega

/-- Point `t` writes back, to the second output array, block `t` of the context array's projection by the second weight. -/
theorem flushed5_eq (c : Dev nD) (t : Fin cfg0.N) :
    (dat0 (F := Ideal) V c).flushed 5 t
      = ((cfg0.win 5).blk t).view.read (Elt Ideal) (projArr (V c (Pipeline.arrRef spec0 0)) (V c (Pipeline.arrRef spec0 2))) := by
  show (cfg0.win 5).cut (grid0.coords t) ((dat0 V c).after 5 t) = _
  rw [after0_5]
  unfold projOut5
  rw [View.canon_unit_zero hz3]
  simp only [View.ld_unit_zero (S := S1x1024x1024) hz3, View.ld_unit_zero (S := S1024x128) hz2]
  funext j
  obtain ⟨z, r, h, rfl⟩ : ∃ (z : Fin 1) (r : Fin 1024) (h : Fin 128), j = ix3 z r h := ⟨j 0, j 1, j 2, eq_ix3 j⟩
  obtain rfl : z = 0 := Subsingleton.elim _ _
  obtain ⟨-, -, -, -, -, -, -, -, -, -, -, -, e0, e1, e2, -⟩ := idx_facts t
  have ht := pt_lt t
  show k0_pay3 (F := Ideal) (iblk0 V c 0 t) (iblk0 V c 2 t) (ix3 (0 : Fin 1) r h)
    = projArr (V c (Pipeline.arrRef spec0 0)) (V c (Pipeline.arrRef spec0 2)) (((cfg0.win 5).blk t).view.emb (ix3 (0 : Fin 1) r h))
  refine (pay3_apply _ _ r h).trans ?_
  refine (block_sum_eq (V c (Pipeline.arrRef spec0 0)) (V c (Pipeline.arrRef spec0 2)) _ _ (t.val / 4) (t.val % 4) (by omega) (by omega)
    (fun r k => ctx_block_apply V c t r k) (fun k h => wgt2_block_apply V c t k h) r h).trans ?_
  refine (projArr_apply _ _ (((cfg0.win 5).blk t).view.emb (ix3 (0 : Fin 1) r h)) _ _ h ?_ ?_ ?_).symm
  · show win0_5.index t (0 : Fin 3) * 1 + 1 * 0 = t.val / 4
    rw [e0]; omega
  · show win0_5.index t (1 : Fin 3) * 1024 + 1 * r.val = t.val % 4 * 1024 + r.val
    rw [e1]; omega
  · show win0_5.index t (2 : Fin 3) * 128 + 1 * h.val = h.val
    rw [e2]; omega

/-- Point `t` writes back, to the third output array, block `t` of the context array's projection by the third weight. -/
theorem flushed6_eq (c : Dev nD) (t : Fin cfg0.N) :
    (dat0 (F := Ideal) V c).flushed 6 t
      = ((cfg0.win 6).blk t).view.read (Elt Ideal) (projArr (V c (Pipeline.arrRef spec0 0)) (V c (Pipeline.arrRef spec0 3))) := by
  show (cfg0.win 6).cut (grid0.coords t) ((dat0 V c).after 6 t) = _
  rw [after0_6]
  unfold projOut6
  rw [View.canon_unit_zero hz3]
  simp only [View.ld_unit_zero (S := S1x1024x1024) hz3, View.ld_unit_zero (S := S1024x128) hz2]
  funext j
  obtain ⟨z, r, h, rfl⟩ : ∃ (z : Fin 1) (r : Fin 1024) (h : Fin 128), j = ix3 z r h := ⟨j 0, j 1, j 2, eq_ix3 j⟩
  obtain rfl : z = 0 := Subsingleton.elim _ _
  obtain ⟨-, -, -, -, -, -, -, -, -, -, -, -, -, -, -, e0, e1, e2⟩ := idx_facts t
  have ht := pt_lt t
  show k0_pay4 (F := Ideal) (iblk0 V c 0 t) (iblk0 V c 3 t) (ix3 (0 : Fin 1) r h)
    = projArr (V c (Pipeline.arrRef spec0 0)) (V c (Pipeline.arrRef spec0 3)) (((cfg0.win 6).blk t).view.emb (ix3 (0 : Fin 1) r h))
  refine (pay4_apply _ _ r h).trans ?_
  refine (block_sum_eq (V c (Pipeline.arrRef spec0 0)) (V c (Pipeline.arrRef spec0 3)) _ _ (t.val / 4) (t.val % 4) (by omega) (by omega)
    (fun r k => ctx_block_apply V c t r k) (fun k h => wgt3_block_apply V c t k h) r h).trans ?_
  refine (projArr_apply _ _ (((cfg0.win 6).blk t).view.emb (ix3 (0 : Fin 1) r h)) _ _ h ?_ ?_ ?_).symm
  · show win0_6.index t (0 : Fin 3) * 1 + 1 * 0 = t.val / 4
    rw [e0]; omega
  · show win0_6.index t (1 : Fin 3) * 1024 + 1 * r.val = t.val % 4 * 1024 + r.val
    rw [e1]; omega
  · show win0_6.index t (2 : Fin 3) * 128 + 1 * h.val = h.val
    rw [e2]; omega

/-- An index of the first output array is in point `t`'s block iff each coordinate is in the block's range on its axis. -/
theorem mem_blk4 (t : Fin cfg0.N) (i : S4x4096x128.Idx) :
    i ∈ ((cfg0.win 4).blk t).view.set ↔ ∀ a : Fin 3, win0_4.index t a * S1x1024x128.size a ≤ (i a).val ∧ (i a).val < win0_4.index t a * S1x1024x128.size a + S1x1024x128.size a := by
  show i ∈ ((View.whole main_v2_0).slice (win0_4.rect t)).set ↔ _
  rw [View.set_slice_whole, Rect.mem_set_unit]
  exact Iff.rfl

/-- Every index `(b, p, h)` of the first output array is in the block of the point `b·4 + p / 1024`, which writes it back. -/
theorem cover4 (i : S4x4096x128.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 128 := (i 2).isLt
  obtain ⟨t, tv⟩ : ∃ t : Fin cfg0.N, t.val = (i 0).val * 4 + (i 1).val / 1024 :=
    ⟨⟨(i 0).val * 4 + (i 1).val / 1024, by rw [show cfg0.N = 16 from N_0]; omega⟩, rfl⟩
  refine ⟨t, flush0_4 t, ?_⟩
  rw [mem_blk4]
  obtain ⟨-, -, -, -, -, -, -, -, -, e0, e1, e2, -⟩ := idx_facts t
  intro a
  match a with
  | ⟨0, _⟩ =>
    show win0_4.index t (0 : Fin 3) * 1 ≤ (i 0).val ∧ (i 0).val < win0_4.index t (0 : Fin 3) * 1 + 1
    rw [e0, tv]; omega
  | ⟨1, _⟩ =>
    show win0_4.index t (1 : Fin 3) * 1024 ≤ (i 1).val ∧ (i 1).val < win0_4.index t (1 : Fin 3) * 1024 + 1024
    rw [e1, tv]; omega
  | ⟨2, _⟩ =>
    show win0_4.index t (2 : Fin 3) * 128 ≤ (i 2).val ∧ (i 2).val < win0_4.index t (2 : Fin 3) * 128 + 128
    rw [e2]; omega

/-- After the region the first output array holds, index by index, the projection of the context array as the region
    found it by the first weight as the region found it. -/
theorem projArr4 (c : Dev nD) :
    (dat0 (F := Ideal) V c).arrAt 4 cfg0.N
      = fun i => Cert.AttnSpec.proj (V c (Pipeline.arrRef spec0 0)) (V c (Pipeline.arrRef spec0 1)) (i 0) (i 1) (i 2) :=
  (dat0 (F := Ideal) V c).arrAt_eq_of_cover 4 (projArr (V c (Pipeline.arrRef spec0 0)) (V c (Pipeline.arrRef spec0 1)))
    (fun t _ => flushed4_eq V c t) cover4

/-- An index of the second output array is in point `t`'s block iff each coordinate is in the block's range on its axis. -/
theorem mem_blk5 (t : Fin cfg0.N) (i : S4x4096x128.Idx) :
    i ∈ ((cfg0.win 5).blk t).view.set ↔ ∀ a : Fin 3, win0_5.index t a * S1x1024x128.size a ≤ (i a).val ∧ (i a).val < win0_5.index t a * S1x1024x128.size a + S1x1024x128.size a := by
  show i ∈ ((View.whole main_v2_1).slice (win0_5.rect t)).set ↔ _
  rw [View.set_slice_whole, Rect.mem_set_unit]
  exact Iff.rfl

/-- Every index `(b, p, h)` of the second output array is in the block of the point `b·4 + p / 1024`, which writes it back. -/
theorem cover5 (i : S4x4096x128.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 128 := (i 2).isLt
  obtain ⟨t, tv⟩ : ∃ t : Fin cfg0.N, t.val = (i 0).val * 4 + (i 1).val / 1024 :=
    ⟨⟨(i 0).val * 4 + (i 1).val / 1024, by rw [show cfg0.N = 16 from N_0]; omega⟩, rfl⟩
  refine ⟨t, flush0_5 t, ?_⟩
  rw [mem_blk5]
  obtain ⟨-, -, -, -, -, -, -, -, -, -, -, -, e0, e1, e2, -⟩ := idx_facts t
  intro a
  match a with
  | ⟨0, _⟩ =>
    show win0_5.index t (0 : Fin 3) * 1 ≤ (i 0).val ∧ (i 0).val < win0_5.index t (0 : Fin 3) * 1 + 1
    rw [e0, tv]; omega
  | ⟨1, _⟩ =>
    show win0_5.index t (1 : Fin 3) * 1024 ≤ (i 1).val ∧ (i 1).val < win0_5.index t (1 : Fin 3) * 1024 + 1024
    rw [e1, tv]; omega
  | ⟨2, _⟩ =>
    show win0_5.index t (2 : Fin 3) * 128 ≤ (i 2).val ∧ (i 2).val < win0_5.index t (2 : Fin 3) * 128 + 128
    rw [e2]; omega

/-- After the region the second output array holds, index by index, the projection of the context array as the region
    found it by the second weight as the region found it. -/
theorem projArr5 (c : Dev nD) :
    (dat0 (F := Ideal) V c).arrAt 5 cfg0.N
      = fun i => Cert.AttnSpec.proj (V c (Pipeline.arrRef spec0 0)) (V c (Pipeline.arrRef spec0 2)) (i 0) (i 1) (i 2) :=
  (dat0 (F := Ideal) V c).arrAt_eq_of_cover 5 (projArr (V c (Pipeline.arrRef spec0 0)) (V c (Pipeline.arrRef spec0 2)))
    (fun t _ => flushed5_eq V c t) cover5

/-- An index of the third output array is in point `t`'s block iff each coordinate is in the block's range on its axis. -/
theorem mem_blk6 (t : Fin cfg0.N) (i : S4x4096x128.Idx) :
    i ∈ ((cfg0.win 6).blk t).view.set ↔ ∀ a : Fin 3, win0_6.index t a * S1x1024x128.size a ≤ (i a).val ∧ (i a).val < win0_6.index t a * S1x1024x128.size a + S1x1024x128.size a := by
  show i ∈ ((View.whole main_v2_2).slice (win0_6.rect t)).set ↔ _
  rw [View.set_slice_whole, Rect.mem_set_unit]
  exact Iff.rfl

/-- Every index `(b, p, h)` of the third output array is in the block of the point `b·4 + p / 1024`, which writes it back. -/
theorem cover6 (i : S4x4096x128.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 128 := (i 2).isLt
  obtain ⟨t, tv⟩ : ∃ t : Fin cfg0.N, t.val = (i 0).val * 4 + (i 1).val / 1024 :=
    ⟨⟨(i 0).val * 4 + (i 1).val / 1024, by rw [show cfg0.N = 16 from N_0]; omega⟩, rfl⟩
  refine ⟨t, flush0_6 t, ?_⟩
  rw [mem_blk6]
  obtain ⟨-, -, -, -, -, -, -, -, -, -, -, -, -, -, -, e0, e1, e2⟩ := idx_facts t
  intro a
  match a with
  | ⟨0, _⟩ =>
    show win0_6.index t (0 : Fin 3) * 1 ≤ (i 0).val ∧ (i 0).val < win0_6.index t (0 : Fin 3) * 1 + 1
    rw [e0, tv]; omega
  | ⟨1, _⟩ =>
    show win0_6.index t (1 : Fin 3) * 1024 ≤ (i 1).val ∧ (i 1).val < win0_6.index t (1 : Fin 3) * 1024 + 1024
    rw [e1, tv]; omega
  | ⟨2, _⟩ =>
    show win0_6.index t (2 : Fin 3) * 128 ≤ (i 2).val ∧ (i 2).val < win0_6.index t (2 : Fin 3) * 128 + 128
    rw [e2]; omega

/-- After the region the third output array holds, index by index, the projection of the context array as the region
    found it by the third weight as the region found it. -/
theorem projArr6 (c : Dev nD) :
    (dat0 (F := Ideal) V c).arrAt 6 cfg0.N
      = fun i => Cert.AttnSpec.proj (V c (Pipeline.arrRef spec0 0)) (V c (Pipeline.arrRef spec0 3)) (i 0) (i 1) (i 2) :=
  (dat0 (F := Ideal) V c).arrAt_eq_of_cover 6 (projArr (V c (Pipeline.arrRef spec0 0)) (V c (Pipeline.arrRef spec0 3)))
    (fun t _ => flushed6_eq V c t) cover6

end Arrays

end Cert.KernelIdeal.ProjValue

end
-- ==== Proof.ArrSpec.lean ====
import proofs.«130832_j91044716740856_2_alg».proof.Proof.AttnRun
import proofs.«130832_j91044716740856_2_alg».proof.Proof.ProjValue
import proofs.«130832_j91044716740856_2_alg».proof.Proof.FlashRow
import proofs.«130832_j91044716740856_2_alg».proof.Proof.AttnSpec

/-! # The attention region's three input arrays, as projections of the launch arguments

At the ideal values the attention region is entered with three arrays that the projection region wrote: the context
array as launched, projected by the query weights times the constant `2⁻⁵` (the host scales the query weights
before the projection region reads them), by the key weights, and by the value weights. Each is read back through
the contents at the two regions' entries: the projection pipeline leaves in an output array the projection of its
context array by its weight array, as it found them; it found the context, key and value arrays as launched and, in
the scaled weights' buffer, the host's product. -/

noncomputable section

namespace Cert.KernelIdeal.Hand

open Cert.KernelIdeal Cert.KernelIdeal.Gen
open Idealize.ShloMosaic Idealize.ShloMosaic.TcCoe Idealize.SL.Sem

/-- The host's product of a weight array with the broadcast constant is, entry by entry, the entry times the
    constant's float word: the weight with the scale folded in. -/
theorem scaled_eq (x : (⟨S1024x128, .f32⟩ : BufTy).Contents (Elt Ideal)) :
    mulf x (broadcastInDim S1024x128 ![] bcast_S_S1024x128 (constant (F := Ideal) S_ .f32 0x3D000000#32))
      = Cert.FlashRow.scaledW x := by
  funext i
  simp only [Cert.FlashRow.scaledW, mulf, broadcastInDim, constant, Ideal.mulf_def, Ideal.ofBits_def]

variable (m : (ℓ : Loc nD τ sig) → Buf (Elt Ideal) ℓ) (ρ : Dev nD → PrngReg) (c : Dev nD)

/-- The attention region's query array: the context as launched, projected by the scaled query weights. -/
theorem V2_q :
    (V2 (F := Ideal) m ρ c main_v2_0 : S4x4096x128.Idx → EReal)
      = fun i => Cert.AttnSpec.proj (m ((c : Thread nD τ).loc main_arg0))
          (Cert.FlashRow.scaledW (m ((c : Thread nD τ).loc main_arg2))) (i 0) (i 1) (i 2) :=
  (V2_main_v2_0 m ρ c).trans ((Cert.KernelIdeal.ProjValue.projArr4 (V1 m ρ) c).trans (by
    show (fun i : S4x4096x128.Idx => Cert.AttnSpec.proj (V1 m ρ c main_arg0) (V1 m ρ c main_v1) (i 0) (i 1) (i 2)) = _
    rw [V1_main_arg0, V1_main_v1, scaled_eq]; rfl))

/-- The attention region's key array: the context as launched, projected by the key weights as launched. -/
theorem V2_k :
    (V2 (F := Ideal) m ρ c main_v2_1 : S4x4096x128.Idx → EReal)
      = fun i => Cert.AttnSpec.proj (m ((c : Thread nD τ).loc main_arg0))
          (m ((c : Thread nD τ).loc main_arg1)) (i 0) (i 1) (i 2) :=
  (V2_main_v2_1 m ρ c).trans ((Cert.KernelIdeal.ProjValue.projArr5 (V1 m ρ) c).trans (by
    show (fun i : S4x4096x128.Idx => Cert.AttnSpec.proj (V1 m ρ c main_arg0) (V1 m ρ c main_arg1) (i 0) (i 1) (i 2)) = _
    rw [V1_main_arg0, V1_main_arg1]; rfl))

/-- The attention region's value array: the context as launched, projected by the value weights as launched. -/
theorem V2_v :
    (V2 (F := Ideal) m ρ c main_v2_2 : S4x4096x128.Idx → EReal)
      = fun i => Cert.AttnSpec.proj (m ((c : Thread nD τ).loc main_arg0))
          (m ((c : Thread nD τ).loc main_arg3)) (i 0) (i 1) (i 2) :=
  (V2_main_v2_2 m ρ c).trans ((Cert.KernelIdeal.ProjValue.projArr6 (V1 m ρ) c).trans (by
    show (fun i : S4x4096x128.Idx => Cert.AttnSpec.proj (V1 m ρ c main_arg0) (V1 m ρ c main_arg3) (i 0) (i 1) (i 2)) = _
    rw [V1_main_arg0, V1_main_arg3]; rfl))

end Cert.KernelIdeal.Hand

end
-- ==== Proof.FiniteInputs.lean ====
import proofs.«130832_j91044716740856_2_alg».proof.Defs
import proofs.«130832_j91044716740856_2_alg».proof.Proof.Gen.Pre_finite_inputs
import Idealize.ShloMosaic.Lib.ReduceAll
import Idealize.ShloMosaic.Lib.ValueIdx

/-!
  The precondition `finite_inputs`, decoded at the extended reals. The predicate computes, for each of the four argument
  arrays, the conjunction over all entries of `|x| < +∞` (with `|x| = max x (-x)` and `+∞` the f32 pattern `0x7F800000`,
  which denotes `⊤`), and conjoins the four results. That it equals 1 therefore says that every entry of every argument is
  neither `⊤` nor `⊥`, i.e. a real number.
-/

noncomputable section

namespace Cert.FiniteInputs

open Idealize.ShloMosaic Idealize.SL.Sem

/-- The rank-0 shape has one index. -/
instance : Subsingleton Cert.Pre_finite_inputs.S_.Idx := ⟨fun a b => funext fun d => d.elim0⟩

/-- The f32 pattern `0x7F800000` is the extended real `⊤`. -/
theorem ofBits_inf_f32 : Ideal.ofBits .f32 0x7F800000#32 = (⊤ : EReal) := by
  simp [Ideal.ofBits, Ideal.ieee]

/-- An extended real whose absolute value `max x (-x)` is below `⊤` is neither infinity. -/
theorem ne_top_bot_of_abs_lt (x : EReal)
    (h : Ideal.cmp .olt (max x (-x)) (Ideal.ofBits .f32 0x7F800000#32) = 1#1) : x ≠ ⊤ ∧ x ≠ ⊥ := by
  rw [ofBits_inf_f32] at h
  induction x using EReal.rec with
  | bot => simp [Ideal.cmp] at h
  | top => simp [Ideal.cmp] at h
  | coe r => exact ⟨EReal.coe_ne_top r, EReal.coe_ne_bot r⟩

/-- One argument's test "every entry has `|x| < +∞`": when the reduction by `and` of the entrywise comparison comes out 1,
    every entry of `x` is neither infinity. -/
theorem all_finite {T : Shape} {axes : List (Fin T.rank)}
    (hb : Cert.Pre_finite_inputs.S_.BroadcastsInDim T (![] : Fin 0 → Fin T.rank))
    (hr : T.ReducesTo axes Cert.Pre_finite_inputs.S_) (hu : 0 < Cert.Pre_finite_inputs.S_.numel)
    (x : FVec Ideal T .f32) (init : IVec Cert.Pre_finite_inputs.S_ 1)
    (e : Host.reduce IntOp.andi
          (cmpf .olt (Host.absf x) (broadcastInDim T ![] hb (constant Cert.Pre_finite_inputs.S_ .f32 0x7F800000#32)))
          init hr hu ValueIdx.ix0 = 1#1) :
    ∀ i, x i ≠ ⊤ ∧ x i ≠ ⊥ := fun i =>
  ne_top_bot_of_abs_lt (x i) (Host.reduce_andi_all _ init hr hu ValueIdx.ix0 e i)

/-- The printed predicate read back: when `finite_inputs` of four arrays is all ones, every entry of each array is
    neither infinity. -/
theorem finite_of_fn [hP : Cert.Pre_finite_inputs.Facts]
    (x0 : FVec Ideal Cert.Pre_finite_inputs.S4x4096x1024 .f32) (x1 x2 x3 : FVec Ideal Cert.Pre_finite_inputs.S1024x128 .f32)
    (h : Cert.Pre_finite_inputs.fn (F := Ideal) x0 x1 x2 x3 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) ∧ (∀ i, x3 i ≠ ⊤ ∧ x3 i ≠ ⊥) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨all_finite _ _ _ x0 _ h0', all_finite _ _ _ x1 _ h1, all_finite _ _ _ x2 _ h2, all_finite _ _ _ x3 _ h3⟩

/-- The precondition of the idealized kernel, decoded: on every core, every entry of each of the four argument arrays
    is a real number (neither `⊤` nor `⊥`). The entries are compared as extended reals. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S4x4096x1024.Idx, @Ne EReal (m ((c.tc : Thread Cert.KernelIdeal.nD Cert.KernelIdeal.τ).loc Cert.KernelIdeal.main_arg0) i) ⊤ ∧ @Ne EReal (m ((c.tc : Thread Cert.KernelIdeal.nD Cert.KernelIdeal.τ).loc Cert.KernelIdeal.main_arg0) i) ⊥)
    ∧ (∀ i : Cert.Pre_finite_inputs.S1024x128.Idx, @Ne EReal (m ((c.tc : Thread Cert.KernelIdeal.nD Cert.KernelIdeal.τ).loc Cert.KernelIdeal.main_arg1) i) ⊤ ∧ @Ne EReal (m ((c.tc : Thread Cert.KernelIdeal.nD Cert.KernelIdeal.τ).loc Cert.KernelIdeal.main_arg1) i) ⊥)
    ∧ (∀ i : Cert.Pre_finite_inputs.S1024x128.Idx, @Ne EReal (m ((c.tc : Thread Cert.KernelIdeal.nD Cert.KernelIdeal.τ).loc Cert.KernelIdeal.main_arg2) i) ⊤ ∧ @Ne EReal (m ((c.tc : Thread Cert.KernelIdeal.nD Cert.KernelIdeal.τ).loc Cert.KernelIdeal.main_arg2) i) ⊥)
    ∧ (∀ i : Cert.Pre_finite_inputs.S1024x128.Idx, @Ne EReal (m ((c.tc : Thread Cert.KernelIdeal.nD Cert.KernelIdeal.τ).loc Cert.KernelIdeal.main_arg3) i) ⊤ ∧ @Ne EReal (m ((c.tc : Thread Cert.KernelIdeal.nD Cert.KernelIdeal.τ).loc Cert.KernelIdeal.main_arg3) i) ⊥) :=
  finite_of_fn _ _ _ _ (h c)

end Cert.FiniteInputs

end
-- ==== Proof.KernelSpec.lean ====
import proofs.«130832_j91044716740856_2_alg».proof.Proof.AttnRun
import proofs.«130832_j91044716740856_2_alg».proof.Proof.FlashValue
import proofs.«130832_j91044716740856_2_alg».proof.Proof.FlashRow
import proofs.«130832_j91044716740856_2_alg».proof.Proof.FlashTile
import proofs.«130832_j91044716740856_2_alg».proof.Proof.FlashArr
import proofs.«130832_j91044716740856_2_alg».proof.Proof.ArrSpec
import proofs.«130832_j91044716740856_2_alg».proof.Proof.FiniteInputs

import Idealize.ShloMosaic.Lib.Pipeline.Value
import Idealize.ShloMosaic.Lib.ValueIdx

/-! # The kernel returns causal attention of its arguments

The attention region's output block, entry by entry, is the numerator over the denominator of the running-maximum
evaluation over the key tiles the query tile visits; read at a row, that evaluation is the one-pass softmax run on the
row's masked scores, and, the region's three input arrays being the projections of the launch arguments (the query's
with the scale folded into its weight), the run's quotient is the specification's softmax-weighted sum of values. Laid
over the result array block by block, the kernel's run ends with the result at `Cert.AttnSpec.G` of the arguments. -/

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open Cert.AttnSpec Cert.FlashRow Cert.Lib.OnlineSoftmax

/-! ## One output row: the running buffers at an index are the one-pass softmax run over the row's tiles -/

section Row

variable (qi : Fin 4) (x0 : Vec Ideal S1x1024x128 .bf16) (x1 x2 : Vec Ideal S1x4096x128 .bf16) (r : Fin 1024) (h : Fin 128)

/-- Key (or value) tile `t` of a batch row: rows `1024 t … 1024 t + 1023`. -/
def tileOfRow (x : Vec Ideal S1x4096x128 .bf16) (t : Fin 4) : Vec Ideal S1x1024x128 .bf16 :=
  match t with
  | ⟨0, _⟩ => View.ld x rT0
  | ⟨1, _⟩ => View.ld x rT1
  | ⟨2, _⟩ => View.ld x rT2
  | ⟨3, _⟩ => View.ld x rT3
  | ⟨_ + 4, h⟩ => absurd h (by omega)

/-- The masked scores of query row `r` of query tile `qi` against each key tile, and the value column `h` of each tile. -/
def rowScore : Fin 4 → Fin 1024 → EReal := fun t => FlashTile.tileScore t.val qi (k1_pay29 x0) (tileOfRow x1 t) r
def rowVal : Fin 4 → Fin 1024 → EReal := fun t j => (tileOfRow x2 t (ix3 (0 : Fin 1) j h) : EReal)

/-- The running buffers read at row `r` (and column `h` of the numerator). -/
def idxSt (s : St Ideal) : EReal × EReal × EReal := (s.1 (ix2 r (0 : Fin 1)), s.2.1 (ix2 r (0 : Fin 1)), s.2.2 (ix2 r h))

theorem idx_st0 : idxSt r h (st0 (F := Ideal)) = (⊥, 0, 0) := by
  show ((k1_pay26 (F := Ideal)) (ix2 r (0 : Fin 1)), (k1_pay27 (F := Ideal)) (ix2 r (0 : Fin 1)), (k1_pay28 (F := Ideal)) (ix2 r h)) = _
  rw [FlashTile.pay26_apply, FlashTile.pay27_apply, FlashTile.pay28_apply]

/-- Key tile 0's update, read at the row, is one step of the run. -/
theorem idx_tile0 (s : St Ideal) :
    idxSt r h (tile0 (BitVec.ofNat 32 qi.val) (k1_pay29 x0) x1 x2 s)
      = step (rowScore qi x0 x1 r ⟨0, by omega⟩) (rowVal x2 h ⟨0, by omega⟩) (idxSt r h s) := by
  show (k1_pay31 (k1_pay3 (BitVec.ofNat 32 qi.val) (k1_pay29 x0) (View.ld x1 rT0) s.1) (ix2 r (0 : Fin 1)),
      k1_pay6 (BitVec.ofNat 32 qi.val) (k1_pay29 x0) (View.ld x1 rT0) s.1 s.2.1 (ix2 r (0 : Fin 1)),
      k1_pay30 (k1_pay7 (BitVec.ofNat 32 qi.val) (k1_pay29 x0) (View.ld x1 rT0) (View.ld x2 rT0) s.1 s.2.2) (ix2 r h)) = _
  rw [FlashTile.pay31_eq, FlashTile.pay30_eq]
  exact FlashTile.tile0_step qi (k1_pay29 x0) (View.ld x1 rT0) (View.ld x2 rT0) s.1 s.2.1 s.2.2 r h

/-- Key tile 1's update, read at the row, is one step of the run. -/
theorem idx_tile1 (s : St Ideal) :
    idxSt r h (tile1 (BitVec.ofNat 32 qi.val) (k1_pay29 x0) x1 x2 s)
      = step (rowScore qi x0 x1 r ⟨1, by omega⟩) (rowVal x2 h ⟨1, by omega⟩) (idxSt r h s) := by
  show (k1_pay33 (k1_pay9 (BitVec.ofNat 32 qi.val) (k1_pay29 x0) (View.ld x1 rT1) s.1) (ix2 r (0 : Fin 1)),
      k1_pay12 (BitVec.ofNat 32 qi.val) (k1_pay29 x0) (View.ld x1 rT1) s.1 s.2.1 (ix2 r (0 : Fin 1)),
      k1_pay32 (k1_pay13 (BitVec.ofNat 32 qi.val) (k1_pay29 x0) (View.ld x1 rT1) (View.ld x2 rT1) s.1 s.2.2) (ix2 r h)) = _
  rw [FlashTile.pay33_eq, FlashTile.pay32_eq]
  exact FlashTile.tile1_step qi (k1_pay29 x0) (View.ld x1 rT1) (View.ld x2 rT1) s.1 s.2.1 s.2.2 r h

/-- Key tile 2's update, read at the row, is one step of the run. -/
theorem idx_tile2 (s : St Ideal) :
    idxSt r h (tile2 (BitVec.ofNat 32 qi.val) (k1_pay29 x0) x1 x2 s)
      = step (rowScore qi x0 x1 r ⟨2, by omega⟩) (rowVal x2 h ⟨2, by omega⟩) (idxSt r h s) := by
  show (k1_pay35 (k1_pay15 (BitVec.ofNat 32 qi.val) (k1_pay29 x0) (View.ld x1 rT2) s.1) (ix2 r (0 : Fin 1)),
      k1_pay18 (BitVec.ofNat 32 qi.val) (k1_pay29 x0) (View.ld x1 rT2) s.1 s.2.1 (ix2 r (0 : Fin 1)),
      k1_pay34 (k1_pay19 (BitVec.ofNat 32 qi.val) (k1_pay29 x0) (View.ld x1 rT2) (View.ld x2 rT2) s.1 s.2.2) (ix2 r h)) = _
  rw [FlashTile.pay35_eq, FlashTile.pay34_eq]
  exact FlashTile.tile2_step qi (k1_pay29 x0) (View.ld x1 rT2) (View.ld x2 rT2) s.1 s.2.1 s.2.2 r h

/-- Key tile 3's update, read at the row, is one step of the run. -/
theorem idx_tile3 (s : St Ideal) :
    idxSt r h (tile3 (BitVec.ofNat 32 qi.val) (k1_pay29 x0) x1 x2 s)
      = step (rowScore qi x0 x1 r ⟨3, by omega⟩) (rowVal x2 h ⟨3, by omega⟩) (idxSt r h s) := by
  show (k1_pay37 (k1_pay21 (BitVec.ofNat 32 qi.val) (k1_pay29 x0) (View.ld x1 rT3) s.1) (ix2 r (0 : Fin 1)),
      k1_pay24 (BitVec.ofNat 32 qi.val) (k1_pay29 x0) (View.ld x1 rT3) s.1 s.2.1 (ix2 r (0 : Fin 1)),
      k1_pay36 (k1_pay25 (BitVec.ofNat 32 qi.val) (k1_pay29 x0) (View.ld x1 rT3) (View.ld x2 rT3) s.1 s.2.2) (ix2 r h)) = _
  rw [FlashTile.pay37_eq, FlashTile.pay36_eq]
  exact FlashTile.tile3_step qi (k1_pay29 x0) (View.ld x1 rT3) (View.ld x2 rT3) s.1 s.2.1 s.2.2 r h

theorem idx_after0 : idxSt r h (stAfter0 (BitVec.ofNat 32 qi.val) x0 x1 x2) = run (rowScore qi x0 x1 r) (rowVal x2 h) 1 (by omega) := by
  unfold stAfter0; rw [idx_tile0, idx_st0]; rfl
theorem idx_after1 : idxSt r h (stAfter1 (BitVec.ofNat 32 qi.val) x0 x1 x2) = run (rowScore qi x0 x1 r) (rowVal x2 h) 2 (by omega) := by
  unfold stAfter1; rw [idx_tile1, idx_after0]; rfl
theorem idx_after2 : idxSt r h (stAfter2 (BitVec.ofNat 32 qi.val) x0 x1 x2) = run (rowScore qi x0 x1 r) (rowVal x2 h) 3 (by omega) := by
  unfold stAfter2; rw [idx_tile2, idx_after1]; rfl
theorem idx_after3 : idxSt r h (stAfter3 (BitVec.ofNat 32 qi.val) x0 x1 x2) = run (rowScore qi x0 x1 r) (rowVal x2 h) 4 (by omega) := by
  unfold stAfter3; rw [idx_tile3, idx_after2]; rfl

/-- The output entry at query tile 0: numerator over denominator of the run after 1 tile. -/
theorem out_apply0 :
    k1_pay1 (stAfter0 (BitVec.ofNat 32 qi.val) x0 x1 x2).2.2 (stAfter0 (BitVec.ofNat 32 qi.val) x0 x1 x2).2.1 (ix3 (0 : Fin 1) r h)
      = Ideal.div (run (rowScore qi x0 x1 r) (rowVal x2 h) 1 (by omega)).2.2 (run (rowScore qi x0 x1 r) (rowVal x2 h) 1 (by omega)).2.1 := by
  rw [FlashTile.pay1_apply, ← idx_after0 qi x0 x1 x2 r h]; rfl

/-- The output entry at query tile 1: numerator over denominator of the run after 2 tiles. -/
theorem out_apply1 :
    k1_pay1 (stAfter1 (BitVec.ofNat 32 qi.val) x0 x1 x2).2.2 (stAfter1 (BitVec.ofNat 32 qi.val) x0 x1 x2).2.1 (ix3 (0 : Fin 1) r h)
      = Ideal.div (run (rowScore qi x0 x1 r) (rowVal x2 h) 2 (by omega)).2.2 (run (rowScore qi x0 x1 r) (rowVal x2 h) 2 (by omega)).2.1 := by
  rw [FlashTile.pay1_apply, ← idx_after1 qi x0 x1 x2 r h]; rfl

/-- The output entry at query tile 2: numerator over denominator of the run after 3 tiles. -/
theorem out_apply2 :
    k1_pay1 (stAfter2 (BitVec.ofNat 32 qi.val) x0 x1 x2).2.2 (stAfter2 (BitVec.ofNat 32 qi.val) x0 x1 x2).2.1 (ix3 (0 : Fin 1) r h)
      = Ideal.div (run (rowScore qi x0 x1 r) (rowVal x2 h) 3 (by omega)).2.2 (run (rowScore qi x0 x1 r) (rowVal x2 h) 3 (by omega)).2.1 := by
  rw [FlashTile.pay1_apply, ← idx_after2 qi x0 x1 x2 r h]; rfl

/-- The output entry at query tile 3: numerator over denominator of the run after 4 tiles. -/
theorem out_apply3 :
    k1_pay1 (stAfter3 (BitVec.ofNat 32 qi.val) x0 x1 x2).2.2 (stAfter3 (BitVec.ofNat 32 qi.val) x0 x1 x2).2.1 (ix3 (0 : Fin 1) r h)
      = Ideal.div (run (rowScore qi x0 x1 r) (rowVal x2 h) 4 (by omega)).2.2 (run (rowScore qi x0 x1 r) (rowVal x2 h) 4 (by omega)).2.1 := by
  rw [FlashTile.pay1_apply, ← idx_after3 qi x0 x1 x2 r h]; rfl

end Row

/-! ## One output entry at a grid point -/

section Point

variable (V : (c : Dev nD) → (b : Ref sig .tc) → Buf (Elt Ideal) ((c : Thread nD τ).loc b))

/-- The grid's second coordinate at point `t` is `t mod 4`: the query tile. -/
theorem coord1_val : ∀ t : Fin cfg1.N, ((grid1.coords t) 1).val = t.val % 4 :=
  (by decide +kernel : ∀ t : Fin grid1.N, ((grid1.coords t) 1).val = t.val % 4)

/-- The output block's entry `(r, h)` after the body at a point of query tile `qi`: the run over `qi + 1` tiles, numerator
    over denominator, on the point's query, key and value blocks. -/
theorem flashAt_row (c : Dev nD) (t : Fin cfg1.N) (qi : Fin 4) (hqi : t.val % 4 = qi.val) (r : Fin 1024) (h : Fin 128) :
    flashAt (F := Ideal) V c t (ix3 (0 : Fin 1) r h)
      = Ideal.div (run (rowScore qi (iblk1 V c 0 t) (iblk1 V c 1 t) r) (rowVal (iblk1 V c 2 t) h) (qi.val + 1) (by omega)).2.2
          (run (rowScore qi (iblk1 V c 0 t) (iblk1 V c 1 t) r) (rowVal (iblk1 V c 2 t) h) (qi.val + 1) (by omega)).2.1 := by
  have hw : BitVec.ofNat 32 ((grid1.coords t) 1).val = BitVec.ofNat 32 qi.val := by rw [coord1_val, hqi]
  match qi, hqi, hw with
  | ⟨0, _⟩, hq, hw =>
    have hq' : t.val % 4 = 0 := hq
    rw [flashAt_0 V c t (by omega), flashOut0_eq, hw]
    exact out_apply0 _ _ _ _ r h
  | ⟨1, _⟩, hq, hw =>
    have hq' : t.val % 4 = 1 := hq
    rw [flashAt_1 V c t (by omega) (by omega), flashOut1_eq, hw]
    exact out_apply1 _ _ _ _ r h
  | ⟨2, _⟩, hq, hw =>
    have hq' : t.val % 4 = 2 := hq
    rw [flashAt_2 V c t (by omega) (by omega) (by omega), flashOut2_eq, hw]
    exact out_apply2 _ _ _ _ r h
  | ⟨3, _⟩, hq, hw =>
    have hq' : t.val % 4 = 3 := hq
    rw [flashAt_3 V c t (by omega) (by omega) (by omega), flashOut3_eq, hw]
    exact out_apply3 _ _ _ _ r h

end Point

/-! ## The run's scores and values are the specification's -/

section Spec

variable (V : (c : Dev nD) → (b : Ref sig .tc) → Buf (Elt Ideal) ((c : Thread nD τ).loc b)) (c : Dev nD)
  (ctx : SCtx.Idx → EReal) (Wk Wq Wv : SW.Idx → EReal)

/-- Key tile `tt` of a batch row, at column `j`, is the row's entry at key position `1024 tt + j`. -/
theorem tileOfRow_apply (x : Vec Ideal S1x4096x128 .bf16) (tt : Fin 4) (j : Fin 1024) (d : Fin 128) :
    tileOfRow x tt (ix3 (0 : Fin 1) j d) = x (ix3 (0 : Fin 1) (keyPos tt j) d) := by
  match tt with
  | ⟨0, _⟩ => exact (ld_rT0 x j d).trans (congrArg (fun k => x (ix3 (0 : Fin 1) k d)) (Fin.ext (by show 1024 * 0 + j.val = 0 * 1024 + j.val; omega)))
  | ⟨1, _⟩ => exact (ld_rT1 x j d).trans (congrArg (fun k => x (ix3 (0 : Fin 1) k d)) (Fin.ext (by show 1024 * 1 + j.val = 1 * 1024 + j.val; omega)))
  | ⟨2, _⟩ => exact (ld_rT2 x j d).trans (congrArg (fun k => x (ix3 (0 : Fin 1) k d)) (Fin.ext (by show 1024 * 2 + j.val = 2 * 1024 + j.val; omega)))
  | ⟨3, _⟩ => exact (ld_rT3 x j d).trans (congrArg (fun k => x (ix3 (0 : Fin 1) k d)) (Fin.ext (by show 1024 * 3 + j.val = 3 * 1024 + j.val; omega)))

variable (hq : (V c main_v2_0 : S4x4096x128.Idx → EReal) = fun i => proj ctx (scaledW Wq) (i 0) (i 1) (i 2))
  (hk : (V c main_v2_1 : S4x4096x128.Idx → EReal) = fun i => proj ctx Wk (i 0) (i 1) (i 2))
  (hv : (V c main_v2_2 : S4x4096x128.Idx → EReal) = fun i => proj ctx Wv (i 0) (i 1) (i 2))

include hq hk in
/-- With the query array the projection by the scaled weight and the key array the projection by the key weight, the
    row's masked scores against the tiles are the specification's tile scores. -/
theorem rowScore_eq (t : Fin cfg1.N) (qi : Fin 4) (hqi : t.val % 4 = qi.val) (r : Fin 1024) :
    rowScore qi (iblk1 V c 0 t) (iblk1 V c 1 t) r
      = Cert.FlashRow.tileScore ctx Wk Wq ⟨t.val / 4, by have := pt_lt16 t; omega⟩ qi r := by
  funext tt j
  unfold rowScore FlashTile.tileScore Cert.FlashRow.tileScore
  refine if_congr Iff.rfl (Finset.sum_congr rfl fun d _ => ?_) rfl
  rw [FlashTile.pay29_apply, tileOfRow_apply, iblk1_0_apply, iblk1_1_apply, hq, hk]
  have e : (⟨t.val % 4 * 1024 + r.val, by omega⟩ : Fin 4096) = keyPos qi r := Fin.ext (by show t.val % 4 * 1024 + r.val = qi.val * 1024 + r.val; rw [hqi])
  show proj ctx (scaledW Wq) _ (⟨t.val % 4 * 1024 + r.val, _⟩ : Fin 4096) d * proj ctx Wk _ (keyPos tt j) d = _
  rw [e]
  rfl

include hv in
/-- With the value array the projection by the value weight, the tiles' value columns are the specification's. -/
theorem rowVal_eq (t : Fin cfg1.N) (h : Fin 128) :
    rowVal (iblk1 V c 2 t) h = Cert.FlashRow.tileVal ctx Wv ⟨t.val / 4, by have := pt_lt16 t; omega⟩ h := by
  funext tt j
  unfold rowVal Cert.FlashRow.tileVal
  rw [tileOfRow_apply, iblk1_2_apply, hv]
  rfl

include hq hk hv in
/-- So, for finite arguments, the output block's entry is the specification's attention output at the entry's batch
    row, query position and head coordinate. -/
theorem flashAt_eq_out (hctx : ∀ i, ctx i ≠ ⊤ ∧ ctx i ≠ ⊥) (hWk : ∀ i, Wk i ≠ ⊤ ∧ Wk i ≠ ⊥) (hWq : ∀ i, Wq i ≠ ⊤ ∧ Wq i ≠ ⊥)
    (hWv : ∀ i, Wv i ≠ ⊤ ∧ Wv i ≠ ⊥) (t : Fin cfg1.N) (r : Fin 1024) (h : Fin 128) :
    flashAt (F := Ideal) V c t (ix3 (0 : Fin 1) r h)
      = G ctx Wk Wq Wv (ix3 (⟨t.val / 4, by have := pt_lt16 t; omega⟩ : Fin 4) (⟨(t.val % 4) * 1024 + r.val, by omega⟩ : Fin 4096) h) := by
  have hlt : t.val % 4 < 4 := Nat.mod_lt _ (by omega)
  rw [flashAt_row V c t ⟨t.val % 4, hlt⟩ rfl r h, rowScore_eq V c ctx Wk Wq hq hk t ⟨t.val % 4, hlt⟩ rfl r, rowVal_eq V c ctx Wv hv t h,
    flash_row ctx Wk Wq Wv hctx hWk hWq hWv, G_apply]
  rfl

end Spec

/-! ## The kernel's run -/

section Run

variable (m : (ℓ : Loc nD τ sig) → Buf (Elt Ideal) ℓ) (ρ : Dev nD → PrngReg)

/-- For finite arguments the result array after the attention region is causal attention of the launch arguments. -/
theorem kernel_value [hP : Cert.Pre_finite_inputs.Facts] (hpre : Cert.Pre_KernelIdeal m) (c : Dev nD) :
    (dat1 (F := Ideal) (V2 m ρ) c).arrAt 3 cfg1.N
      = G (m ((c.tc : Thread nD τ).loc main_arg0)) (m ((c.tc : Thread nD τ).loc main_arg1))
          (m ((c.tc : Thread nD τ).loc main_arg2)) (m ((c.tc : Thread nD τ).loc main_arg3)) := by
  obtain ⟨h0, h1, h2, h3⟩ := Cert.FiniteInputs.finite_of_pre m hpre c
  exact flashArr (V2 m ρ) c _ fun t r h =>
    flashAt_eq_out (V2 m ρ) c _ _ _ _ (V2_q m ρ c) (V2_k m ρ c) (V2_v m ρ c) h0 h1 h2 h3 t r h

/-- Every weakly fair execution of the idealized kernel from finite arguments terminates with the result at causal
    attention of the arguments and the arguments unchanged. -/
theorem kernel_run [hP : Cert.Pre_finite_inputs.Facts] (hpre : Cert.Pre_KernelIdeal m) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v3)
          = G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run Cert.KernelIdeal.defs _ _).mono (fun r h c =>
    ⟨(h c _ (mem_uc main_v3 (by decide))).trans ((W3_main_v3 m ρ c).trans (kernel_value m ρ hpre c)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Run

end Cert.KernelIdeal.Hand

end
-- ==== Proof.lean ====
/-
  Single-head causal attention with its three projections: the kernel against its reference, over the extended reals.

  The reference computes, per batch row, `q = x·Wq`, `k = x·Wk`, `v = x·Wv`, the scores `q·kᵀ / √1024` masked to
  `-∞` above the diagonal, their softmax over the key axis, and the softmax-weighted sum of the values. The kernel
  folds the scale `1/32` into `Wq` on the host, computes the three projections in one region, and in a second region
  runs, per query tile of 1024 rows, the running-maximum form of the same softmax over the key tiles at or below the
  query tile, filling the masked scores with a large negative number that the idealization names `-∞`.

  * frames: the word-level kernel and its idealization run as two kernel regions after three host operations; each
    region's body meets its proof data at every grid point, and every argument array is read back unchanged at the end.
    The reference is a straight line of host operations.
  * preserves: the idealization's only rewrite is that named fill, once per key tile.
  * algebraic: over the extended reals with finite inputs, `√1024 = 32`, the scale moves through both contractions,
    the running-maximum update over tiles telescopes to the softmax over the visited keys, masked keys weigh `exp(-∞) = 0`,
    and the tiles' keys are exactly the keys at or before the query: both programs return `Cert.AttnSpec.G`.
-/
import proofs.«130832_j91044716740856_2_alg».proof.Defs
import proofs.«130832_j91044716740856_2_alg».proof.Proof.Gen.Kernel
import proofs.«130832_j91044716740856_2_alg».proof.Proof.Gen.KernelIdeal
import proofs.«130832_j91044716740856_2_alg».proof.Proof.Gen.ReferenceIdeal
import proofs.«130832_j91044716740856_2_alg».proof.Proof.Gen.Pre_finite_inputs
import proofs.«130832_j91044716740856_2_alg».proof.Proof.Gen.ReferenceIdeal.Run
import proofs.«130832_j91044716740856_2_alg».proof.Proof.Gen.ReferenceIdeal.Read
import proofs.«130832_j91044716740856_2_alg».proof.Proof.AttnRunBits
import proofs.«130832_j91044716740856_2_alg».proof.Proof.AttnRun
import proofs.«130832_j91044716740856_2_alg».proof.Proof.RefIsSpec
import proofs.«130832_j91044716740856_2_alg».proof.Proof.KernelSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k [hP : Cert.Pre_finite_inputs.Facts] : Cert.frame_Kernel (hKernel := Cert.Kernel.Gen.facts) :=
  fun m ρ _ => Cert.Kernel.Hand.frame m ρ

/-- So does its idealization. -/
theorem frame_ki [hP : Cert.Pre_finite_inputs.Facts] : Cert.frame_KernelIdeal (hKernelIdeal := Cert.KernelIdeal.Gen.facts) :=
  fun m ρ _ => Cert.KernelIdeal.Hand.frame m ρ

/-- The reference is a straight line of host operations: its run, the result dropped. -/
theorem frame_ri [hP : Cert.Pre_finite_inputs.Facts] : Cert.frame_ReferenceIdeal (hReferenceIdeal := Cert.ReferenceIdeal.Gen.facts) :=
  fun m ρ _ => (θ_run Cert.ReferenceIdeal.defs _ _).mono (fun _ h c => (h c).2) (Cert.ReferenceIdeal.Value.run (F := Ideal) m ρ)

/-- The idealization's four rewrites are one: the masked fill `-0.7·max` named `-∞`, once per key tile. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl⟩

/-- Both idealized programs return causal attention `Cert.AttnSpec.G` of the (agreeing, finite) arguments. -/
theorem algebraic [hP : Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' hpre hagree
  refine ⟨_, Cert.KernelIdeal.Hand.kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq_spec,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
